-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x200 : Shape := ⟨2, ![1024, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000x200 : Shape := ⟨2, ![100000, 200]⟩
abbrev S100000 : Shape := ⟨1, ![100000]⟩
abbrev S1 : Shape := ⟨1, ![1]⟩
abbrev S32 : Shape := ⟨1, ![32]⟩
abbrev S_ : Shape := ⟨0, ![]⟩

class Facts : Prop where
  bcast_S_S1024x200 : S_.BroadcastsInDim S1024x200 (![] : Fin 0 → Fin S1024x200.rank)
  reducesTo_S1024x200_S_d0_1 : S1024x200.ReducesTo [0, 1] S_
  h_S_ : 0 < S_.numel
  bcast_S_S288x200 : S_.BroadcastsInDim S288x200 (![] : Fin 0 → Fin S288x200.rank)
  reducesTo_S288x200_S_d0_1 : S288x200.ReducesTo [0, 1] S_
  bcast_S_S288 : S_.BroadcastsInDim S288 (![] : Fin 0 → Fin S288.rank)
  reducesTo_S288_S_d0 : S288.ReducesTo [0] S_
  bcast_S_S200x6144 : S_.BroadcastsInDim S200x6144 (![] : Fin 0 → Fin S200x6144.rank)
  reducesTo_S200x6144_S_d0_1 : S200x6144.ReducesTo [0, 1] S_
  bcast_S_S200 : S_.BroadcastsInDim S200 (![] : Fin 0 → Fin S200.rank)
  reducesTo_S200_S_d0 : S200.ReducesTo [0] S_
  bcast_S_S100000x200 : S_.BroadcastsInDim S100000x200 (![] : Fin 0 → Fin S100000x200.rank)
  reducesTo_S100000x200_S_d0_1 : S100000x200.ReducesTo [0, 1] S_
  bcast_S_S100000 : S_.BroadcastsInDim S100000 (![] : Fin 0 → Fin S100000.rank)
  reducesTo_S100000_S_d0 : S100000.ReducesTo [0] S_
  bcast_S_S1 : S_.BroadcastsInDim S1 (![] : Fin 0 → Fin S1.rank)
  reducesTo_S1_S_d0 : S1.ReducesTo [0] S_
  bcast_S_S32 : S_.BroadcastsInDim S32 (![] : Fin 0 → Fin S32.rank)
  reducesTo_S32_S_d0 : S32.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S32 .f32) (main_arg12 : FVec F S200 .f32) (main_arg13 : FVec F S200 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32 .f32 := Host.absf main_arg11
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S200 .f32 := Host.absf main_arg12
  let main_cst_22 : FVec F S_ .f32 := constant S_ .f32 0x7F800000#32
  let main_v60 : FVec F S200 .f32 := broadcastInDim S200 ![] bcast_S_S200 main_cst_22
  let main_v61 : IVec S200 1 := cmpf .olt main_v59 main_v60
  let main_c_23 : IVec S_ 1 := constantI S_ 1 1#1
  let main_v62 : IVec S_ 1 := (fun x v => Host.reduce IntOp.andi x v reducesTo_S200_S_d0 h_S_) main_v61 main_c_23
  let main_v63 : IVec S_ 1 := andi main_v58 main_v62
  let main_v64 : FVec F S200 .f32 := Host.absf main_arg13
  let main_cst_24 : FVec F S_ .f32 := constant S_ .f32 0x7F800000#32
  let main_v65 : FVec F S200 .f32 := broadcastInDim S200 ![] bcast_S_S200 main_cst_24
  let main_v66 : IVec S200 1 := cmpf .olt main_v64 main_v65
  let main_c_25 : IVec S_ 1 := constantI S_ 1 1#1
  let main_v67 : IVec S_ 1 := (fun x v => Host.reduce IntOp.andi x v reducesTo_S200_S_d0 h_S_) main_v66 main_c_25
  fn_part4 (F := F) main_v63 main_v67

def fn_part2 {F : FTy → Type} [FloatOps F] (main_arg7 : FVec F S100000 .f32) (main_arg8 : FVec F S1 .f32) (main_arg9 : FVec F S1 .f32) (main_arg10 : FVec F S32 .f32) (main_arg11 : FVec F S32 .f32) (main_arg12 : FVec F S200 .f32) (main_arg13 : FVec F S200 .f32) (main_v33 : IVec S_ 1) : IVec S_ 1 :=
  let main_v34 : FVec F S100000 .f32 := Host.absf main_arg7
  let main_cst_12 : FVec F S_ .f32 := constant S_ .f32 0x7F800000#32
  let main_v35 : FVec F S100000 .f32 := broadcastInDim S100000 ![] bcast_S_S100000 main_cst_12
  let main_v36 : IVec S100000 1 := cmpf .olt main_v34 main_v35
  let main_c_13 : IVec S_ 1 := constantI S_ 1 1#1
  let main_v37 : IVec S_ 1 := (fun x v => Host.reduce IntOp.andi x v reducesTo_S100000_S_d0 h_S_) main_v36 main_c_13
  let main_v38 : IVec S_ 1 := andi main_v33 main_v37
  let main_v39 : FVec F S1 .f32 := Host.absf main_arg8
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg11 main_arg12 main_arg13 main_v48 main_v49 main_v50

def fn_part1 {F : FTy → Type} [FloatOps F] (main_arg4 : FVec F S200x6144 .f32) (main_arg5 : FVec F S200 .f32) (main_arg6 : FVec F S100000x200 .f32) (main_arg7 : FVec F S100000 .f32) (main_arg8 : FVec F S1 .f32) (main_arg9 : FVec F S1 .f32) (main_arg10 : FVec F S32 .f32) (main_arg11 : FVec F S32 .f32) (main_arg12 : FVec F S200 .f32) (main_arg13 : FVec F S200 .f32) (main_v13 : IVec S_ 1) (main_v16 : IVec S288 1) : IVec S_ 1 :=
  let main_c_5 : IVec S_ 1 := constantI S_ 1 1#1
  let main_v17 : IVec S_ 1 := (fun x v => Host.reduce IntOp.andi x v reducesTo_S288_S_d0 h_S_) main_v16 main_c_5
  let main_v18 : IVec S_ 1 := andi main_v13 main_v17
  let main_v19 : FVec F S200x6144 .f32 := Host.absf main_arg4
  let main_cst_6 : FVec F S_ .f32 := constant S_ .f32 0x7F800000#32
  let main_v20 : FVec F S200x6144 .f32 := broadcastInDim S200x6144 ![] bcast_S_S200x6144 main_cst_6
  let main_v21 : IVec S200x6144 1 := cmpf .olt main_v19 main_v20
  let main_c_7 : IVec S_ 1 := constantI S_ 1 1#1
  let main_v22 : IVec S_ 1 := (fun x v => Host.reduce IntOp.andi x v reducesTo_S200x6144_S_d0_1 h_S_) main_v21 main_c_7
  let main_v23 : IVec S_ 1 := andi main_v18 main_v22
  let main_v24 : FVec F S200 .f32 := Host.absf main_arg5
  let main_cst_8 : FVec F S_ .f32 := constant S_ .f32 0x7F800000#32
  let main_v25 : FVec F S200 .f32 := broadcastInDim S200 ![] bcast_S_S200 main_cst_8
  let main_v26 : IVec S200 1 := cmpf .olt main_v24 main_v25
  let main_c_9 : IVec S_ 1 := constantI S_ 1 1#1
  let main_v27 : IVec S_ 1 := (fun x v => Host.reduce IntOp.andi x v reducesTo_S200_S_d0 h_S_) main_v26 main_c_9
  let main_v28 : IVec S_ 1 := andi main_v23 main_v27
  let main_v29 : FVec F S100000x200 .f32 := Host.absf main_arg6
  let main_cst_10 : FVec F S_ .f32 := constant S_ .f32 0x7F800000#32
  let main_v30 : FVec F S100000x200 .f32 := broadcastInDim S100000x200 ![] bcast_S_S100000x200 main_cst_10
  let main_v31 : IVec S100000x200 1 := cmpf .olt main_v29 main_v30
  let main_c_11 : IVec S_ 1 := constantI S_ 1 1#1
  let main_v32 : IVec S_ 1 := (fun x v => Host.reduce IntOp.andi x v reducesTo_S100000x200_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x200 .f32) (main_arg1 : FVec F S1024x200 .f32) (main_arg2 : FVec F S288x200 .f32) (main_arg3 : FVec F S288 .f32) (main_arg4 : FVec F S200x6144 .f32) (main_arg5 : FVec F S200 .f32) (main_arg6 : FVec F S100000x200 .f32) (main_arg7 : FVec F S100000 .f32) (main_arg8 : FVec F S1 .f32) (main_arg9 : FVec F S1 .f32) (main_arg10 : FVec F S32 .f32) (main_arg11 : FVec F S32 .f32) (main_arg12 : FVec F S200 .f32) (main_arg13 : FVec F S200 .f32) : IVec S_ 1 :=
  let main_v0 : FVec F S1024x200 .f32 := Host.absf main_arg0
  let main_cst : FVec F S_ .f32 := constant S_ .f32 0x7F800000#32
  let main_v1 : FVec F S1024x200 .f32 := broadcastInDim S1024x200 ![] bcast_S_S1024x200 main_cst
  let main_v2 : IVec S1024x200 1 := cmpf .olt main_v0 main_v1
  let main_c : IVec S_ 1 := constantI S_ 1 1#1
  let main_v3 : IVec S_ 1 := (fun x v => Host.reduce IntOp.andi x v reducesTo_S1024x200_S_d0_1 h_S_) main_v2 main_c
  let main_v4 : FVec F S1024x200 .f32 := Host.absf main_arg1
  let main_cst_0 : FVec F S_ .f32 := constant S_ .f32 0x7F800000#32
  let main_v5 : FVec F S1024x200 .f32 := broadcastInDim S1024x200 ![] bcast_S_S1024x200 main_cst_0
  let main_v6 : IVec S1024x200 1 := cmpf .olt main_v4 main_v5
  let main_c_1 : IVec S_ 1 := constantI S_ 1 1#1
  let main_v7 : IVec S_ 1 := (fun x v => Host.reduce IntOp.andi x v reducesTo_S1024x200_S_d0_1 h_S_) main_v6 main_c_1
  let main_v8 : IVec S_ 1 := andi main_v3 main_v7
  let main_v9 : FVec F S288x200 .f32 := Host.absf main_arg2
  let main_cst_2 : FVec F S_ .f32 := constant S_ .f32 0x7F800000#32
  let main_v10 : FVec F S288x200 .f32 := broadcastInDim S288x200 ![] bcast_S_S288x200 main_cst_2
  let main_v11 : IVec S288x200 1 := cmpf .olt main_v9 main_v10
  let main_c_3 : IVec S_ 1 := constantI S_ 1 1#1
  let main_v12 : IVec S_ 1 := (fun x v => Host.reduce IntOp.andi x v reducesTo_S288x200_S_d0_1 h_S_) main_v11 main_c_3
  let main_v13 : IVec S_ 1 := andi main_v8 main_v12
  let main_v14 : FVec F S288 .f32 := Host.absf main_arg3
  let main_cst_4 : FVec F S_ .f32 := constant S_ .f32 0x7F800000#32
  let main_v15 : FVec F S288 .f32 := broadcastInDim S288 ![] bcast_S_S288 main_cst_4
  let main_v16 : IVec S288 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x200 : Shape := ⟨2, ![1024, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000x200 : Shape := ⟨2, ![100000, 200]⟩
abbrev S100000 : Shape := ⟨1, ![100000]⟩
abbrev S1 : Shape := ⟨1, ![1]⟩
abbrev S32 : Shape := ⟨1, ![32]⟩
abbrev S_ : Shape := ⟨0, ![]⟩
abbrev S1x1 : Shape := ⟨2, ![1, 1]⟩
abbrev S200x288 : Shape := ⟨2, ![200, 288]⟩
abbrev S1024x288 : Shape := ⟨2, ![1024, 288]⟩
abbrev S1x288 : Shape := ⟨2, ![1, 288]⟩
abbrev S1024x32x9 : Shape := ⟨3, ![1024, 32, 9]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1x32x1 : Shape := ⟨3, ![1, 32, 1]⟩
abbrev S1024x6144 : Shape := ⟨2, ![1024, 6144]⟩
abbrev S6144x200 : Shape := ⟨2, ![6144, 200]⟩
abbrev S1x200 : Shape := ⟨2, ![1, 200]⟩
abbrev S1024x100000 : Shape := ⟨2, ![1024, 100000]⟩
abbrev S1024 : Shape := ⟨1, ![1024]⟩
abbrev S1024x1024 : Shape := ⟨2, ![1024, 1024]⟩
abbrev S200x1024 : Shape := ⟨2, ![200, 1024]⟩
abbrev S1x1024 : Shape := ⟨2, ![1, 1024]⟩

abbrev nBuf : Space → Nat
  | .hbm => 173
  | .vmem => 7
  | .smem => 0
  | _ => 0

abbrev hbmTy0_0 (i : Nat) : BufTy := match i % 128 with
  | 0 => ⟨S1024x200, .f32⟩
  | 1 => ⟨S1024x200, .f32⟩
  | 2 => ⟨S288x200, .f32⟩
  | 3 => ⟨S288, .f32⟩
  | 4 => ⟨S200x6144, .f32⟩
  | 5 => ⟨S200, .f32⟩
  | 6 => ⟨S100000x200, .f32⟩
  | 7 => ⟨S100000, .f32⟩
  | 8 => ⟨S1, .f32⟩
  | 9 => ⟨S1, .f32⟩
  | 10 => ⟨S32, .f32⟩
  | 11 => ⟨S32, .f32⟩
  | 12 => ⟨S200, .f32⟩
  | 13 => ⟨S200, .f32⟩
  | 14 => ⟨S_, .f32⟩
  | 15 => ⟨S_, .f32⟩
  | 16 => ⟨S_, .f32⟩
  | 17 => ⟨S_, .f32⟩
  | 18 => ⟨S_, .i32⟩
  | 19 => ⟨S_, .f32⟩
  | 20 => ⟨S_, .f32⟩
  | 21 => ⟨S1x1, .f32⟩
  | 22 => ⟨S_, .f32⟩
  | 23 => ⟨S1x1, .f32⟩
  | 24 => ⟨S1x1, .f32⟩
  | 25 => ⟨S1024x200, .f32⟩
  | 26 => ⟨S1024x200, .f32⟩
  | 27 => ⟨S1024x200, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .i1⟩
  | 36 => ⟨S_, .f32⟩
  | 37 => ⟨S_, .f32⟩
  | 38 => ⟨S_, .f32⟩
  | 39 => ⟨S_, .f32⟩
  | 40 => ⟨S_, .f32⟩
  | 41 => ⟨S1024x200, .f32⟩
  | 42 => ⟨S1024x200, .f32⟩
  | 43 => ⟨S_, .f32⟩
  | 44 => ⟨S_, .f32⟩
  | 45 => ⟨S_, .f32⟩
  | 46 => ⟨S1024x200, .f32⟩
  | 47 => ⟨S1024x200, .f32⟩
  | 48 => ⟨S1024x200, .f32⟩
  | 49 => ⟨S1024x200, .f32⟩
  | 50 => ⟨S1024x200, .f32⟩
  | 51 => ⟨S1024x200, .f32⟩
  | 52 => ⟨S200x288, .f32⟩
  | 53 => ⟨S1024x288, .f32⟩
  | 54 => ⟨S1x288, .f32⟩
  | 55 => ⟨S1024x288, .f32⟩
  | 56 => ⟨S1024x288, .f32⟩
  | 57 => ⟨S1024x32x9, .f32⟩
  | 58 => ⟨S192, .i32⟩
  | 59 => ⟨S192x1, .i32⟩
  | 60 => ⟨S9, .i32⟩
  | 61 => ⟨S1x9, .i32⟩
  | 62 => ⟨S192x9, .i32⟩
  | 63 => ⟨S192x9, .i32⟩
  | 64 => ⟨S192x9, .i32⟩
  | 65 => ⟨S_, .i32⟩
  | 66 => ⟨S192x9, .i32⟩
  | 67 => ⟨S192x9, .i1⟩
  | 68 => ⟨S_, .i32⟩
  | 69 => ⟨S192x9, .i32⟩
  | 70 => ⟨S192x9, .i32⟩
  | 71 => ⟨S192x9, .i32⟩
  | 72 => ⟨S192x9x1, .i32⟩
  | 73 => ⟨S1024x192x9, .f32⟩
  | 74 => ⟨S1024x32x192, .f32⟩
  | 75 => ⟨S_, .f32⟩
  | 76 => ⟨S32, .f32⟩
  | 77 => ⟨S1x32x1, .f32⟩
  | 78 => ⟨S_, .f32⟩
  | 79 => ⟨S1x32x1, .f32⟩
  | 80 => ⟨S1x32x1, .f32⟩
  | 81 => ⟨S_, .i32⟩
  | 82 => ⟨S_, .f32⟩
  | 83 => ⟨S32, .f32⟩
  | 84 => ⟨S1x32x1, .f32⟩
  | 85 => ⟨S_, .f32⟩
  | 86 => ⟨S1x32x1, .f32⟩
  | 87 => ⟨S1x32x1, .f32⟩
  | 88 => ⟨S1024x32x192, .f32⟩
  | 89 => ⟨S1024x32x192, .f32⟩
  | 90 => ⟨S1024x32x192, .f32⟩
  | 91 => ⟨S_, .f32⟩
  | 92 => ⟨S_, .f32⟩
  | 93 => ⟨S_, .f32⟩
  | 94 => ⟨S_, .f32⟩
  | 95 => ⟨S32, .f32⟩
  | 96 => ⟨S1x32x1, .f32⟩
  | 97 => ⟨S1x32x1, .f32⟩
  | 98 => ⟨S1x32x1, .f32⟩
  | 99 => ⟨S_, .f32⟩
  | 100 => ⟨S_, .i1⟩
  | 101 => ⟨S_, .f32⟩
  | 102 => ⟨S_, .f32⟩
  | 103 => ⟨S1x32x1, .f32⟩
  | 104 => ⟨S1x32x1, .f32⟩
  | 105 => ⟨S1x32x1, .f32⟩
  | 106 => ⟨S1x32x1, .f32⟩
  | 107 => ⟨S1024x32x192, .f32⟩
  | 108 => ⟨S1024x32x192, .f32⟩
  | 109 => ⟨S_, .f32⟩
  | 110 => ⟨S1x32x1, .f32⟩
  | 111 => ⟨S1x32x1, .f32⟩
  | 112 => ⟨S1x32x1, .f32⟩
  | 113 => ⟨S1024x32x192, .f32⟩
  | 114 => ⟨S1024x32x192, .f32⟩
  | 115 => ⟨S1024x32x192, .f32⟩
  | 116 => ⟨S1024x32x192, .f32⟩
  | 117 => ⟨S1024x32x192, .f32⟩
  | 118 => ⟨S1024x32x192, .f32⟩
  | 119 => ⟨S1024x6144, .f32⟩
  | 120 => ⟨S6144x200, .f32⟩
  | 121 => ⟨S1024x200, .f32⟩
  | 122 => ⟨S1x200, .f32⟩
  | 123 => ⟨S1024x200, .f32⟩
  | 124 => ⟨S1024x200, .f32⟩
  | 125 => ⟨S_, .f32⟩
  | 126 => ⟨S200, .f32⟩
  | 127 => ⟨S1x200, .f32⟩
  | _ => ⟨S1024x200, .f32⟩

abbrev hbmTy0_1 (i : Nat) : BufTy := match i % 128 with
  | 0 => ⟨S_, .f32⟩
  | 1 => ⟨S1x200, .f32⟩
  | 2 => ⟨S1x200, .f32⟩
  | 3 => ⟨S_, .i32⟩
  | 4 => ⟨S_, .f32⟩
  | 5 => ⟨S200, .f32⟩
  | 6 => ⟨S1x200, .f32⟩
  | 7 => ⟨S_, .f32⟩
  | 8 => ⟨S1x200, .f32⟩
  | 9 => ⟨S1x200, .f32⟩
  | 10 => ⟨S1024x200, .f32⟩
  | 11 => ⟨S1024x200, .f32⟩
  | 12 => ⟨S1024x200, .f32⟩
  | 13 => ⟨S_, .f32⟩
  | 14 => ⟨S_, .f32⟩
  | 15 => ⟨S_, .f32⟩
  | 16 => ⟨S_, .f32⟩
  | 17 => ⟨S200, .f32⟩
  | 18 => ⟨S1x200, .f32⟩
  | 19 => ⟨S1x200, .f32⟩
  | 20 => ⟨S1x200, .f32⟩
  | 21 => ⟨S_, .f32⟩
  | 22 => ⟨S_, .i1⟩
  | 23 => ⟨S_, .f32⟩
  | 24 => ⟨S_, .f32⟩
  | 25 => ⟨S1x200, .f32⟩
  | 26 => ⟨S1x200, .f32⟩
  | 27 => ⟨S1x200, .f32⟩
  | 28 => ⟨S1x200, .f32⟩
  | 29 => ⟨S1024x200, .f32⟩
  | 30 => ⟨S1024x200, .f32⟩
  | 31 => ⟨S_, .f32⟩
  | 32 => ⟨S1x200, .f32⟩
  | 33 => ⟨S1x200, .f32⟩
  | 34 => ⟨S1x200, .f32⟩
  | 35 => ⟨S1024x200, .f32⟩
  | 36 => ⟨S1024x200, .f32⟩
  | 37 => ⟨S1024x200, .f32⟩
  | 38 => ⟨S1024x200, .f32⟩
  | 39 => ⟨S1024x200, .f32⟩
  | 40 => ⟨S1024x200, .f32⟩
  | 41 => ⟨S_, .f32⟩
  | 42 => ⟨S1024x200, .f32⟩
  | 43 => ⟨S1024x200, .f32⟩
  | 44 => ⟨S1024x100000, .f32⟩
  | _ => ⟨S1024x200, .f32⟩

abbrev hbmTy (i : Nat) : BufTy := match i / 128 with
  | 0 => hbmTy0_0 i
  | 1 => hbmTy0_1 i
  | _ => ⟨S1024x200, .f32⟩

abbrev bufTy : (tb : Table) → Fin (tcTables nBuf tb) → BufTy
  | .hbm, ⟨i, _⟩ => hbmTy i
  | .local _ .vmem, ⟨0, _⟩ => ⟨S1024x200, .f32⟩
  | .local _ .vmem, ⟨1, _⟩ => ⟨S1024x200, .f32⟩
  | .local _ .vmem, ⟨2, _⟩ => ⟨S1024x200, .f32⟩
  | .local _ .vmem, ⟨3, _⟩ => ⟨S1024, .f32⟩
  | .local _ .vmem, ⟨4, _⟩ => ⟨S1024, .f32⟩
  | .local _ .vmem, ⟨5, _⟩ => ⟨S1024x1024, .f32⟩
  | .local _ .vmem, ⟨6, _⟩ => ⟨S1024x1024, .f32⟩
  | _, _ => ⟨S1024x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_c : Ref sig .tc := ⟨.hbm, 18, rfl⟩
abbrev main_call0_cst : Ref sig .tc := ⟨.hbm, 19, rfl⟩
abbrev main_call0_v0 : Ref sig .tc := ⟨.hbm, 20, rfl⟩
abbrev main_call0_v1 : Ref sig .tc := ⟨.hbm, 21, rfl⟩
abbrev main_call0_cst_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_cst_1 : Ref sig .tc := ⟨.hbm, 29, rfl⟩
abbrev main_call0_v8 : Ref sig .tc := ⟨.hbm, 30, rfl⟩
abbrev main_call0_cst_2 : Ref sig .tc := ⟨.hbm, 31, rfl⟩
abbrev main_call0_v9 : Ref sig .tc := ⟨.hbm, 32, rfl⟩
abbrev main_call0_v10 : Ref sig .tc := ⟨.hbm, 33, rfl⟩
abbrev main_call0_cst_3 : Ref sig .tc := ⟨.hbm, 34, rfl⟩
abbrev main_call0_v11 : Ref sig .tc := ⟨.hbm, 35, rfl⟩
abbrev main_call0_cst_4 : Ref sig .tc := ⟨.hbm, 36, rfl⟩
abbrev main_call0_call0_v0 : Ref sig .tc := ⟨.hbm, 37, rfl⟩
abbrev main_v2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_cst_1 : Ref sig .tc := ⟨.hbm, 43, rfl⟩
abbrev main_v7 : Ref sig .tc := ⟨.hbm, 44, rfl⟩
abbrev main_v8 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_c_2 : Ref sig .tc := ⟨.hbm, 65, rfl⟩
abbrev main_v28 : Ref sig .tc := ⟨.hbm, 66, rfl⟩
abbrev main_v29 : Ref sig .tc := ⟨.hbm, 67, rfl⟩
abbrev main_c_3 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_cst_4 : Ref sig .tc := ⟨.hbm, 75, rfl⟩
abbrev main_v36 : Ref sig .tc := ⟨.hbm, 76, rfl⟩
abbrev main_v37 : Ref sig .tc := ⟨.hbm, 77, rfl⟩
abbrev main_cst_5 : Ref sig .tc := ⟨.hbm, 78, rfl⟩
abbrev main_v38 : Ref sig .tc := ⟨.hbm, 79, rfl⟩
abbrev main_v39 : Ref sig .tc := ⟨.hbm, 80, rfl⟩
abbrev main_c_6 : Ref sig .tc := ⟨.hbm, 81, rfl⟩
abbrev main_call1_cst : Ref sig .tc := ⟨.hbm, 82, rfl⟩
abbrev main_call1_v0 : Ref sig .tc := ⟨.hbm, 83, rfl⟩
abbrev main_call1_v1 : Ref sig .tc := ⟨.hbm, 84, rfl⟩
abbrev main_call1_cst_0 : Ref sig .tc := ⟨.hbm, 85, rfl⟩
abbrev main_call1_v2 : Ref sig .tc := ⟨.hbm, 86, rfl⟩
abbrev main_call1_v3 : Ref sig .tc := ⟨.hbm, 87, rfl⟩
abbrev main_call1_v4 : Ref sig .tc := ⟨.hbm, 88, rfl⟩
abbrev main_call1_v5 : Ref sig .tc := ⟨.hbm, 89, rfl⟩
abbrev main_call1_v6 : Ref sig .tc := ⟨.hbm, 90, rfl⟩
abbrev main_call1_v7 : Ref sig .tc := ⟨.hbm, 91, rfl⟩
abbrev main_call1_cst_1 : Ref sig .tc := ⟨.hbm, 92, rfl⟩
abbrev main_call1_v8 : Ref sig .tc := ⟨.hbm, 93, rfl⟩
abbrev main_call1_cst_2 : Ref sig .tc := ⟨.hbm, 94, rfl⟩
abbrev main_call1_v9 : Ref sig .tc := ⟨.hbm, 95, rfl⟩
abbrev main_call1_v10 : Ref sig .tc := ⟨.hbm, 96, rfl⟩
abbrev main_call1_v11 : Ref sig .tc := ⟨.hbm, 97, rfl⟩
abbrev main_call1_v12 : Ref sig .tc := ⟨.hbm, 98, rfl⟩
abbrev main_call1_cst_3 : Ref sig .tc := ⟨.hbm, 99, rfl⟩
abbrev main_call1_v13 : Ref sig .tc := ⟨.hbm, 100, rfl⟩
abbrev main_call1_cst_4 : Ref sig .tc := ⟨.hbm, 101, rfl⟩
abbrev main_call1_call0_v0 : Ref sig .tc := ⟨.hbm, 102, rfl⟩
abbrev main_call1_call0_v1 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_cst_7 : Ref sig .tc := ⟨.hbm, 109, rfl⟩
abbrev main_v45 : Ref sig .tc := ⟨.hbm, 110, rfl⟩
abbrev main_v46 : Ref sig .tc := ⟨.hbm, 111, rfl⟩
abbrev main_v47 : Ref sig .tc := ⟨.hbm, 112, rfl⟩
abbrev main_v48 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_cst_8 : Ref sig .tc := ⟨.hbm, 125, rfl⟩
abbrev main_v60 : Ref sig .tc := ⟨.hbm, 126, rfl⟩
abbrev main_v61 : Ref sig .tc := ⟨.hbm, 127, rfl⟩
abbrev main_cst_9 : Ref sig .tc := ⟨.hbm, 128, rfl⟩
abbrev main_v62 : Ref sig .tc := ⟨.hbm, 129, rfl⟩
abbrev main_v63 : Ref sig .tc := ⟨.hbm, 130, rfl⟩
abbrev main_c_10 : Ref sig .tc := ⟨.hbm, 131, rfl⟩
abbrev main_call2_cst : Ref sig .tc := ⟨.hbm, 132, rfl⟩
abbrev main_call2_v0 : Ref sig .tc := ⟨.hbm, 133, rfl⟩
abbrev main_call2_v1 : Ref sig .tc := ⟨.hbm, 134, rfl⟩
abbrev main_call2_cst_0 : Ref sig .tc := ⟨.hbm, 135, rfl⟩
abbrev main_call2_v2 : Ref sig .tc := ⟨.hbm, 136, rfl⟩
abbrev main_call2_v3 : Ref sig .tc := ⟨.hbm, 137, rfl⟩
abbrev main_call2_v4 : Ref sig .tc := ⟨.hbm, 138, rfl⟩
abbrev main_call2_v5 : Ref sig .tc := ⟨.hbm, 139, rfl⟩
abbrev main_call2_v6 : Ref sig .tc := ⟨.hbm, 140, rfl⟩
abbrev main_call2_v7 : Ref sig .tc := ⟨.hbm, 141, rfl⟩
abbrev main_call2_cst_1 : Ref sig .tc := ⟨.hbm, 142, rfl⟩
abbrev main_call2_v8 : Ref sig .tc := ⟨.hbm, 143, rfl⟩
abbrev main_call2_cst_2 : Ref sig .tc := ⟨.hbm, 144, rfl⟩
abbrev main_call2_v9 : Ref sig .tc := ⟨.hbm, 145, rfl⟩
abbrev main_call2_v10 : Ref sig .tc := ⟨.hbm, 146, rfl⟩
abbrev main_call2_v11 : Ref sig .tc := ⟨.hbm, 147, rfl⟩
abbrev main_call2_v12 : Ref sig .tc := ⟨.hbm, 148, rfl⟩
abbrev main_call2_cst_3 : Ref sig .tc := ⟨.hbm, 149, rfl⟩
abbrev main_call2_v13 : Ref sig .tc := ⟨.hbm, 150, rfl⟩
abbrev main_call2_cst_4 : Ref sig .tc := ⟨.hbm, 151, rfl⟩
abbrev main_call2_call0_v0 : Ref sig .tc := ⟨.hbm, 152, rfl⟩
abbrev main_call2_call0_v1 : Ref sig .tc := ⟨.hbm, 153, rfl⟩
abbrev main_v64 : Ref sig .tc := ⟨.hbm, 154, rfl⟩
abbrev main_v65 : Ref sig .tc := ⟨.hbm, 155, rfl⟩
abbrev main_v66 : Ref sig .tc := ⟨.hbm, 156, rfl⟩
abbrev main_v67 : Ref sig .tc := ⟨.hbm, 157, rfl⟩
abbrev main_v68 : Ref sig .tc := ⟨.hbm, 158, rfl⟩
abbrev main_cst_11 : Ref sig .tc := ⟨.hbm, 159, rfl⟩
abbrev main_v69 : Ref sig .tc := ⟨.hbm, 160, rfl⟩
abbrev main_v70 : Ref sig .tc := ⟨.hbm, 161, rfl⟩
abbrev main_v71 : Ref sig .tc := ⟨.hbm, 162, rfl⟩
abbrev main_v72 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_v77 : Ref sig .tc := ⟨.hbm, 168, rfl⟩
abbrev main_call3_cst : Ref sig .tc := ⟨.hbm, 169, rfl⟩
abbrev main_call3_v0 : Ref sig .tc := ⟨.hbm, 170, rfl⟩
abbrev main_v78 : Ref sig .tc := ⟨.hbm, 171, rfl⟩
abbrev main_v79 : Ref sig .tc := ⟨.hbm, 172, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x200 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x200_S_d0_1 : S1024x200.ReducesTo [0, 1] S_
  h_S_ : 0 < S_.numel
  bcast_S_S1x1 : S_.BroadcastsInDim S1x1 (![] : Fin 0 → Fin S1x1.rank)
  bcast_S1x1_S1024x200_0_1 : S1x1.BroadcastsInDim S1024x200 (![0, 1] : Fin 2 → Fin S1024x200.rank)
  shapeCasts_S1_S_ : S1.ShapeCasts S_
  bcast_S_S1024x200 : S_.BroadcastsInDim S1024x200 (![] : Fin 0 → Fin S1024x200.rank)
  transposes_S288x200_S200x288_1_0 : S288x200.Transposes [1, 0] S200x288
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  reducesTo_S1024x32x192_S32_d0_2 : S1024x32x192.ReducesTo [0, 2] S32
  bcast_S32_S1x32x1_1 : S32.BroadcastsInDim S1x32x1 (![1] : Fin 1 → Fin S1x32x1.rank)
  bcast_S_S1x32x1 : S_.BroadcastsInDim S1x32x1 (![] : Fin 0 → Fin S1x32x1.rank)
  bcast_S1x32x1_S1024x32x192_0_1_2 : S1x32x1.BroadcastsInDim S1024x32x192 (![0, 1, 2] : Fin 3 → Fin S1024x32x192.rank)
  shapeCasts_S1024x32x192_S1024x6144 : S1024x32x192.ShapeCasts S1024x6144
  transposes_S200x6144_S6144x200_1_0 : S200x6144.Transposes [1, 0] S6144x200
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  reducesTo_S1024x200_S200_d0 : S1024x200.ReducesTo [0] S200
  bcast_S_S1x200 : S_.BroadcastsInDim S1x200 (![] : Fin 0 → Fin S1x200.rank)
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  bitsLt_bf16_f32 : FTy.bits .bf16 < FTy.bits .f32
  transposes_S1024x200_p1_0_S200x1024 : S1024x200.Transposes [1, 0] S200x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x1024_S1024x1024_1_0_0_1_n_n_wf : DotDims.WF S1024x200 S200x1024 S1024x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S1024x200.size a
  hwx0_0 : ∀ i : grid0.Coords, EltTy.bits .f32 = 32 ∨ (Rect.block (s := S1024x200) S1024x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x200.size a < S100000x200.size a
  hwx0_1 : ∀ i : grid0.Coords, EltTy.bits .f32 = 32 ∨ (Rect.unit (s := S100000x200) (fun a => cc0_transform_1 i a * S1024x200.size a) (fun a => (Pipeline.Clip.of (cc0_transform_1 i a) (S1024x200.size a) (S100000x200.size a)).extent (S1024x200.size a)) fun a => Pipeline.Clip.inb (Pipeline.Clip.ok_of (hstart0_1 i a))).WholeWords (EltTy.packing .f32)
  hwxs0_1 : ∀ i : grid0.Coords, EltTy.bits .f32 = 32 ∨ (Rect.unit (s := S1024x200) (fun _ => 0) (fun a => (Pipeline.Clip.of (cc0_transform_1 i a) (S1024x200.size a) (S100000x200.size a)).extent (S1024x200.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1024.size a < S100000.size a
  hwx0_2 : ∀ i : grid0.Coords, EltTy.bits .f32 = 32 ∨ (Rect.unit (s := S100000) (fun a => cc0_transform_2 i a * S1024.size a) (fun a => (Pipeline.Clip.of (cc0_transform_2 i a) (S1024.size a) (S100000.size a)).extent (S1024.size a)) fun a => Pipeline.Clip.inb (Pipeline.Clip.ok_of (hstart0_2 i a))).WholeWords (EltTy.packing .f32)
  hwxs0_2 : ∀ i : grid0.Coords, EltTy.bits .f32 = 32 ∨ (Rect.unit (s := S1024) (fun _ => 0) (fun a => (Pipeline.Clip.of (cc0_transform_2 i a) (S1024.size a) (S100000.size a)).extent (S1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S1024x1024.size a < S1024x100000.size a
  hwx0_3 : ∀ i : grid0.Coords, EltTy.bits .f32 = 32 ∨ (Rect.unit (s := S1024x100000) (fun a => cc0_transform_3 i a * S1024x1024.size a) (fun a => (Pipeline.Clip.of (cc0_transform_3 i a) (S1024x1024.size a) (S1024x100000.size a)).extent (S1024x1024.size a)) fun a => Pipeline.Clip.inb (Pipeline.Clip.ok_of (hstart0_3 i a))).WholeWords (EltTy.packing .f32)
  hwxs0_3 : ∀ i : grid0.Coords, EltTy.bits .f32 = 32 ∨ (Rect.unit (s := S1024x1024) (fun _ => 0) (fun a => (Pipeline.Clip.of (cc0_transform_3 i a) (S1024x1024.size a) (S1024x100000.size a)).extent (S1024x1024.size a)) fun a => (Nat.zero_add _).trans_le (Pipeline.Clip.extent_le (Pipeline.Clip.ok_of (hstart0_3 i a)))).WholeWords (EltTy.packing .f32)

variable [Facts₀]

def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x1024_S1024x1024_1_0_0_1_n_n : DotDims S1024x200 S200x1024 S1024x1024 where
  lhsContracting := [1]
  rhsContracting := [0]
  lhsNonContracting := [0]
  rhsNonContracting := [1]
  lhsBatch := []
  rhsBatch := []
  wf := dot_S1024x200_S200x1024_S1024x1024_1_0_0_1_n_n_wf

abbrev win0_0 : Pipeline.Window sig grid0 :=
  Pipeline.Window.ofSpec (Memref.whole main_v78) S1024x200.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_arg6) S1024x200.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_arg7) S1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v79) S1024x1024.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x200 : Shape := ⟨2, ![1024, 200]⟩
abbrev S288x200 : Shape := ⟨2, ![288, 200]⟩
abbrev S288 : Shape := ⟨1, ![288]⟩
abbrev S200x6144 : Shape := ⟨2, ![200, 6144]⟩
abbrev S200 : Shape := ⟨1, ![200]⟩
abbrev S100000x200 : Shape := ⟨2, ![100000, 200]⟩
abbrev S100000 : Shape := ⟨1, ![100000]⟩
abbrev S1 : Shape := ⟨1, ![1]⟩
abbrev S32 : Shape := ⟨1, ![32]⟩
abbrev S1024x1x200 : Shape := ⟨3, ![1024, 1, 200]⟩
abbrev S1x1x1 : Shape := ⟨3, ![1, 1, 1]⟩
abbrev S_ : Shape := ⟨0, ![]⟩
abbrev S200x288 : Shape := ⟨2, ![200, 288]⟩
abbrev S1024x288 : Shape := ⟨2, ![1024, 288]⟩
abbrev S1x288 : Shape := ⟨2, ![1, 288]⟩
abbrev S1024x32x9 : Shape := ⟨3, ![1024, 32, 9]⟩
abbrev S192 : Shape := ⟨1, ![192]⟩
abbrev S192x1 : Shape := ⟨2, ![192, 1]⟩
abbrev S9 : Shape := ⟨1, ![9]⟩
abbrev S1x9 : Shape := ⟨2, ![1, 9]⟩
abbrev S192x9 : Shape := ⟨2, ![192, 9]⟩
abbrev S192x9x1 : Shape := ⟨3, ![192, 9, 1]⟩
abbrev S1024x192x9 : Shape := ⟨3, ![1024, 192, 9]⟩
abbrev S1024x32x192 : Shape := ⟨3, ![1024, 32, 192]⟩
abbrev S1x32x1 : Shape := ⟨3, ![1, 32, 1]⟩
abbrev S1024x6144 : Shape := ⟨2, ![1024, 6144]⟩
abbrev S6144x200 : Shape := ⟨2, ![6144, 200]⟩
abbrev S1x200 : Shape := ⟨2, ![1, 200]⟩
abbrev S200x100000 : Shape := ⟨2, ![200, 100000]⟩
abbrev S1024x100000 : Shape := ⟨2, ![1024, 100000]⟩
abbrev S1x100000 : Shape := ⟨2, ![1, 100000]⟩

abbrev nBuf : Space → Nat
  | .hbm => 193
  | .vmem => 0
  | .smem => 0
  | _ => 0

abbrev hbmTy0_0 (i : Nat) : BufTy := match i % 128 with
  | 0 => ⟨S1024x200, .f32⟩
  | 1 => ⟨S1024x200, .f32⟩
  | 2 => ⟨S288x200, .f32⟩
  | 3 => ⟨S288, .f32⟩
  | 4 => ⟨S200x6144, .f32⟩
  | 5 => ⟨S200, .f32⟩
  | 6 => ⟨S100000x200, .f32⟩
  | 7 => ⟨S100000, .f32⟩
  | 8 => ⟨S1, .f32⟩
  | 9 => ⟨S1, .f32⟩
  | 10 => ⟨S32, .f32⟩
  | 11 => ⟨S32, .f32⟩
  | 12 => ⟨S200, .f32⟩
  | 13 => ⟨S200, .f32⟩
  | 14 => ⟨S1024x1x200, .f32⟩
  | 15 => ⟨S1x1x1, .f32⟩
  | 16 => ⟨S1x1x1, .f32⟩
  | 17 => ⟨S_, .f32⟩
  | 18 => ⟨S1, .f32⟩
  | 19 => ⟨S1x1x1, .f32⟩
  | 20 => ⟨S_, .f32⟩
  | 21 => ⟨S1x1x1, .f32⟩
  | 22 => ⟨S1x1x1, .f32⟩
  | 23 => ⟨S_, .i32⟩
  | 24 => ⟨S_, .f32⟩
  | 25 => ⟨S1, .f32⟩
  | 26 => ⟨S1x1x1, .f32⟩
  | 27 => ⟨S_, .f32⟩
  | 28 => ⟨S1x1x1, .f32⟩
  | 29 => ⟨S1x1x1, .f32⟩
  | 30 => ⟨S1024x1x200, .f32⟩
  | 31 => ⟨S1024x1x200, .f32⟩
  | 32 => ⟨S1024x1x200, .f32⟩
  | 33 => ⟨S_, .f32⟩
  | 34 => ⟨S_, .f32⟩
  | 35 => ⟨S_, .f32⟩
  | 36 => ⟨S_, .f32⟩
  | 37 => ⟨S1, .f32⟩
  | 38 => ⟨S1x1x1, .f32⟩
  | 39 => ⟨S1x1x1, .f32⟩
  | 40 => ⟨S1x1x1, .f32⟩
  | 41 => ⟨S_, .f32⟩
  | 42 => ⟨S_, .i1⟩
  | 43 => ⟨S_, .f32⟩
  | 44 => ⟨S_, .f32⟩
  | 45 => ⟨S1x1x1, .f32⟩
  | 46 => ⟨S1x1x1, .f32⟩
  | 47 => ⟨S1024x1x200, .f32⟩
  | 48 => ⟨S1024x1x200, .f32⟩
  | 49 => ⟨S_, .f32⟩
  | 50 => ⟨S1x1x1, .f32⟩
  | 51 => ⟨S1x1x1, .f32⟩
  | 52 => ⟨S1x1x1, .f32⟩
  | 53 => ⟨S1024x1x200, .f32⟩
  | 54 => ⟨S1024x1x200, .f32⟩
  | 55 => ⟨S1024x1x200, .f32⟩
  | 56 => ⟨S1024x1x200, .f32⟩
  | 57 => ⟨S1024x1x200, .f32⟩
  | 58 => ⟨S1024x1x200, .f32⟩
  | 59 => ⟨S1024x200, .f32⟩
  | 60 => ⟨S200x288, .f32⟩
  | 61 => ⟨S1024x288, .f32⟩
  | 62 => ⟨S1x288, .f32⟩
  | 63 => ⟨S1024x288, .f32⟩
  | 64 => ⟨S1024x288, .f32⟩
  | 65 => ⟨S1024x32x9, .f32⟩
  | 66 => ⟨S192, .i32⟩
  | 67 => ⟨S192x1, .i32⟩
  | 68 => ⟨S9, .i32⟩
  | 69 => ⟨S1x9, .i32⟩
  | 70 => ⟨S192x9, .i32⟩
  | 71 => ⟨S192x9, .i32⟩
  | 72 => ⟨S192x9, .i32⟩
  | 73 => ⟨S_, .i32⟩
  | 74 => ⟨S192x9, .i32⟩
  | 75 => ⟨S192x9, .i1⟩
  | 76 => ⟨S_, .i32⟩
  | 77 => ⟨S192x9, .i32⟩
  | 78 => ⟨S192x9, .i32⟩
  | 79 => ⟨S192x9, .i32⟩
  | 80 => ⟨S192x9x1, .i32⟩
  | 81 => ⟨S1024x192x9, .f32⟩
  | 82 => ⟨S1024x32x192, .f32⟩
  | 83 => ⟨S1x32x1, .f32⟩
  | 84 => ⟨S1x32x1, .f32⟩
  | 85 => ⟨S_, .f32⟩
  | 86 => ⟨S32, .f32⟩
  | 87 => ⟨S1x32x1, .f32⟩
  | 88 => ⟨S_, .f32⟩
  | 89 => ⟨S1x32x1, .f32⟩
  | 90 => ⟨S1x32x1, .f32⟩
  | 91 => ⟨S_, .i32⟩
  | 92 => ⟨S_, .f32⟩
  | 93 => ⟨S32, .f32⟩
  | 94 => ⟨S1x32x1, .f32⟩
  | 95 => ⟨S_, .f32⟩
  | 96 => ⟨S1x32x1, .f32⟩
  | 97 => ⟨S1x32x1, .f32⟩
  | 98 => ⟨S1024x32x192, .f32⟩
  | 99 => ⟨S1024x32x192, .f32⟩
  | 100 => ⟨S1024x32x192, .f32⟩
  | 101 => ⟨S_, .f32⟩
  | 102 => ⟨S_, .f32⟩
  | 103 => ⟨S_, .f32⟩
  | 104 => ⟨S_, .f32⟩
  | 105 => ⟨S32, .f32⟩
  | 106 => ⟨S1x32x1, .f32⟩
  | 107 => ⟨S1x32x1, .f32⟩
  | 108 => ⟨S1x32x1, .f32⟩
  | 109 => ⟨S_, .f32⟩
  | 110 => ⟨S_, .i1⟩
  | 111 => ⟨S_, .f32⟩
  | 112 => ⟨S_, .f32⟩
  | 113 => ⟨S1x32x1, .f32⟩
  | 114 => ⟨S1x32x1, .f32⟩
  | 115 => ⟨S1024x32x192, .f32⟩
  | 116 => ⟨S1024x32x192, .f32⟩
  | 117 => ⟨S_, .f32⟩
  | 118 => ⟨S1x32x1, .f32⟩
  | 119 => ⟨S1x32x1, .f32⟩
  | 120 => ⟨S1x32x1, .f32⟩
  | 121 => ⟨S1024x32x192, .f32⟩
  | 122 => ⟨S1024x32x192, .f32⟩
  | 123 => ⟨S1024x32x192, .f32⟩
  | 124 => ⟨S1024x32x192, .f32⟩
  | 125 => ⟨S1024x32x192, .f32⟩
  | 126 => ⟨S1024x32x192, .f32⟩
  | 127 => ⟨S1024x6144, .f32⟩
  | _ => ⟨S1024x200, .f32⟩

abbrev hbmTy0_1 (i : Nat) : BufTy := match i % 128 with
  | 0 => ⟨S6144x200, .f32⟩
  | 1 => ⟨S1024x200, .f32⟩
  | 2 => ⟨S1x200, .f32⟩
  | 3 => ⟨S1024x200, .f32⟩
  | 4 => ⟨S1024x200, .f32⟩
  | 5 => ⟨S1x200, .f32⟩
  | 6 => ⟨S1x200, .f32⟩
  | 7 => ⟨S_, .f32⟩
  | 8 => ⟨S200, .f32⟩
  | 9 => ⟨S1x200, .f32⟩
  | 10 => ⟨S_, .f32⟩
  | 11 => ⟨S1x200, .f32⟩
  | 12 => ⟨S1x200, .f32⟩
  | 13 => ⟨S_, .i32⟩
  | 14 => ⟨S_, .f32⟩
  | 15 => ⟨S200, .f32⟩
  | 16 => ⟨S1x200, .f32⟩
  | 17 => ⟨S_, .f32⟩
  | 18 => ⟨S1x200, .f32⟩
  | 19 => ⟨S1x200, .f32⟩
  | 20 => ⟨S1024x200, .f32⟩
  | 21 => ⟨S1024x200, .f32⟩
  | 22 => ⟨S1024x200, .f32⟩
  | 23 => ⟨S_, .f32⟩
  | 24 => ⟨S_, .f32⟩
  | 25 => ⟨S_, .f32⟩
  | 26 => ⟨S_, .f32⟩
  | 27 => ⟨S200, .f32⟩
  | 28 => ⟨S1x200, .f32⟩
  | 29 => ⟨S1x200, .f32⟩
  | 30 => ⟨S1x200, .f32⟩
  | 31 => ⟨S_, .f32⟩
  | 32 => ⟨S_, .i1⟩
  | 33 => ⟨S_, .f32⟩
  | 34 => ⟨S_, .f32⟩
  | 35 => ⟨S1x200, .f32⟩
  | 36 => ⟨S1x200, .f32⟩
  | 37 => ⟨S1024x200, .f32⟩
  | 38 => ⟨S1024x200, .f32⟩
  | 39 => ⟨S_, .f32⟩
  | 40 => ⟨S1x200, .f32⟩
  | 41 => ⟨S1x200, .f32⟩
  | 42 => ⟨S1x200, .f32⟩
  | 43 => ⟨S1024x200, .f32⟩
  | 44 => ⟨S1024x200, .f32⟩
  | 45 => ⟨S1024x200, .f32⟩
  | 46 => ⟨S1024x200, .f32⟩
  | 47 => ⟨S1024x200, .f32⟩
  | 48 => ⟨S1024x200, .f32⟩
  | 49 => ⟨S_, .f32⟩
  | 50 => ⟨S1024x200, .f32⟩
  | 51 => ⟨S1024x200, .f32⟩
  | 52 => ⟨S200x100000, .f32⟩
  | 53 => ⟨S1024x100000, .f32⟩
  | 54 => ⟨S1x100000, .f32⟩
  | 55 => ⟨S1024x100000, .f32⟩
  | 56 => ⟨S1024x100000, .f32⟩
  | 57 => ⟨S1024x100000, .f32⟩
  | 58 => ⟨S1024x100000, .f32⟩
  | 59 => ⟨S_, .f32⟩
  | 60 => ⟨S1024x100000, .f32⟩
  | 61 => ⟨S1024x100000, .f32⟩
  | 62 => ⟨S_, .f32⟩
  | 63 => ⟨S1024x100000, .f32⟩
  | 64 => ⟨S1024x100000, .f32⟩
  | _ => ⟨S1024x200, .f32⟩

abbrev hbmTy (i : Nat) : BufTy := match i / 128 with
  | 0 => hbmTy0_0 i
  | 1 => hbmTy0_1 i
  | _ => ⟨S1024x200, .f32⟩

abbrev bufTy : (tb : Table) → Fin (tcTables nBuf tb) → BufTy
  | .hbm, ⟨i, _⟩ => hbmTy i
  | _, _ => ⟨S1024x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_cst : Ref sig .tc := ⟨.hbm, 17, rfl⟩
abbrev main_v3 : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_c : Ref sig .tc := ⟨.hbm, 23, rfl⟩
abbrev main_call0_cst : Ref sig .tc := ⟨.hbm, 24, rfl⟩
abbrev main_call0_v0 : Ref sig .tc := ⟨.hbm, 25, rfl⟩
abbrev main_call0_v1 : Ref sig .tc := ⟨.hbm, 26, rfl⟩
abbrev main_call0_cst_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_v7 : Ref sig .tc := ⟨.hbm, 33, rfl⟩
abbrev main_call0_cst_1 : Ref sig .tc := ⟨.hbm, 34, rfl⟩
abbrev main_call0_v8 : Ref sig .tc := ⟨.hbm, 35, rfl⟩
abbrev main_call0_cst_2 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_v12 : Ref sig .tc := ⟨.hbm, 40, rfl⟩
abbrev main_call0_cst_3 : Ref sig .tc := ⟨.hbm, 41, rfl⟩
abbrev main_call0_v13 : Ref sig .tc := ⟨.hbm, 42, rfl⟩
abbrev main_call0_cst_4 : Ref sig .tc := ⟨.hbm, 43, rfl⟩
abbrev main_call0_call0_v0 : Ref sig .tc := ⟨.hbm, 44, rfl⟩
abbrev main_call0_call0_v1 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_cst_1 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_v15 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_v24 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_c_2 : Ref sig .tc := ⟨.hbm, 73, rfl⟩
abbrev main_v33 : Ref sig .tc := ⟨.hbm, 74, rfl⟩
abbrev main_v34 : Ref sig .tc := ⟨.hbm, 75, rfl⟩
abbrev main_c_3 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_cst_4 : Ref sig .tc := ⟨.hbm, 85, rfl⟩
abbrev main_v43 : Ref sig .tc := ⟨.hbm, 86, rfl⟩
abbrev main_v44 : Ref sig .tc := ⟨.hbm, 87, rfl⟩
abbrev main_cst_5 : Ref sig .tc := ⟨.hbm, 88, rfl⟩
abbrev main_v45 : Ref sig .tc := ⟨.hbm, 89, rfl⟩
abbrev main_v46 : Ref sig .tc := ⟨.hbm, 90, rfl⟩
abbrev main_c_6 : Ref sig .tc := ⟨.hbm, 91, rfl⟩
abbrev main_call1_cst : Ref sig .tc := ⟨.hbm, 92, rfl⟩
abbrev main_call1_v0 : Ref sig .tc := ⟨.hbm, 93, rfl⟩
abbrev main_call1_v1 : Ref sig .tc := ⟨.hbm, 94, rfl⟩
abbrev main_call1_cst_0 : Ref sig .tc := ⟨.hbm, 95, rfl⟩
abbrev main_call1_v2 : Ref sig .tc := ⟨.hbm, 96, rfl⟩
abbrev main_call1_v3 : Ref sig .tc := ⟨.hbm, 97, rfl⟩
abbrev main_call1_v4 : Ref sig .tc := ⟨.hbm, 98, rfl⟩
abbrev main_call1_v5 : Ref sig .tc := ⟨.hbm, 99, rfl⟩
abbrev main_call1_v6 : Ref sig .tc := ⟨.hbm, 100, rfl⟩
abbrev main_call1_v7 : Ref sig .tc := ⟨.hbm, 101, rfl⟩
abbrev main_call1_cst_1 : Ref sig .tc := ⟨.hbm, 102, rfl⟩
abbrev main_call1_v8 : Ref sig .tc := ⟨.hbm, 103, rfl⟩
abbrev main_call1_cst_2 : Ref sig .tc := ⟨.hbm, 104, rfl⟩
abbrev main_call1_v9 : Ref sig .tc := ⟨.hbm, 105, rfl⟩
abbrev main_call1_v10 : Ref sig .tc := ⟨.hbm, 106, rfl⟩
abbrev main_call1_v11 : Ref sig .tc := ⟨.hbm, 107, rfl⟩
abbrev main_call1_v12 : Ref sig .tc := ⟨.hbm, 108, rfl⟩
abbrev main_call1_cst_3 : Ref sig .tc := ⟨.hbm, 109, rfl⟩
abbrev main_call1_v13 : Ref sig .tc := ⟨.hbm, 110, rfl⟩
abbrev main_call1_cst_4 : Ref sig .tc := ⟨.hbm, 111, rfl⟩
abbrev main_call1_call0_v0 : Ref sig .tc := ⟨.hbm, 112, rfl⟩
abbrev main_call1_call0_v1 : Ref sig .tc := ⟨.hbm, 113, rfl⟩
abbrev main_v47 : Ref sig .tc := ⟨.hbm, 114, rfl⟩
abbrev main_v48 : Ref sig .tc := ⟨.hbm, 115, rfl⟩
abbrev main_v49 : Ref sig .tc := ⟨.hbm, 116, rfl⟩
abbrev main_cst_7 : Ref sig .tc := ⟨.hbm, 117, rfl⟩
abbrev main_v50 : Ref sig .tc := ⟨.hbm, 118, rfl⟩
abbrev main_v51 : Ref sig .tc := ⟨.hbm, 119, rfl⟩
abbrev main_v52 : Ref sig .tc := ⟨.hbm, 120, rfl⟩
abbrev main_v53 : Ref sig .tc := ⟨.hbm, 121, rfl⟩
abbrev main_v54 : Ref sig .tc := ⟨.hbm, 122, rfl⟩
abbrev main_v55 : Ref sig .tc := ⟨.hbm, 123, rfl⟩
abbrev main_v56 : Ref sig .tc := ⟨.hbm, 124, rfl⟩
abbrev main_v57 : Ref sig .tc := ⟨.hbm, 125, rfl⟩
abbrev main_v58 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_8 : Ref sig .tc := ⟨.hbm, 135, rfl⟩
abbrev main_v67 : Ref sig .tc := ⟨.hbm, 136, rfl⟩
abbrev main_v68 : Ref sig .tc := ⟨.hbm, 137, rfl⟩
abbrev main_cst_9 : Ref sig .tc := ⟨.hbm, 138, rfl⟩
abbrev main_v69 : Ref sig .tc := ⟨.hbm, 139, rfl⟩
abbrev main_v70 : Ref sig .tc := ⟨.hbm, 140, rfl⟩
abbrev main_c_10 : Ref sig .tc := ⟨.hbm, 141, rfl⟩
abbrev main_call2_cst : Ref sig .tc := ⟨.hbm, 142, rfl⟩
abbrev main_call2_v0 : Ref sig .tc := ⟨.hbm, 143, rfl⟩
abbrev main_call2_v1 : Ref sig .tc := ⟨.hbm, 144, rfl⟩
abbrev main_call2_cst_0 : Ref sig .tc := ⟨.hbm, 145, rfl⟩
abbrev main_call2_v2 : Ref sig .tc := ⟨.hbm, 146, rfl⟩
abbrev main_call2_v3 : Ref sig .tc := ⟨.hbm, 147, rfl⟩
abbrev main_call2_v4 : Ref sig .tc := ⟨.hbm, 148, rfl⟩
abbrev main_call2_v5 : Ref sig .tc := ⟨.hbm, 149, rfl⟩
abbrev main_call2_v6 : Ref sig .tc := ⟨.hbm, 150, rfl⟩
abbrev main_call2_v7 : Ref sig .tc := ⟨.hbm, 151, rfl⟩
abbrev main_call2_cst_1 : Ref sig .tc := ⟨.hbm, 152, rfl⟩
abbrev main_call2_v8 : Ref sig .tc := ⟨.hbm, 153, rfl⟩
abbrev main_call2_cst_2 : Ref sig .tc := ⟨.hbm, 154, rfl⟩
abbrev main_call2_v9 : Ref sig .tc := ⟨.hbm, 155, rfl⟩
abbrev main_call2_v10 : Ref sig .tc := ⟨.hbm, 156, rfl⟩
abbrev main_call2_v11 : Ref sig .tc := ⟨.hbm, 157, rfl⟩
abbrev main_call2_v12 : Ref sig .tc := ⟨.hbm, 158, rfl⟩
abbrev main_call2_cst_3 : Ref sig .tc := ⟨.hbm, 159, rfl⟩
abbrev main_call2_v13 : Ref sig .tc := ⟨.hbm, 160, rfl⟩
abbrev main_call2_cst_4 : Ref sig .tc := ⟨.hbm, 161, rfl⟩
abbrev main_call2_call0_v0 : Ref sig .tc := ⟨.hbm, 162, rfl⟩
abbrev main_call2_call0_v1 : Ref sig .tc := ⟨.hbm, 163, rfl⟩
abbrev main_v71 : Ref sig .tc := ⟨.hbm, 164, rfl⟩
abbrev main_v72 : Ref sig .tc := ⟨.hbm, 165, rfl⟩
abbrev main_v73 : Ref sig .tc := ⟨.hbm, 166, rfl⟩
abbrev main_cst_11 : Ref sig .tc := ⟨.hbm, 167, rfl⟩
abbrev main_v74 : Ref sig .tc := ⟨.hbm, 168, rfl⟩
abbrev main_v75 : Ref sig .tc := ⟨.hbm, 169, rfl⟩
abbrev main_v76 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_call3_cst : Ref sig .tc := ⟨.hbm, 177, rfl⟩
abbrev main_call3_v0 : Ref sig .tc := ⟨.hbm, 178, rfl⟩
abbrev main_v83 : Ref sig .tc := ⟨.hbm, 179, rfl⟩
abbrev main_v84 : Ref sig .tc := ⟨.hbm, 180, rfl⟩
abbrev main_v85 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_v90 : Ref sig .tc := ⟨.hbm, 186, rfl⟩
abbrev main_cst_12 : Ref sig .tc := ⟨.hbm, 187, rfl⟩
abbrev main_v91 : Ref sig .tc := ⟨.hbm, 188, rfl⟩
abbrev main_v92 : Ref sig .tc := ⟨.hbm, 189, rfl⟩
abbrev main_cst_13 : Ref sig .tc := ⟨.hbm, 190, rfl⟩
abbrev main_v93 : Ref sig .tc := ⟨.hbm, 191, rfl⟩
abbrev main_v94 : Ref sig .tc := ⟨.hbm, 192, rfl⟩

abbrev nD : Nat := 1
abbrev τ : Topo := Topo.v7x

variable {F : FTy → Type} [FloatOps F]

class Facts₀ : Prop where
  bcast_S1024x200_S1024x1x200_0_2 : S1024x200.BroadcastsInDim S1024x1x200 (![0, 2] : Fin 2 → Fin S1024x1x200.rank)
  bcast_S1_S1x1x1_1 : S1.BroadcastsInDim S1x1x1 (![1] : Fin 1 → Fin S1x1x1.rank)
  reducesTo_S1024x1x200_S1_d0_2 : S1024x1x200.ReducesTo [0, 2] S1
  h_S_ : 0 < S_.numel
  bcast_S_S1x1x1 : S_.BroadcastsInDim S1x1x1 (![] : Fin 0 → Fin S1x1x1.rank)
  bcast_S1x1x1_S1024x1x200_0_1_2 : S1x1x1.BroadcastsInDim S1024x1x200 (![0, 1, 2] : Fin 3 → Fin S1024x1x200.rank)
  shapeCasts_S1024x1x200_S1024x200 : S1024x1x200.ShapeCasts S1024x200
  transposes_S288x200_S200x288_1_0 : S288x200.Transposes [1, 0] S200x288
  bcast_S288_S1x288_1 : S288.BroadcastsInDim S1x288 (![1] : Fin 1 → Fin S1x288.rank)
  bcast_S1x288_S1024x288_0_1 : S1x288.BroadcastsInDim S1024x288 (![0, 1] : Fin 2 → Fin S1024x288.rank)
  shapeCasts_S1024x288_S1024x32x9 : S1024x288.ShapeCasts S1024x32x9
  bcast_S192_S192x1_0 : S192.BroadcastsInDim S192x1 (![0] : Fin 1 → Fin S192x1.rank)
  bcast_S9_S1x9_1 : S9.BroadcastsInDim S1x9 (![1] : Fin 1 → Fin S1x9.rank)
  bcast_S192x1_S192x9_0_1 : S192x1.BroadcastsInDim S192x9 (![0, 1] : Fin 2 → Fin S192x9.rank)
  bcast_S1x9_S192x9_0_1 : S1x9.BroadcastsInDim S192x9 (![0, 1] : Fin 2 → Fin S192x9.rank)
  bcast_S_S192x9 : S_.BroadcastsInDim S192x9 (![] : Fin 0 → Fin S192x9.rank)
  bcast_S192x9_S192x9x1_0_1 : S192x9.BroadcastsInDim S192x9x1 (![0, 1] : Fin 2 → Fin S192x9x1.rank)
  bcast_S32_S1x32x1_1 : S32.BroadcastsInDim S1x32x1 (![1] : Fin 1 → Fin S1x32x1.rank)
  reducesTo_S1024x32x192_S32_d0_2 : S1024x32x192.ReducesTo [0, 2] S32
  bcast_S_S1x32x1 : S_.BroadcastsInDim S1x32x1 (![] : Fin 0 → Fin S1x32x1.rank)
  bcast_S1x32x1_S1024x32x192_0_1_2 : S1x32x1.BroadcastsInDim S1024x32x192 (![0, 1, 2] : Fin 3 → Fin S1024x32x192.rank)
  shapeCasts_S1024x32x192_S1024x6144 : S1024x32x192.ShapeCasts S1024x6144
  transposes_S200x6144_S6144x200_1_0 : S200x6144.Transposes [1, 0] S6144x200
  bcast_S200_S1x200_1 : S200.BroadcastsInDim S1x200 (![1] : Fin 1 → Fin S1x200.rank)
  bcast_S1x200_S1024x200_0_1 : S1x200.BroadcastsInDim S1024x200 (![0, 1] : Fin 2 → Fin S1024x200.rank)
  reducesTo_S1024x200_S200_d0 : S1024x200.ReducesTo [0] S200
  bcast_S_S1x200 : S_.BroadcastsInDim S1x200 (![] : Fin 0 → Fin S1x200.rank)
  bcast_S_S1024x200 : S_.BroadcastsInDim S1024x200 (![] : Fin 0 → Fin S1024x200.rank)
  transposes_S100000x200_S200x100000_1_0 : S100000x200.Transposes [1, 0] S200x100000
  bcast_S100000_S1x100000_1 : S100000.BroadcastsInDim S1x100000 (![1] : Fin 1 → Fin S1x100000.rank)
  bcast_S1x100000_S1024x100000_0_1 : S1x100000.BroadcastsInDim S1024x100000 (![0, 1] : Fin 2 → Fin S1024x100000.rank)
  bcast_S_S1024x100000 : S_.BroadcastsInDim S1024x100000 (![] : Fin 0 → Fin S1024x100000.rank)
  dot_S1024x200_S200x288_S1024x288_1_0_0_1_n_n_wf : DotDims.WF S1024x200 S200x288 S1024x288 [1] [0] [0] [1] [] []
  gather_S1024x200_S192x9x1_S1024x192x9_0_1_n_n_1_2_10241_wf : GatherDims.WF S1024x200 S192x9x1 S1024x192x9 [0] [1] [] [1] [] 2 ![1024, 1]
  dot_S1024x32x9_S1024x192x9_S1024x32x192_2_2_1_1_0_0_wf : DotDims.WF S1024x32x9 S1024x192x9 S1024x32x192 [2] [2] [1] [1] [0] [0]
  dot_S1024x6144_S6144x200_S1024x200_1_0_0_1_n_n_wf : DotDims.WF S1024x6144 S6144x200 S1024x200 [1] [0] [0] [1] [] []
  dot_S1024x200_S200x100000_S1024x100000_1_0_0_1_n_n_wf : DotDims.WF S1024x200 S200x100000 S1024x100000 [1] [0] [0] [1] [] []

variable [Facts₀]

def dot_S1024x200_S200x288_S1024x288_1_0_0_1_n_n : DotDims S1024x200 S200x288 S1024x288 where
  lhsContracting := [1]
  rhsContracting := [0]
  lhsNonContracting := [0]
  rhsNonContracting := [1]
  lhsBatch := []
  rhsBatch := []
  wf := dot_S1024x200_S200x288_S1024x288_1_0_0_1_n_n_wf
def gather_S1024x200_S192x9x1_S1024x192x9_0_1_n_n_1_2_10241 : GatherDims S1024x200 S192x9x1 S1024x192x9 where
  offsetDims := [0]
  collapsedSliceDims := [1]
  operandBatchingDims := []
  startIndicesBatchingDims := []
  startIndexMap := [1]
  indexVectorDim := 2
  sliceSizes := ![1024, 1]
  wf := gather_S1024x200_S192x9x1_S1024x192x9_0_1_n_n_1_2_10241_wf
def dot_S1024x32x9_S1024x192x9_S1024x32x192_2_2_1_1_0_0 : DotDims S1024x32x9 S1024x192x9 S1024x32x192 where
  lhsContracting := [2]
  rhsContracting := [2]
  lhsNonContracting := [1]
  rhsNonContracting := [1]
  lhsBatch := [0]
  rhsBatch := [0]
  wf := dot_S1024x32x9_S1024x192x9_S1024x32x192_2_2_1_1_0_0_wf
def dot_S1024x6144_S6144x200_S1024x200_1_0_0_1_n_n : DotDims S1024x6144 S6144x200 S1024x200 where
  lhsContracting := [1]
  rhsContracting := [0]
  lhsNonContracting := [0]
  rhsNonContracting := [1]
  lhsBatch := []
  rhsBatch := []
  wf := dot_S1024x6144_S6144x200_S1024x200_1_0_0_1_n_n_wf
def dot_S1024x200_S200x100000_S1024x100000_1_0_0_1_n_n : DotDims S1024x200 S200x100000 S1024x100000 where
  lhsContracting := [1]
  rhsContracting := [0]
  lhsNonContracting := [0]
  rhsNonContracting := [1]
  lhsBatch := []
  rhsBatch := []
  wf := dot_S1024x200_S200x100000_S1024x100000_1_0_0_1_n_n_wf

class Facts : Prop extends Facts₀ where

variable [Facts]
-- ==== Proof.KBody.lean ====
import proofs.«161430_j19885698580525_1_alg».proof.Proof.Gen.Kernel.Frame
import proofs.«161430_j19885698580525_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
/-! # One grid point of the last layer

At a grid point the body reads the whole staged activations block y (1024 x 200), the whole staged block of 1024
embedding rows (1024 x 200) and the staged block of 1024 biases, and stores, over the whole staged output block
(1024 x 1024), sigmoid (y * E^T + b): entry (i, j) of the stored block is built from row i of y, row j of the
embedding block and bias j. -/

/-- The whole block of a staged activations / embedding buffer, -/
abbrev rA : Rect S1024x200 := Rect.unit (s := S1024x200) ![0, 0] S1024x200.size inb_S1024x200_S1024x200_0_0
/-- of the staged bias buffer, -/
abbrev rB : Rect S1024 := Rect.unit (s := S1024) ![0] S1024.size inb_S1024_S1024_0
/-- and of the staged output buffer. -/
abbrev rO : Rect S1024x1024 := Rect.unit (s := S1024x1024) ![0, 0] S1024x1024.size inb_S1024x1024_S1024x1024_0_0

/-- What the output buffer holds after the body, as a function of what the three input buffers hold: its one
    whole store of the scores' sigmoid. -/
def out3 (x0 x1 : Vec F S1024x200 .f32) (x2 : Vec F S1024 .f32) : Vec F S1024x1024 .f32 :=
  View.canon [⟨rO, k0_pay1 (View.ld x0 rA) (View.ld x1 rA) (View.ld x2 rB)⟩]

/-- The one store covers the output buffer. -/
theorem cover3 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging buffers holding `x0`, `x1`, `x2` and anything in the output's: three whole loads, the
    arithmetic, a load of the output buffer whose value is not used, and the whole store; the inputs' buffers are left as they
    were and the output's holds `out3 x0 x1 x2`. -/
theorem sound_kernel (c : Dev nD) (E : Set ℕ) (i : grid0.Coords)
    (arg1 : Memref sig .tc .vmem S1024x200 .f32) (harg1 : arg1.IsWhole) (arg2 : Memref sig .tc .vmem S1024x200 .f32) (harg2 : arg2.IsWhole)
    (arg3 : Memref sig .tc .vmem S1024 .f32) (harg3 : arg3.IsWhole) (arg4 : Memref sig .tc .vmem S1024x1024 .f32) (harg4 : arg4.IsWhole)
    (x0 x1 : Vec F S1024x200 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3 x0 x1 x2)) -∗ K ⟨⟩))
      ⊢ wp frame (wpE (defs₀ (F := F)) Variants.none c none) E (cc0__sigmoid_matmul_kernel i arg1 harg1 arg2 harg2 arg3 harg3 arg4 harg4) K := by
  simp only [cc0__sigmoid_matmul_kernel_eq_skeleton]; unfold cc0__sigmoid_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-! # The proof data at any float model

The last block of the embedding rows, of the biases and of the output columns overhangs its array, and the staged rows past the
array's end hold words nothing names. At a float model where an entry of the product may depend on the whole staged embedding
block, what the body leaves in the output's buffer is not a function of the point alone; the frame does not read it, so the
output window is forgotten: the body is handed its buffer holding anything and hands it back holding anything. -/

section Data

variable (m : (ℓ : Loc nD τ sig) → Buf (Elt F) ℓ) (ρ : Dev nD → PrngReg)

/-- The output window is the one forgotten. -/
def forgets : Fin 4 → Bool := fun w => w.val == 3

/-- The proof data: the arrays as the region finds them; after the body the inputs' buffers at their blocks, the cut ones
    filled out with some word; of the output's nothing is named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, h⟩ => (cfg0.win 1).fill (cfg0.grid.coords t) (Pipeline.Dat.unnamed (cfg := cfg0) ⟨1, h⟩ t) (iblk m c 1 t)
    | ⟨2, h⟩ => (cfg0.win 2).fill (cfg0.grid.coords t) (Pipeline.Dat.unnamed (cfg := cfg0) ⟨2, h⟩ t) (iblk m c 2 t)
    | ⟨3, h⟩ => Pipeline.Dat.unnamed (cfg := cfg0) ⟨3, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem cut_after1 (c : Dev nD) (t : Fin cfg0.N) :
    (cfg0.win 1).cut (cfg0.grid.coords t) ((dats m 0 c).after 1 t) = iblk m c 1 t := by
  dsimp only [dats]; exact (cfg0.win 1).cut_fill _ _ _
theorem cut_after2 (c : Dev nD) (t : Fin cfg0.N) :
    (cfg0.win 2).cut (cfg0.grid.coords t) ((dats m 0 c).after 2 t) = iblk m c 2 t := by
  dsimp only [dats]; exact (cfg0.win 2).cut_fill _ _ _

/-- What the body finds: the activations' buffer at the whole array, -/
theorem before0 (c : Dev nD) (t : Fin cfg0.N) (d) : (dats m 0 c).before 0 t d = iblk m c 0 t :=
  before0_0_of m (dats m 0 c) (A_eq m c 0) (after0 m c) t d
/-- the embedding rows' and the biases' buffers just fetched: the block's part inside the array, `d` elsewhere. -/
theorem before1 (c : Dev nD) (t : Fin cfg0.N) (d) :
    (dats m 0 c).before 1 t d = (cfg0.win 1).fill (cfg0.grid.coords t) d (iblk m c 1 t) := by
  rw [(dats m 0 c).before_fetched 1 t (fetch0_1 t) d]
  unfold Dat.fetched Dat.blockOf iblk; rw [A_eq]
theorem before2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk; rw [A_eq]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ X, owns (c : Thread nD τ) (st0_3 t) fullShare X))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, cut_after1, cut_after2]
  iintro ⟨HΦ, Ho, ⟨%d0, H0⟩, ⟨%d1, H1⟩, ⟨%d2, H2⟩, ⟨%d3, H3⟩⟩
  iapply (sound_kernel c Set.univ _ _ _ _ _ _ _ _ _ (iblk m c 0 t) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexists d1; iexact H1
  isplitl [H2]; · iexists d2; iexact H2
  iexists _; iexact H3

theorem body_obligation (c : Dev nD) : BodyObligationLoose (dats m 0 c) (defs₀ (F := F)) Variants.none () Set.univ forgets := fun t => by
  rw [bigSep_W0, bigSep_W0]
  exact sound_body m c t

set_option backward.isDefEq.respectTransparency.types false in
/-- Every weakly fair execution of @main terminates; every input array of the pipeline ends as the region found it, nothing is
    said of the output array, and every other buffer ends as the region found it. -/
theorem run_main : θ_run defs (onTc (τ := τ) (main (F := F))) (s₀ m ρ)
    (Pipeline.RDat.FramePost (cfgs 0) (fun c => (dats m 0 c).toRForget forgets) (V m)) :=
  Pipeline.RDat.θ_run_frame cfgs (0 : Fin 1) launch0 defs₀ Variants.none (fun c => (dats m 0 c).toRForget forgets) m ρ main
    (hbody := fun c => (body_obligation m c).toRForget) (hshare := fun c => ((dats m 0 c).toRForget forgets).share_full fun _ => rfl)
    (howed := fun _ _ => rfl) (V := V m) (hmain := hmain m Variants.none) (hA := A_eq m) (hΦ := fun _ _ => rfl)

/-- The frame: the argument arrays end unchanged. The embedding table and the biases are the pipeline's input arrays, never
    written; the other arguments bypass the region. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Eq.mp (congrFun (((dats m 0 c).toRForget forgets).ArrAt_in 1 rfl cfg0.N) _) ((h c).1 1)).trans ((A_eq m c 1).trans (V_main_arg6 m c)),
      (Eq.mp (congrFun (((dats m 0 c).toRForget forgets).ArrAt_in 2 rfl cfg0.N) _) ((h c).1 2)).trans ((A_eq m c 2).trans (V_main_arg7 m c)),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Data

end Cert.Kernel.Body

end
-- ==== Proof.LibPlainMatmul.lean ====
/-
  A kernel's plain matrix product read at an entry, at the extended reals.
-/
import Idealize.ShloMosaic.Lib.StackMember
import Idealize.ShloMosaic.Lib.KernelVsHost

noncomputable section

namespace Cert.LibPlainMatmul

open Idealize.ShloMosaic Idealize.ShloMosaic.ValueIdx

/-- The product of an m×k block by a k×n block (rows by columns, no batch axis) accumulated into the zero block: its
    entry (a, b) is the sum over the contracted coordinate of the products of the entries — the accumulator adds nothing
    and, on the extended reals, nothing is rounded and no order of the summands is left. Generic in the three extents,
    the two operand formats and the precision key. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

end Cert.LibPlainMatmul

end
-- ==== Proof.LibPlainFields.lean ====
/-
  A kernel's matrix product whose dimension record is ANY record with the plain lists — contract the left
  operand's last axis with the right operand's first, no batch axis — accumulated into the zero block: its entry
  (a, b) is the sum over c of A(a, c) · B(c, b) on the extended reals.  A program's printed record carries its own
  proof of well-formedness; only the six lists matter, and they are compared here, not the records.
  Generic in the three extents, the operand formats and the precision key.
-/
import proofs.«161430_j19885698580525_1_alg».proof.Proof.LibPlainMatmul

noncomputable section

namespace Cert.LibPlainFields

open Idealize.ShloMosaic Idealize.ShloMosaic.ValueIdx

theorem matmul_plainFields_zero_apply {m k n : Nat} {φ₁ φ₂ : FTy} (D : DotDims ⟨2, ![m, k]⟩ ⟨2, ![k, n]⟩ ⟨2, ![m, n]⟩)
    (h1 : D.lhsContracting = [1]) (h2 : D.rhsContracting = [0]) (h3 : D.lhsNonContracting = [0]) (h4 : D.rhsNonContracting = [1])
    (h5 : D.lhsBatch = []) (h6 : D.rhsBatch = []) (prec : Option ContractPrecision)
    (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  obtain ⟨lc, rc, ln, rn, lb, rb, wf⟩ := D
  dsimp only at h1 h2 h3 h4 h5 h6
  subst h1 h2 h3 h4 h5 h6
  exact Cert.LibPlainMatmul.matmul_plain_zero_apply prec A B a b

end Cert.LibPlainFields

end
-- ==== Proof.KIPayload.lean ====
/-
  One entry of the block a grid point stores, on the extended reals: entry (i, j) of sigmoid (y * E^T + b) is the
  sigmoid of  sum_c y(i, c) * E(j, c) + b(j)  — row i of the staged activations against row j of the staged embedding
  rows, plus bias j. The roundings to the narrow format on the way into the product are the identity here, the
  transposition only renames the embedding block's coordinates, and the zero accumulator adds nothing.
-/
import proofs.«161430_j19885698580525_1_alg».proof.Proof.Gen.KernelIdeal.Skeleton
import proofs.«161430_j19885698580525_1_alg».proof.Proof.LibPlainFields
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen
open Idealize.ShloMosaic Idealize.ShloMosaic.ValueIdx

/-- The score behind entry (i, j): row i of the activations against row j of the embedding rows, plus bias j. -/
def score (y E : S1024x200.Idx → EReal) (b : S1024.Idx → EReal) (i j : Fin 1024) : EReal :=
  (∑ c : Fin 200, y (ix2 i c) * E (ix2 j c)) + b (ix1 j)

/-- Entry (i, j) of the stored block is the sigmoid of that score. -/
theorem pay_apply (v0 v3 : Vec Ideal S1024x200 .f32) (v7 : Vec Ideal S1024 .f32) (i j : Fin 1024) :
    k0_pay1 (F := Ideal) v0 v3 v7 (ix2 i j) = Ideal.logistic (score v0 v3 v7 i j) := by
  unfold k0_pay1 score
  refine congrArg Ideal.logistic (congrArg₂ (· + ·) ?_ ?_)
  · refine (Cert.LibPlainFields.matmul_plainFields_zero_apply _ rfl rfl rfl rfl rfl rfl none _ _ i j).trans ?_
    refine Finset.sum_congr rfl fun c _ => congrArg₂ (· * ·) ?_ ?_
    · exact congrFun (shapeCast_self v0 _) (ix2 i c)
    · exact transpose_ix2_apply _ _ c j
  · refine (broadcastTo_1b_ab_apply _ _ i j).trans ?_
    exact shapeCast_a_1a_apply _ _ (0 : Fin 1) j

/-- So an entry of the stored block depends on the embedding block only through its row j, and on the biases only
    through bias j. -/
theorem pay_local (v0 v3 v3' : Vec Ideal S1024x200 .f32) (v7 v7' : Vec Ideal S1024 .f32) (i j : Fin 1024)
    (hE : ∀ c : Fin 200, v3 (ix2 j c) = v3' (ix2 j c)) (hb : v7 (ix1 j) = v7' (ix1 j)) :
    k0_pay1 (F := Ideal) v0 v3 v7 (ix2 i j) = k0_pay1 (F := Ideal) v0 v3' v7' (ix2 i j) := by
  rw [pay_apply, pay_apply]
  unfold score
  rw [hb]
  exact congrArg (fun s => Ideal.logistic (s + v7' (ix1 j))) (Finset.sum_congr rfl fun c _ => by rw [hE c])

end Cert.KernelIdeal.Payload

end
-- ==== Proof.KIBody.lean ====
import proofs.«161430_j19885698580525_1_alg».proof.Proof.Gen.KernelIdeal.Frame
import proofs.«161430_j19885698580525_1_alg».proof.Proof.Gen.KernelIdeal.Skeleton
import Idealize.ShloMosaic.Lib.Pipeline.FrameBody
import Idealize.ShloMosaic.Lib.Ring
import Idealize.ShloMosaic.Lib.Tactic
import Idealize.ShloMosaic.Lib.Pipeline.Value
import proofs.«161430_j19885698580525_1_alg».proof.Proof.KIPayload

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ
/-! # One grid point of the last layer

At a grid point the body reads the whole staged activations block y (1024 x 200), the whole staged block of 1024
embedding rows (1024 x 200) and the staged block of 1024 biases, and stores, over the whole staged output block
(1024 x 1024), sigmoid (y * E^T + b): entry (i, j) of the stored block is built from row i of y, row j of the
embedding block and bias j. -/

/-- The whole block of a staged activations / embedding buffer, -/
abbrev rA : Rect S1024x200 := Rect.unit (s := S1024x200) ![0, 0] S1024x200.size inb_S1024x200_S1024x200_0_0
/-- of the staged bias buffer, -/
abbrev rB : Rect S1024 := Rect.unit (s := S1024) ![0] S1024.size inb_S1024_S1024_0
/-- and of the staged output buffer. -/
abbrev rO : Rect S1024x1024 := Rect.unit (s := S1024x1024) ![0, 0] S1024x1024.size inb_S1024x1024_S1024x1024_0_0

/-- What the output buffer holds after the body, as a function of what the three input buffers hold: its one
    whole store of the scores' sigmoid. -/
def out3 (x0 x1 : Vec F S1024x200 .f32) (x2 : Vec F S1024 .f32) : Vec F S1024x1024 .f32 :=
  View.canon [⟨rO, k0_pay1 (View.ld x0 rA) (View.ld x1 rA) (View.ld x2 rB)⟩]

/-- The one store covers the output buffer. -/
theorem cover3 (p0 : Vec F S1024x1024 .f32) (y : S1024x1024.Idx) :
    ∃ pc ∈ ([⟨rO, p0⟩] : List (View.Piece (Elt F) S1024x1024 .f32)), y ∈ pc.1.set :=
  View.cover_of_tiled [⟨rO, p0⟩] S1024x1024.size (by rfl) y

set_option maxHeartbeats 1000000 in
/-- The body on whole staging buffers holding `x0`, `x1`, `x2` and anything in the output's: three whole loads, the
    arithmetic, a load of the output buffer whose value is not used, and the whole store; the inputs' buffers are left as they
    were and the output's holds `out3 x0 x1 x2`. -/
theorem sound_kernel (c : Dev nD) (E : Set ℕ) (i : grid0.Coords)
    (arg1 : Memref sig .tc .vmem S1024x200 .f32) (harg1 : arg1.IsWhole) (arg2 : Memref sig .tc .vmem S1024x200 .f32) (harg2 : arg2.IsWhole)
    (arg3 : Memref sig .tc .vmem S1024 .f32) (harg3 : arg3.IsWhole) (arg4 : Memref sig .tc .vmem S1024x1024 .f32) (harg4 : arg4.IsWhole)
    (x0 x1 : Vec F S1024x200 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (out3 x0 x1 x2)) -∗ K ⟨⟩))
      ⊢ wp frame (wpE (defs₀ (F := F)) Variants.none c none) E (cc0__sigmoid_matmul_kernel i arg1 harg1 arg2 harg2 arg3 harg3 arg4 harg4) K := by
  simp only [cc0__sigmoid_matmul_kernel_eq_skeleton]; unfold cc0__sigmoid_matmul_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3 _)

/-- With its one whole store, the output buffer ends holding the stored block itself. -/
theorem out3_eq (x0 x1 : Vec F S1024x200 .f32) (x2 : Vec F S1024 .f32) : out3 x0 x1 x2 = k0_pay1 x0 x1 x2 := by
  have hz2 : (![0, 0] : Fin 2 → Nat) = fun _ => 0 := funext fun a => by fin_cases a <;> rfl
  have hz1 : (![0] : Fin 1 → Nat) = fun _ => 0 := funext fun a => by fin_cases a; rfl
  unfold out3
  rw [View.canon_unit_zero hz2]
  rw [View.ld_unit_zero (S := S1024x200) hz2, View.ld_unit_zero (S := S1024x200) hz2, View.ld_unit_zero (S := S1024) hz1]

/-! # The proof data, on the extended reals

The activations' window is the whole array at every point. The embedding rows, the biases and the output columns
are cut into 98 blocks of 1024; the last block overhangs its array (100000 = 97 * 1024 + 672), so at the last
point only 672 rows / biases / columns are moved and the rest of each staged block holds words nothing names. An
entry (i, j) of the stored block reads only row j of the embedding block and bias j, so the columns that are written
back never see those words. -/

section Data

variable (m : (ℓ : Loc nD τ sig) → Buf (Elt Ideal) ℓ) (ρ : Dev nD → PrngReg)

/-- The embedding rows' staged block at point `t`: the rows inside the array, the other rows at zero, -/
def eblk (c : Dev nD) (t : Fin cfg0.N) : S1024x200.Idx → Elt Ideal .f32 :=
  (cfg0.win 1).fill (cfg0.grid.coords t) (fun _ => (0 : EReal)) (iblk m c 1 t)
/-- and the biases' likewise. -/
def bblk (c : Dev nD) (t : Fin cfg0.N) : S1024.Idx → Elt Ideal .f32 :=
  (cfg0.win 2).fill (cfg0.grid.coords t) (fun _ => (0 : EReal)) (iblk m c 2 t)

/-- The proof data: the arrays as the region finds them; after the body the three inputs' buffers at their blocks
    (the cut ones filled out with zeros) and the output's at the stored block of those. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => eblk m c t
    | ⟨2, _⟩ => bblk m c t
    | ⟨3, _⟩ => out3 (iblk m c 0 t) (eblk m c t) (bblk m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = eblk m c t := by dsimp only [dats]
theorem after2 (c : Dev nD) (t : Fin cfg0.N) : (dats m 0 c).after 2 t = bblk m c t := by dsimp only [dats]
theorem after3 (c : Dev nD) (t : Fin cfg0.N) :
    (dats m 0 c).after 3 t = out3 (iblk m c 0 t) (eblk m c t) (bblk m c t) := by dsimp only [dats]

/-- What the body finds: the activations' buffer at the whole array, -/
theorem before0 (c : Dev nD) (t : Fin cfg0.N) (d) : (dats m 0 c).before 0 t d = iblk m c 0 t :=
  before0_0_of m (dats m 0 c) (A_eq m c 0) (after0 m c) t d
/-- the embedding rows' and the biases' buffers just fetched: the block's part inside the array, `d` elsewhere, -/
theorem before1 (c : Dev nD) (t : Fin cfg0.N) (d) :
    (dats m 0 c).before 1 t d = (cfg0.win 1).fill (cfg0.grid.coords t) d (iblk m c 1 t) := by
  rw [(dats m 0 c).before_fetched 1 t (fetch0_1 t) d]
  unfold Dat.fetched Dat.blockOf iblk; rw [A_eq]
theorem before2 (c : Dev nD) (t : Fin cfg0.N) (d) :
    (dats m 0 c).before 2 t d = (cfg0.win 2).fill (cfg0.grid.coords t) d (iblk m c 2 t) := by
  rw [(dats m 0 c).before_fetched 2 t (fetch0_2 t) d]
  unfold Dat.fetched Dat.blockOf iblk; rw [A_eq]
/-- and the output's at anything (it was written back at the point before). -/
theorem before3 (c : Dev nD) (t : Fin cfg0.N) (d) : (dats m 0 c).before 3 t d = d :=
  (dats m 0 c).before_out_reset 3 rfl t (by
    by_cases h : t.val = 0
    · exact .inl h
    · exact .inr ⟨h, flush0_3 _⟩) d

/-- At every point the three cut windows move the same number of rows / biases / columns, and all of the other axis. -/
theorem xsizes (t : Fin cfg0.N) :
    (cfg0.win 3).xsize (cfg0.grid.coords t) 1 = (cfg0.win 1).xsize (cfg0.grid.coords t) 0
    ∧ (cfg0.win 1).xsize (cfg0.grid.coords t) 1 = 200
    ∧ (cfg0.win 3).xsize (cfg0.grid.coords t) 1 = (cfg0.win 2).xsize (cfg0.grid.coords t) 0 :=
  (by decide +kernel : ∀ t : Fin grid0.N,
    win0_3.xsize (grid0.coords t) 1 = win0_1.xsize (grid0.coords t) 0
    ∧ win0_1.xsize (grid0.coords t) 1 = 200
    ∧ win0_3.xsize (grid0.coords t) 1 = win0_2.xsize (grid0.coords t) 0) t

end Data

/-! # The body obligation and the run -/

section Obligation

variable (m : (ℓ : Loc nD τ sig) → Buf (Elt Ideal) ℓ) (ρ : Dev nD → PrngReg)

local notation "𝕄I" => MT nD τ sig Unit (Elt Ideal) ℕ (UR sig nD τ) ℕ

/-- The columns a point writes back do not see what fills the staged embedding rows and biases past their arrays' end:
    column j (inside the array) reads embedding row j and bias j, which are inside too. -/
theorem cut_out3 (t : Fin cfg0.N) (x0 : Vec Ideal S1024x200 .f32)
    (g1 : ((cfg0.win 1).xblock (cfg0.grid.coords t)).Idx → EReal) (g2 : ((cfg0.win 2).xblock (cfg0.grid.coords t)).Idx → EReal)
    (d1 d1' : S1024x200.Idx → EReal) (d2 d2' : S1024.Idx → EReal) :
    (cfg0.win 3).cut (cfg0.grid.coords t) (out3 x0 ((cfg0.win 1).fill (cfg0.grid.coords t) d1 g1) ((cfg0.win 2).fill (cfg0.grid.coords t) d2 g2))
      = (cfg0.win 3).cut (cfg0.grid.coords t) (out3 x0 ((cfg0.win 1).fill (cfg0.grid.coords t) d1' g1) ((cfg0.win 2).fill (cfg0.grid.coords t) d2' g2)) := by
  funext y
  obtain ⟨h31, h11, h32⟩ := xsizes t
  have hy1 : (y 1).val < (cfg0.win 3).xsize (cfg0.grid.coords t) 1 := (y 1).isLt
  have hy0 : (y 0).val < 1024 := lt_of_lt_of_le (y 0).isLt ((cfg0.win 3).xsize_le (cfg0.grid.coords t) 0)
  have hy1' : (y 1).val < 1024 := lt_of_lt_of_le (y 1).isLt ((cfg0.win 3).xsize_le (cfg0.grid.coords t) 1)
  have hp : (cfg0.win 3).xinj (cfg0.grid.coords t) y = ValueIdx.ix2 (⟨(y 0).val, hy0⟩ : Fin 1024) (⟨(y 1).val, hy1'⟩ : Fin 1024) :=
    funext fun a => match a with | ⟨0, _⟩ => rfl | ⟨1, _⟩ => rfl
  show out3 _ _ _ ((cfg0.win 3).xinj (cfg0.grid.coords t) y) = out3 _ _ _ ((cfg0.win 3).xinj (cfg0.grid.coords t) y)
  rw [out3_eq, out3_eq, hp]
  refine Cert.KernelIdeal.Payload.pay_local _ _ _ _ _ _ _ (fun cc => ?_) ?_
  · have hm : (cfg0.win 1).moved (cfg0.grid.coords t) (ValueIdx.ix2 (⟨(y 1).val, hy1'⟩ : Fin 1024) cc) = true :=
      ((cfg0.win 1).moved_iff _ _).mpr fun a => match a with
        | ⟨0, _⟩ => lt_of_lt_of_eq hy1 h31
        | ⟨1, _⟩ => lt_of_lt_of_eq cc.isLt h11.symm
    unfold Window.fill; rw [dif_pos hm, dif_pos hm]
  · have hm : (cfg0.win 2).moved (cfg0.grid.coords t) (ValueIdx.ix1 (⟨(y 1).val, hy1'⟩ : Fin 1024)) = true :=
      ((cfg0.win 2).moved_iff _ _).mpr fun a => match a with
        | ⟨0, _⟩ => lt_of_lt_of_eq hy1 h32
    unfold Window.fill; rw [dif_pos hm, dif_pos hm]

/-- What the body is called with at point `t`, -/
def bodyPre (c : Dev nD) (t : Fin cfg0.N) : sProp 𝕄I :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns: the cut windows' buffers stated on the part their transfers move. -/
def bodyPost (c : Dev nD) (t : Fin cfg0.N) : sProp 𝕄I :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare ((cfg0.win 1).fill (cfg0.grid.coords t) d ((cfg0.win 1).cut (cfg0.grid.coords t) ((dats m 0 c).after 1 t))))
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) ((cfg0.win 1).fill (cfg0.grid.coords t) d1 (iblk m c 1 t))
    ((cfg0.win 2).fill (cfg0.grid.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]
  · iexists d1
    rw [show (cfg0.win 1).cut (cfg0.grid.coords t) (eblk m c t) = iblk m c 1 t from (cfg0.win 1).cut_fill _ _ _]
    iexact H1
  isplitl [H2]
  · iexists d2
    rw [show (cfg0.win 2).cut (cfg0.grid.coords t) (bblk m c t) = iblk m c 2 t from (cfg0.win 2).cut_fill _ _ _]
    iexact H2
  · iexists out3 (iblk m c 0 t) ((cfg0.win 1).fill (cfg0.grid.coords t) d1 (iblk m c 1 t)) ((cfg0.win 2).fill (cfg0.grid.coords t) d2 (iblk m c 2 t))
    have e : (cfg0.win 3).fill (cfg0.grid.coords t)
          (out3 (iblk m c 0 t) ((cfg0.win 1).fill (cfg0.grid.coords t) d1 (iblk m c 1 t)) ((cfg0.win 2).fill (cfg0.grid.coords t) d2 (iblk m c 2 t)))
          ((cfg0.win 3).cut (cfg0.grid.coords t) (out3 (iblk m c 0 t) (eblk m c t) (bblk m c t)))
        = out3 (iblk m c 0 t) ((cfg0.win 1).fill (cfg0.grid.coords t) d1 (iblk m c 1 t)) ((cfg0.win 2).fill (cfg0.grid.coords t) d2 (iblk m c 2 t)) :=
      (cfg0.win 3).fill_congr_cut (cfg0.grid.coords t)
        (cut_out3 t (iblk m c 0 t) (iblk m c 1 t) (iblk m c 2 t) d1 (fun _ => (0 : EReal)) d2 (fun _ => (0 : EReal)))
    rw [e]
    iexact H3

theorem body_obligation (c : Dev nD) : BodyObligationLoose (dats m 0 c) (defs₀ (F := Ideal)) Variants.none () Set.univ := fun t => by
  rw [bigSep_W0, bigSep_W0]
  exact sound_body m c t

set_option backward.isDefEq.respectTransparency.types false in
/-- Every weakly fair execution of @main terminates, every array of the pipeline ends at what the proof data compute
    and every other buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

end Obligation

/-- The frame of the idealized kernel program: its argument arrays end unchanged. -/
theorem frame (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  frame_of m ρ (dats m) (A_eq m) (run_main m ρ)

end Cert.KernelIdeal.Body

end
-- ==== Proof.KIValue.lean ====
/-
  The result array after the run, in closed form, on the extended reals: entry (i, j), for every row i < 1024 and every
  column j < 100000, is sigmoid (sum_c y(i, c) * E(j, c) + b(j)) of the arrays y, E, b as the kernel region finds them.
  Point t writes back columns 1024 t ... 1024 t + 1023 (the last point only its first 672), computed from embedding rows
  and biases 1024 t ...: the same positions; the 98 blocks cover every column.
-/
import proofs.«161430_j19885698580525_1_alg».proof.Proof.KIBody

set_option maxRecDepth 16384

noncomputable section

namespace Cert.KernelIdeal.Value

open Cert.KernelIdeal Cert.KernelIdeal.Gen Cert.KernelIdeal.Body
open Idealize.ShloMosaic Idealize.ShloMosaic.TcCoe Idealize.ShloMosaic.ValueIdx
open Idealize.SL Idealize.SL.Sem
open Idealize.ShloMosaic.Pipeline (Dat Cfg Window)

/-- One entry of the result. -/
def Gf (y : S1024x200.Idx → EReal) (E : S100000x200.Idx → EReal) (b : S100000.Idx → EReal) (i : Fin 1024) (j : Fin 100000) : EReal :=
  Ideal.logistic ((∑ c : Fin 200, y (ix2 i c) * E (ix2 j c)) + b (ix1 j))

/-- The result as one function of the three arrays. -/
def G (y : S1024x200.Idx → EReal) (E : S100000x200.Idx → EReal) (b : S100000.Idx → EReal) : S1024x100000.Idx → EReal :=
  fun p => Gf y E b ⟨(p 0).val, idx2_lt0 p⟩ ⟨(p 1).val, idx2_lt1 p⟩

variable (m : (ℓ : Loc nD τ sig) → Buf (Elt Ideal) ℓ) (ρ : Dev nD → PrngReg)

/-- The printed index maps over the grid: the activations' block is always the whole array; point `t` takes embedding rows,
    biases and output columns from `1024 t` on, `min 1024 (100000 - 1024 t)` of them. -/
theorem idx_facts (t : Fin cfg0.N) :
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val
    ∧ win0_3.xsize (grid0.coords t) (0 : Fin 2) = 1024
    ∧ win0_3.xsize (grid0.coords t) (1 : Fin 2) = min 1024 (100000 - 1024 * t.val) :=
  (by decide +kernel : ∀ t : Fin grid0.N,
    win0_0.index t (0 : Fin 2) = 0 ∧ win0_0.index t (1 : Fin 2) = 0
    ∧ win0_1.index t (0 : Fin 2) = t.val ∧ win0_1.index t (1 : Fin 2) = 0
    ∧ win0_2.index t (0 : Fin 1) = t.val
    ∧ win0_3.index t (0 : Fin 2) = 0 ∧ win0_3.index t (1 : Fin 2) = t.val
    ∧ win0_3.xsize (grid0.coords t) (0 : Fin 2) = 1024
    ∧ win0_3.xsize (grid0.coords t) (1 : Fin 2) = min 1024 (100000 - 1024 * t.val)) t

/-- The activations' block at any point is the whole array. -/
theorem iblk0_apply (c : Dev nD) (t : Fin cfg0.N) (i : Fin 1024) (k : Fin 200) :
    iblk m c 0 t (ix2 i k) = V m c main_v78 (ix2 i k) := by
  obtain ⟨e0, e1, -⟩ := idx_facts t
  show V m c main_v78 (((cfg0.win 0).blk t).view.emb (ix2 i k)) = V m c main_v78 (ix2 i k)
  refine congrArg _ (funext fun a => Fin.ext ?_)
  match a with
  | ⟨0, _⟩ => show win0_0.index t (0 : Fin 2) * 1024 + 1 * i.val = i.val; omega
  | ⟨1, _⟩ => show win0_0.index t (1 : Fin 2) * 200 + 1 * k.val = k.val; omega

/-- Row `j` of the embedding block at point `t`, when it is inside the array, is row `1024 t + j` of the array. -/
theorem eblk_apply (c : Dev nD) (t : Fin cfg0.N) (j : Fin 1024) (k : Fin 200) (J : Fin 100000)
    (hj : j.val < (cfg0.win 3).xsize (cfg0.grid.coords t) 1) (hJ : J.val = t.val * 1024 + j.val) :
    eblk m c t (ix2 j k) = V m c main_arg6 (ix2 J k) := by
  obtain ⟨-, -, e2, e3, -⟩ := idx_facts t
  obtain ⟨h31, h11, h32⟩ := xsizes t
  have hm : (cfg0.win 1).moved (cfg0.grid.coords t) (ix2 j k) = true :=
    ((cfg0.win 1).moved_iff _ _).mpr fun a => match a with
      | ⟨0, _⟩ => lt_of_lt_of_eq hj h31
      | ⟨1, _⟩ => lt_of_lt_of_eq k.isLt h11.symm
  unfold eblk Window.fill; rw [dif_pos hm]
  show V m c main_arg6 (((cfg0.win 1).blk t).view.emb _) = V m c main_arg6 (ix2 J k)
  refine congrArg _ (funext fun a => Fin.ext ?_)
  match a with
  | ⟨0, _⟩ => show win0_1.index t (0 : Fin 2) * 1024 + 1 * j.val = J.val; omega
  | ⟨1, _⟩ => show win0_1.index t (1 : Fin 2) * 200 + 1 * k.val = k.val; omega

/-- Bias `j` of the block at point `t`, when inside the array, is bias `1024 t + j`. -/
theorem bblk_apply (c : Dev nD) (t : Fin cfg0.N) (j : Fin 1024) (J : Fin 100000)
    (hj : j.val < (cfg0.win 3).xsize (cfg0.grid.coords t) 1) (hJ : J.val = t.val * 1024 + j.val) :
    bblk m c t (ix1 j) = V m c main_arg7 (ix1 J) := by
  obtain ⟨-, -, -, -, e4, -⟩ := idx_facts t
  obtain ⟨h31, h11, h32⟩ := xsizes t
  have hm : (cfg0.win 2).moved (cfg0.grid.coords t) (ix1 j) = true :=
    ((cfg0.win 2).moved_iff _ _).mpr fun a => match a with
      | ⟨0, _⟩ => lt_of_lt_of_eq hj h32
  unfold bblk Window.fill; rw [dif_pos hm]
  show V m c main_arg7 (((cfg0.win 2).blk t).view.emb _) = V m c main_arg7 (ix1 J)
  refine congrArg _ (funext fun a => Fin.ext ?_)
  match a with
  | ⟨0, _⟩ => show win0_2.index t (0 : Fin 1) * 1024 + 1 * j.val = J.val; omega

/-- What point `t` writes back is block `t` of `G` of the three arrays. -/
theorem flushed3_eq (c : Dev nD) (t : Fin cfg0.N) :
    (dats m 0 c).flushed 3 t = ((cfg0.win 3).blk t).view.read (Elt Ideal) (G (V m c main_v78) (V m c main_arg6) (V m c main_arg7)) := by
  show (cfg0.win 3).cut (grid0.coords t) ((dats m 0 c).after 3 t) = _
  rw [after3]
  obtain ⟨-, -, -, -, -, e5, e6, e7, e8⟩ := idx_facts t
  have hN : t.val < 98 := lt_of_lt_of_eq t.isLt N_0
  funext y
  have hy0 : (y 0).val < 1024 := lt_of_lt_of_le (y 0).isLt ((cfg0.win 3).xsize_le (cfg0.grid.coords t) 0)
  have hy1' : (y 1).val < 1024 := lt_of_lt_of_le (y 1).isLt ((cfg0.win 3).xsize_le (cfg0.grid.coords t) 1)
  have hy1 : (y 1).val < (cfg0.win 3).xsize (cfg0.grid.coords t) 1 := (y 1).isLt
  have hy1m : (y 1).val < min 1024 (100000 - 1024 * t.val) := lt_of_lt_of_eq hy1 e8
  have hJ : t.val * 1024 + (y 1).val < 100000 := by omega
  have hp : (cfg0.win 3).xinj (cfg0.grid.coords t) y = ix2 (⟨(y 0).val, hy0⟩ : Fin 1024) (⟨(y 1).val, hy1'⟩ : Fin 1024) :=
    funext fun a => match a with | ⟨0, _⟩ => rfl | ⟨1, _⟩ => rfl
  have hq : ((cfg0.win 3).blk t).view.emb y = ix2 (⟨(y 0).val, hy0⟩ : Fin 1024) (⟨t.val * 1024 + (y 1).val, hJ⟩ : Fin 100000) := by
    funext a; apply Fin.ext
    match a with
    | ⟨0, _⟩ => show win0_3.index t (0 : Fin 2) * 1024 + 1 * (y 0).val = (y 0).val; omega
    | ⟨1, _⟩ => show win0_3.index t (1 : Fin 2) * 1024 + 1 * (y 1).val = t.val * 1024 + (y 1).val; omega
  show out3 (F := Ideal) _ _ _ ((cfg0.win 3).xinj (cfg0.grid.coords t) y) = G _ _ _ (((cfg0.win 3).blk t).view.emb y)
  rw [out3_eq, hp, hq, Cert.KernelIdeal.Payload.pay_apply]
  show Ideal.logistic _ = Ideal.logistic _
  unfold Cert.KernelIdeal.Payload.score
  refine congrArg Ideal.logistic (congrArg₂ (· + ·) (Finset.sum_congr rfl fun k _ => congrArg₂ (· * ·) ?_ ?_) ?_)
  · exact iblk0_apply m c t _ k
  · exact eblk_apply m c t _ k _ hy1 rfl
  · exact bblk_apply m c t _ _ hy1 rfl

/-- An index of the result array is in point `t`'s block iff its column is among the block's columns inside the array. -/
theorem mem_blk3 (t : Fin cfg0.N) (i : S1024x100000.Idx) :
    i ∈ ((cfg0.win 3).blk t).view.set ↔ ∀ a : Fin 2, win0_3.index t a * S1024x1024.size a ≤ (i a).val
      ∧ (i a).val < win0_3.index t a * S1024x1024.size a + win0_3.xsize (grid0.coords t) a := by
  show i ∈ ((View.whole main_v79).slice (win0_3.rect t)).set ↔ _
  rw [View.set_slice_whole, Rect.mem_set_unit]
  exact Iff.rfl

/-- Every index of the result array is in some point's block: column `j` in point `j / 1024`'s. -/
theorem cover3 (i : S1024x100000.Idx) :
    ∃ t : Fin cfg0.N, (cfg0.win 3).flush t = true ∧ i ∈ ((cfg0.win 3).blk t).view.set := by
  have hi0 : (i 0).val < 1024 := idx2_lt0 i
  have hi1 : (i 1).val < 100000 := idx2_lt1 i
  have hN : cfg0.N = 98 := N_0
  refine ⟨⟨(i 1).val / 1024, by rw [hN]; omega⟩, flush0_3 _, ?_⟩
  rw [mem_blk3]
  obtain ⟨-, -, -, -, -, e5, e6, e7, e8⟩ := idx_facts ⟨(i 1).val / 1024, by rw [hN]; omega⟩
  intro a
  match a with
  | ⟨0, _⟩ =>
    show win0_3.index _ (0 : Fin 2) * 1024 ≤ (i 0).val ∧ (i 0).val < win0_3.index _ (0 : Fin 2) * 1024 + win0_3.xsize _ (0 : Fin 2)
    rw [e5, e7]; omega
  | ⟨1, _⟩ =>
    show win0_3.index _ (1 : Fin 2) * 1024 ≤ (i 1).val ∧ (i 1).val < win0_3.index _ (1 : Fin 2) * 1024 + win0_3.xsize _ (1 : Fin 2)
    rw [e6, e8]
    show (i 1).val / 1024 * 1024 ≤ (i 1).val ∧ (i 1).val < (i 1).val / 1024 * 1024 + min 1024 (100000 - 1024 * ((i 1).val / 1024))
    omega

/-- The result array after the run. -/
theorem final3 (c : Dev nD) :
    (dats m 0 c).arrAt 3 cfg0.N = G (V m c main_v78) (V m c main_arg6) (V m c main_arg7) :=
  (dats m 0 c).arrAt_eq_of_cover 3 _ (fun t _ => flushed3_eq m c t) cover3

/-- The run of the idealized kernel program read back: the result array ends at `G` of the activations the region finds
    and of the embedding table and the biases as launched; the fourteen argument arrays end unchanged. -/
theorem run : θ_run defs (onTc (τ := τ) (main (F := Ideal))) ⟨m, fun _ => 0, ρ⟩ (fun r => ∀ c : Dev nD,
      r.2.mem ((c.tc : Thread nD τ).loc main_v79)
        = G (V m c main_v78) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨((h c).1 3).trans ((final3 m c).trans (by rw [V_main_arg6, V_main_arg7])),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).1 1).trans (((dats m 0 c).arrAt_in 1 rfl _).trans ((A_eq m c 1).trans (V_main_arg6 m c))),
      ((h c).1 2).trans (((dats m 0 c).arrAt_in 2 rfl _).trans ((A_eq m c 2).trans (V_main_arg7 m c))),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      ((h c).2 main_arg11 (Pipeline.mem_restRefs_of main_arg11 (by decide) (by decide))).trans (V_main_arg11 m c),
      ((h c).2 main_arg12 (Pipeline.mem_restRefs_of main_arg12 (by decide) (by decide))).trans (V_main_arg12 m c),
      ((h c).2 main_arg13 (Pipeline.mem_restRefs_of main_arg13 (by decide) (by decide))).trans (V_main_arg13 m c)⟩) (run_main m ρ)

end Cert.KernelIdeal.Value

end
-- ==== Proof.KernelSpec.lean ====
/-
  The kernel program's host prefix, read as values.

  The program's host operations before its one region compute, from the fourteen argument arrays,
  a batch-normalised copy x of e1 (main_v14) and, from x and the remaining weights, the
  activations y the region reads (main_v78).  The definitions below are the compositions of
  those operations, stage by stage, at the printed dimension records and shape facts:

    meanAll / varAll   the mean and the (NaN-guarded) variance of e1 over all its entries
    bn0K               the affine normalisation by a scalar mean, variance, scale and shift
    hyperK             r ↦ (r · fc1_wᵀ + fc1_b) viewed as [1024, 32, 9]
    idxK               the window table (l, j) ↦ l + j, wrapped at 200, as gather indices
    convK              per-sample sliding-window contraction of x against the filters
    mean1K / var1K     per-channel mean and variance of the contraction over batch and position
    fcK                channel normalisation, flattening, and y ↦ y · fc_wᵀ + fc_b
    mean2K / var2K     per-feature mean and variance over the batch
    bn2K, reluK        feature normalisation and the rectifier

  xK and tailK assemble them, cut at x.
-/
import proofs.«161430_j19885698580525_1_alg».proof.Proof.Gen.KernelIdeal

noncomputable section

namespace Cert.KernelIdeal.HostVal

open Idealize.ShloMosaic Idealize.SL.Sem
open Cert.KernelIdeal.Gen

variable {F : FTy → Type} [FloatOps F]

/-- The i32 zero the variance helpers take as their "ddof" operand. -/
def zeroI : IVec S_ 32 := constantI S_ 32 0#32

/-- main_v1: the sum of all entries of e1 divided by 204800. -/
def meanAll (e1 : FVec F S1024x200 .f32) : FVec F S_ .f32 :=
  Host.divf (Host.reduceAdd e1 (constant S_ .f32 0x00000000#32 : FVec F S_ .f32) reducesTo_S1024x200_S_d0_1 h_S_)
    (constant S_ .f32 0x48480000#32 : FVec F S_ .f32)

/-- main_v2: the variance of e1 over all its entries, with c the i32 operand subtracted from the
    count: the sum of squared deviations divided by (204800 - c), kept where that divisor is
    positive and NaN elsewhere. -/
def varAll (e1 : FVec F S1024x200 .f32) (c : IVec S_ 32) : FVec F S_ .f32 :=
  let v0 : FVec F S_ .f32 := Host.reduceAdd e1 (constant S_ .f32 0x00000000#32 : FVec F S_ .f32) reducesTo_S1024x200_S_d0_1 h_S_
  let v1 : FVec F S1x1 .f32 := broadcastInDim S1x1 ![] bcast_S_S1x1 v0
  let v2 : FVec F S1x1 .f32 := broadcastInDim S1x1 ![] bcast_S_S1x1 (constant S_ .f32 0x48480000#32 : FVec F S_ .f32)
  let v3 : FVec F S1x1 .f32 := Host.divf v1 v2
  let v4 : FVec F S1024x200 .f32 := broadcastInDim S1024x200 ![0, 1] bcast_S1x1_S1024x200_0_1 v3
  let v5 : FVec F S1024x200 .f32 := subf e1 v4
  let v6 : FVec F S1024x200 .f32 := mulf v5 v5
  let v7 : FVec F S_ .f32 := sitofp .f32 c
  let v8 : FVec F S_ .f32 := subf (constant S_ .f32 0x48480000#32 : FVec F S_ .f32) v7
  let v9 : FVec F S_ .f32 := Host.reduceAdd v6 (constant S_ .f32 0x00000000#32 : FVec F S_ .f32) reducesTo_S1024x200_S_d0_1 h_S_
  let v10 : FVec F S_ .f32 := Host.divf v9 v8
  let v11 : IVec S_ 1 := cmpf .ogt v8 (constant S_ .f32 0x00000000#32 : FVec F S_ .f32)
  select v11 v10 (id (constant S_ .f32 0x7FC00000#32 : FVec F S_ .f32))

/-- main_v14 from e1, a scalar mean and variance, and the one-entry scale and shift:
    (e1 - mean) * rsqrt(var + eps) * g0 + b0, every scalar broadcast over [1024, 200]. -/
def bn0K (e1 : FVec F S1024x200 .f32) (mean var : FVec F S_ .f32) (g0 b0 : FVec F S1 .f32) : FVec F S1024x200 .f32 :=
  let v3 : FVec F S_ .f32 := shapeCast S_ g0 shapeCasts_S1_S_
  let v4 : FVec F S_ .f32 := shapeCast S_ b0 shapeCasts_S1_S_
  let v5 : FVec F S1024x200 .f32 := broadcastInDim S1024x200 ![] bcast_S_S1024x200 mean
  let v6 : FVec F S1024x200 .f32 := subf e1 v5
  let v7 : FVec F S_ .f32 := addf var (constant S_ .f32 0x3727C5AC#32 : FVec F S_ .f32)
  let v8 : FVec F S_ .f32 := Host.rsqrt v7
  let v9 : FVec F S1024x200 .f32 := broadcastInDim S1024x200 ![] bcast_S_S1024x200 v8
  let v10 : FVec F S1024x200 .f32 := mulf v6 v9
  let v11 : FVec F S1024x200 .f32 := broadcastInDim S1024x200 ![] bcast_S_S1024x200 v3
  let v12 : FVec F S1024x200 .f32 := mulf v10 v11
  let v13 : FVec F S1024x200 .f32 := broadcastInDim S1024x200 ![] bcast_S_S1024x200 v4
  addf v12 v13

/-- main_v14 as a function of main_arg0, main_arg8, main_arg9. -/
def xK (e1 : FVec F S1024x200 .f32) (g0 b0 : FVec F S1 .f32) : FVec F S1024x200 .f32 :=
  bn0K e1 (meanAll e1) (varAll e1 zeroI) g0 b0

/-- main_v20: the per-sample filters, r · fc1_wᵀ + fc1_b viewed as [1024, 32, 9]. -/
def hyperK (r : FVec F S1024x200 .f32) (fc1_w : FVec F S288x200 .f32) (fc1_b : FVec F S288 .f32) : FVec F S1024x32x9 .f32 :=
  let v15 : FVec F S200x288 .f32 := transpose S200x288 [1, 0] fc1_w transposes_S288x200_S200x288_1_0
  let v16 : FVec F S1024x288 .f32 := Host.dotGeneral dot_S1024x200_S200x288_S1024x288_1_0_0_1_n_n none r v15
  let v17 : FVec F S1x288 .f32 := broadcastInDim S1x288 ![1] bcast_S288_S1x288_1 fc1_b
  let v18 : FVec F S1024x288 .f32 := broadcastInDim S1024x288 ![0, 1] bcast_S1x288_S1024x288_0_1 v17
  let v19 : FVec F S1024x288 .f32 := addf v16 v18
  shapeCast S1024x32x9 v19 shapeCasts_S1024x288_S1024x32x9

/-- main_v33: the gather indices, entry (l, j) the column l + j (200 added where that is negative). -/
def idxK : IVec S192x9x1 32 :=
  let v21 : IVec S192 32 := iotaInDim S192 32 0
  let v22 : IVec S192x1 32 := broadcastInDim S192x1 ![0] bcast_S192_S192x1_0 v21
  let v23 : IVec S9 32 := iotaInDim S9 32 0
  let v24 : IVec S1x9 32 := broadcastInDim S1x9 ![1] bcast_S9_S1x9_1 v23
  let v25 : IVec S192x9 32 := broadcastInDim S192x9 ![0, 1] bcast_S192x1_S192x9_0_1 v22
  let v26 : IVec S192x9 32 := broadcastInDim S192x9 ![0, 1] bcast_S1x9_S192x9_0_1 v24
  let v27 : IVec S192x9 32 := addi v25 v26
  let v28 : IVec S192x9 32 := broadcastInDim S192x9 ![] bcast_S_S192x9 (constantI S_ 32 0#32)
  let v29 : IVec S192x9 1 := cmpi .slt v27 v28
  let v30 : IVec S192x9 32 := broadcastInDim S192x9 ![] bcast_S_S192x9 (constantI S_ 32 200#32)
  let v31 : IVec S192x9 32 := addi v27 v30
  let v32 : IVec S192x9 32 := select v29 v31 v27
  broadcastInDim S192x9x1 ![0, 1] bcast_S192x9_S192x9x1_0_1 v32

/-- main_v35: out[b, f, l] = Σ_j k[b, f, j] · x[b, l + j]. -/
def convK (x : FVec F S1024x200 .f32) (k : FVec F S1024x32x9 .f32) : FVec F S1024x32x192 .f32 :=
  let v34 : FVec F S1024x192x9 .f32 := Host.gather gather_S1024x200_S192x9x1_S1024x192x9_0_1_n_n_1_2_10241 x idxK
  Host.dotGeneral dot_S1024x32x9_S1024x192x9_S1024x32x192_2_2_1_1_0_0 none k v34

/-- main_v39: the per-channel mean over batch and position (196608 entries), as [1, 32, 1]. -/
def mean1K (conv : FVec F S1024x32x192 .f32) : FVec F S1x32x1 .f32 :=
  let v36 : FVec F S32 .f32 := Host.reduceAdd conv (constant S_ .f32 0x00000000#32 : FVec F S_ .f32) reducesTo_S1024x32x192_S32_d0_2 h_S_
  let v37 : FVec F S1x32x1 .f32 := broadcastInDim S1x32x1 ![1] bcast_S32_S1x32x1_1 v36
  let v38 : FVec F S1x32x1 .f32 := broadcastInDim S1x32x1 ![] bcast_S_S1x32x1 (constant S_ .f32 0x48400000#32 : FVec F S_ .f32)
  Host.divf v37 v38

/-- main_v40: the per-channel variance over batch and position, NaN-guarded as varAll. -/
def var1K (conv : FVec F S1024x32x192 .f32) (c : IVec S_ 32) : FVec F S1x32x1 .f32 :=
  let v0 : FVec F S32 .f32 := Host.reduceAdd conv (constant S_ .f32 0x00000000#32 : FVec F S_ .f32) reducesTo_S1024x32x192_S32_d0_2 h_S_
  let v1 : FVec F S1x32x1 .f32 := broadcastInDim S1x32x1 ![1] bcast_S32_S1x32x1_1 v0
  let v2 : FVec F S1x32x1 .f32 := broadcastInDim S1x32x1 ![] bcast_S_S1x32x1 (constant S_ .f32 0x48400000#32 : FVec F S_ .f32)
  let v3 : FVec F S1x32x1 .f32 := Host.divf v1 v2
  let v4 : FVec F S1024x32x192 .f32 := broadcastInDim S1024x32x192 ![0, 1, 2] bcast_S1x32x1_S1024x32x192_0_1_2 v3
  let v5 : FVec F S1024x32x192 .f32 := subf conv v4
  let v6 : FVec F S1024x32x192 .f32 := mulf v5 v5
  let v7 : FVec F S_ .f32 := sitofp .f32 c
  let v8 : FVec F S_ .f32 := subf (constant S_ .f32 0x48400000#32 : FVec F S_ .f32) v7
  let v9 : FVec F S32 .f32 := Host.reduceAdd v6 (constant S_ .f32 0x00000000#32 : FVec F S_ .f32) reducesTo_S1024x32x192_S32_d0_2 h_S_
  let v10 : FVec F S1x32x1 .f32 := broadcastInDim S1x32x1 ![1] bcast_S32_S1x32x1_1 v9
  let v11 : FVec F S1x32x1 .f32 := broadcastInDim S1x32x1 ![] bcast_S_S1x32x1 v8
  let v12 : FVec F S1x32x1 .f32 := Host.divf v10 v11
  let v13 : IVec S_ 1 := cmpf .ogt v8 (constant S_ .f32 0x00000000#32 : FVec F S_ .f32)
  let w0 : FVec F S_ .f32 := id (constant S_ .f32 0x7FC00000#32 : FVec F S_ .f32)
  let w1 : FVec F S1x32x1 .f32 := broadcastInDim S1x32x1 ![] bcast_S_S1x32x1 w0
  select (broadcastInDim S1x32x1 ![] bcast_S_S1x32x1 v13) v12 w1

/-- main_v59: the channel normalisation of the contraction by a given mean and variance, scale g1
    and shift b1, flattened to [1024, 6144], times fc_wᵀ plus fc_b. -/
def fcK (conv : FVec F S1024x32x192 .f32) (mean var : FVec F S1x32x1 .f32) (g1 b1 : FVec F S32 .f32)
    (fc_w : FVec F S200x6144 .f32) (fc_b : FVec F S200 .f32) : FVec F S1024x200 .f32 :=
  let v41 : FVec F S1x32x1 .f32 := broadcastInDim S1x32x1 ![1] bcast_S32_S1x32x1_1 g1
  let v42 : FVec F S1x32x1 .f32 := broadcastInDim S1x32x1 ![1] bcast_S32_S1x32x1_1 b1
  let v43 : FVec F S1024x32x192 .f32 := broadcastInDim S1024x32x192 ![0, 1, 2] bcast_S1x32x1_S1024x32x192_0_1_2 mean
  let v44 : FVec F S1024x32x192 .f32 := subf conv v43
  let v45 : FVec F S1x32x1 .f32 := broadcastInDim S1x32x1 ![] bcast_S_S1x32x1 (constant S_ .f32 0x3727C5AC#32 : FVec F S_ .f32)
  let v46 : FVec F S1x32x1 .f32 := addf var v45
  let v47 : FVec F S1x32x1 .f32 := Host.rsqrt v46
  let v48 : FVec F S1024x32x192 .f32 := broadcastInDim S1024x32x192 ![0, 1, 2] bcast_S1x32x1_S1024x32x192_0_1_2 v47
  let v49 : FVec F S1024x32x192 .f32 := mulf v44 v48
  let v50 : FVec F S1024x32x192 .f32 := broadcastInDim S1024x32x192 ![0, 1, 2] bcast_S1x32x1_S1024x32x192_0_1_2 v41
  let v51 : FVec F S1024x32x192 .f32 := mulf v49 v50
  let v52 : FVec F S1024x32x192 .f32 := broadcastInDim S1024x32x192 ![0, 1, 2] bcast_S1x32x1_S1024x32x192_0_1_2 v42
  let v53 : FVec F S1024x32x192 .f32 := addf v51 v52
  let v54 : FVec F S1024x6144 .f32 := shapeCast S1024x6144 v53 shapeCasts_S1024x32x192_S1024x6144
  let v55 : FVec F S6144x200 .f32 := transpose S6144x200 [1, 0] fc_w transposes_S200x6144_S6144x200_1_0
  let v56 : FVec F S1024x200 .f32 := Host.dotGeneral dot_S1024x6144_S6144x200_S1024x200_1_0_0_1_n_n none v54 v55
  let v57 : FVec F S1x200 .f32 := broadcastInDim S1x200 ![1] bcast_S200_S1x200_1 fc_b
  let v58 : FVec F S1024x200 .f32 := broadcastInDim S1024x200 ![0, 1] bcast_S1x200_S1024x200_0_1 v57
  addf v56 v58

/-- main_v63: the per-feature mean over the batch (1024 rows), as [1, 200]. -/
def mean2K (y : FVec F S1024x200 .f32) : FVec F S1x200 .f32 :=
  let v60 : FVec F S200 .f32 := Host.reduceAdd y (constant S_ .f32 0x00000000#32 : FVec F S_ .f32) reducesTo_S1024x200_S200_d0 h_S_
  let v61 : FVec F S1x200 .f32 := broadcastInDim S1x200 ![1] bcast_S200_S1x200_1 v60
  let v62 : FVec F S1x200 .f32 := broadcastInDim S1x200 ![] bcast_S_S1x200 (constant S_ .f32 0x44800000#32 : FVec F S_ .f32)
  Host.divf v61 v62

/-- main_v64: the per-feature variance over the batch, NaN-guarded as varAll. -/
def var2K (y : FVec F S1024x200 .f32) (c : IVec S_ 32) : FVec F S1x200 .f32 :=
  let v0 : FVec F S200 .f32 := Host.reduceAdd y (constant S_ .f32 0x00000000#32 : FVec F S_ .f32) reducesTo_S1024x200_S200_d0 h_S_
  let v1 : FVec F S1x200 .f32 := broadcastInDim S1x200 ![1] bcast_S200_S1x200_1 v0
  let v2 : FVec F S1x200 .f32 := broadcastInDim S1x200 ![] bcast_S_S1x200 (constant S_ .f32 0x44800000#32 : FVec F S_ .f32)
  let v3 : FVec F S1x200 .f32 := Host.divf v1 v2
  let v4 : FVec F S1024x200 .f32 := broadcastInDim S1024x200 ![0, 1] bcast_S1x200_S1024x200_0_1 v3
  let v5 : FVec F S1024x200 .f32 := subf y v4
  let v6 : FVec F S1024x200 .f32 := mulf v5 v5
  let v7 : FVec F S_ .f32 := sitofp .f32 c
  let v8 : FVec F S_ .f32 := subf (constant S_ .f32 0x44800000#32 : FVec F S_ .f32) v7
  let v9 : FVec F S200 .f32 := Host.reduceAdd v6 (constant S_ .f32 0x00000000#32 : FVec F S_ .f32) reducesTo_S1024x200_S200_d0 h_S_
  let v10 : FVec F S1x200 .f32 := broadcastInDim S1x200 ![1] bcast_S200_S1x200_1 v9
  let v11 : FVec F S1x200 .f32 := broadcastInDim S1x200 ![] bcast_S_S1x200 v8
  let v12 : FVec F S1x200 .f32 := Host.divf v10 v11
  let v13 : IVec S_ 1 := cmpf .ogt v8 (constant S_ .f32 0x00000000#32 : FVec F S_ .f32)
  let w0 : FVec F S_ .f32 := id (constant S_ .f32 0x7FC00000#32 : FVec F S_ .f32)
  let w1 : FVec F S1x200 .f32 := broadcastInDim S1x200 ![] bcast_S_S1x200 w0
  select (broadcastInDim S1x200 ![] bcast_S_S1x200 v13) v12 w1

/-- main_v77: the feature normalisation of y by a given mean and variance, scale g2 and shift b2. -/
def bn2K (y : FVec F S1024x200 .f32) (mean var : FVec F S1x200 .f32) (g2 b2 : FVec F S200 .f32) : FVec F S1024x200 .f32 :=
  let v65 : FVec F S1x200 .f32 := broadcastInDim S1x200 ![1] bcast_S200_S1x200_1 g2
  let v66 : FVec F S1x200 .f32 := broadcastInDim S1x200 ![1] bcast_S200_S1x200_1 b2
  let v67 : FVec F S1024x200 .f32 := broadcastInDim S1024x200 ![0, 1] bcast_S1x200_S1024x200_0_1 mean
  let v68 : FVec F S1024x200 .f32 := subf y v67
  let v69 : FVec F S1x200 .f32 := broadcastInDim S1x200 ![] bcast_S_S1x200 (constant S_ .f32 0x3727C5AC#32 : FVec F S_ .f32)
  let v70 : FVec F S1x200 .f32 := addf var v69
  let v71 : FVec F S1x200 .f32 := Host.rsqrt v70
  let v72 : FVec F S1024x200 .f32 := broadcastInDim S1024x200 ![0, 1] bcast_S1x200_S1024x200_0_1 v71
  let v73 : FVec F S1024x200 .f32 := mulf v68 v72
  let v74 : FVec F S1024x200 .f32 := broadcastInDim S1024x200 ![0, 1] bcast_S1x200_S1024x200_0_1 v65
  let v75 : FVec F S1024x200 .f32 := mulf v73 v74
  let v76 : FVec F S1024x200 .f32 := broadcastInDim S1024x200 ![0, 1] bcast_S1x200_S1024x200_0_1 v66
  addf v75 v76

/-- main_v78: the entrywise maximum with zero. -/
def reluK (y : FVec F S1024x200 .f32) : FVec F S1024x200 .f32 :=
  maximumf y (broadcastInDim S1024x200 ![] bcast_S_S1024x200 (constant S_ .f32 0x00000000#32 : FVec F S_ .f32))

/-- main_v78 as a function of main_v14 and main_arg1 … main_arg5, main_arg10 … main_arg13. -/
def tailK (x r : FVec F S1024x200 .f32) (fc1_w : FVec F S288x200 .f32) (fc1_b : FVec F S288 .f32)
    (fc_w : FVec F S200x6144 .f32) (fc_b : FVec F S200 .f32) (g1 b1 : FVec F S32 .f32) (g2 b2 : FVec F S200 .f32) :
    FVec F S1024x200 .f32 :=
  let conv : FVec F S1024x32x192 .f32 := convK x (hyperK r fc1_w fc1_b)
  let y : FVec F S1024x200 .f32 := fcK conv (mean1K conv) (var1K conv zeroI) g1 b1 fc_w fc_b
  reluK (bn2K y (mean2K y) (var2K y zeroI) g2 b2)

end Cert.KernelIdeal.HostVal

end
-- ==== Proof.KernelHost.lean ====
/-
  The kernel program's host prefix as values: what the buffers main_v14 and main_v78 hold when the
  region is entered.

  The host prefix is a fold of 158 operations in eight stretches.  Each stretch is read once, over an
  arbitrary valuation W of the buffers, at the few buffers later stretches consume (the s… lemmas:
  the stretch's own operations composed, stated with the stage functions of KernelSpec.lean), and every
  buffer a stretch does not write is unchanged by it (the keep… lemmas, from the list of buffers the
  stretch writes).  The fold over the launch memory is then the eight stretches in order
  (V_eq_stretches), and rewriting stretch by stretch from the last gives main_v78 as tailK of
  main_v14 = xK of the launched arguments (V_main_v14, V_main_v78).
-/
import proofs.«161430_j19885698580525_1_alg».proof.Proof.KernelSpec
import proofs.«161430_j19885698580525_1_alg».proof.Proof.Gen.KernelIdeal.Frame

noncomputable section

namespace Cert.KernelIdeal.HostVal

open Idealize.ShloMosaic Idealize.ShloMosaic.TcCoe Idealize.SL.Sem
open Cert.KernelIdeal.Gen

variable {F : FTy → Type} [FloatOps F]

/-! ## The eight stretches, named -/

/-- Stretch 0 of the host prefix. -/
def H0 : List (HloOp τ sig (Elt F)) := hostOps0

/-- Stretch 1 of the host prefix. -/
def H1 : List (HloOp τ sig (Elt F)) := hostOps0_1

/-- Stretch 2 of the host prefix. -/
def H2 : List (HloOp τ sig (Elt F)) := hostOps0_2

/-- Stretch 3 of the host prefix. -/
def H3 : List (HloOp τ sig (Elt F)) := hostOps0_3

/-- Stretch 4 of the host prefix. -/
def H4 : List (HloOp τ sig (Elt F)) := hostOps0_4

/-- Stretch 5 of the host prefix. -/
def H5 : List (HloOp τ sig (Elt F)) := hostOps0_5

/-- Stretch 6 of the host prefix. -/
def H6 : List (HloOp τ sig (Elt F)) := hostOps0_6

/-- Stretch 7 of the host prefix. -/
def H7 : List (HloOp τ sig (Elt F)) := hostOps0_7

/-! ## What each stretch writes, and that it leaves every other buffer alone -/

/-- The buffers stretch 0 writes. -/
def wr0 : List (Ref sig .tc) := [main_cst, main_v0, main_cst_0, main_v1, main_c]

theorem writes0 : (H0 : List (HloOp τ sig (Elt F))).Forall fun op => op.writes ⊆ ((wr0).map (Proc.devRef (τ := τ) .tc)).toFinset := by
  simp only [H0, hostOps0, wr0, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 0 does not write holds after it what it held before. -/
theorem keep0 (W : Valuation τ sig (Elt F)) {r : Ref sig .tc} (hr : r ∉ wr0) :
    StableHlo.after (H0 : List (HloOp τ sig (Elt F))) W (no_index (Proc.devRef .tc r)) = W (Proc.devRef .tc r) :=
  StableHlo.after_of_writes_sub _ W writes0 hr

/-- The buffers stretch 1 writes. -/
def wr1 : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_cst_3, main_call0_v11, main_call0_cst_4, main_call0_call0_v0, main_v2]

theorem writes1 : (H1 : List (HloOp τ sig (Elt F))).Forall fun op => op.writes ⊆ ((wr1).map (Proc.devRef (τ := τ) .tc)).toFinset := by
  simp only [H1, hostOps0_1, wr1, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 1 does not write holds after it what it held before. -/
theorem keep1 (W : Valuation τ sig (Elt F)) {r : Ref sig .tc} (hr : r ∉ wr1) :
    StableHlo.after (H1 : List (HloOp τ sig (Elt F))) W (no_index (Proc.devRef .tc r)) = W (Proc.devRef .tc r) :=
  StableHlo.after_of_writes_sub _ W writes1 hr

/-- The buffers stretch 2 writes. -/
def wr2 : List (Ref sig .tc) := [main_v3, main_v4, main_v5, main_v6, main_cst_1, main_v7, main_v8, main_v9, main_v10, main_v11, main_v12, main_v13, main_v14, main_v15, main_v16, main_v17, main_v18, main_v19, main_v20, main_v21, main_v22, main_v23, main_v24, main_v25, main_v26, main_v27, main_c_2, main_v28, main_v29, main_c_3, main_v30, main_v31, main_v32, main_v33, main_v34, main_v35, main_cst_4, main_v36, main_v37, main_cst_5, main_v38, main_v39, main_c_6]

theorem writes2 : (H2 : List (HloOp τ sig (Elt F))).Forall fun op => op.writes ⊆ ((wr2).map (Proc.devRef (τ := τ) .tc)).toFinset := by
  simp only [H2, hostOps0_2, wr2, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 2 does not write holds after it what it held before. -/
theorem keep2 (W : Valuation τ sig (Elt F)) {r : Ref sig .tc} (hr : r ∉ wr2) :
    StableHlo.after (H2 : List (HloOp τ sig (Elt F))) W (no_index (Proc.devRef .tc r)) = W (Proc.devRef .tc r) :=
  StableHlo.after_of_writes_sub _ W writes2 hr

/-- The buffers stretch 3 writes. -/
def wr3 : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v40]

theorem writes3 : (H3 : List (HloOp τ sig (Elt F))).Forall fun op => op.writes ⊆ ((wr3).map (Proc.devRef (τ := τ) .tc)).toFinset := by
  simp only [H3, hostOps0_3, wr3, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 3 does not write holds after it what it held before. -/
theorem keep3 (W : Valuation τ sig (Elt F)) {r : Ref sig .tc} (hr : r ∉ wr3) :
    StableHlo.after (H3 : List (HloOp τ sig (Elt F))) W (no_index (Proc.devRef .tc r)) = W (Proc.devRef .tc r) :=
  StableHlo.after_of_writes_sub _ W writes3 hr

/-- The buffers stretch 4 writes. -/
def wr4 : List (Ref sig .tc) := [main_v41, main_v42, main_v43, main_v44, main_cst_7, main_v45, main_v46, main_v47, main_v48, main_v49, main_v50, main_v51, main_v52, main_v53, main_v54, main_v55, main_v56, main_v57, main_v58, main_v59, main_cst_8, main_v60, main_v61, main_cst_9, main_v62, main_v63, main_c_10]

theorem writes4 : (H4 : List (HloOp τ sig (Elt F))).Forall fun op => op.writes ⊆ ((wr4).map (Proc.devRef (τ := τ) .tc)).toFinset := by
  simp only [H4, hostOps0_4, wr4, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 4 does not write holds after it what it held before. -/
theorem keep4 (W : Valuation τ sig (Elt F)) {r : Ref sig .tc} (hr : r ∉ wr4) :
    StableHlo.after (H4 : List (HloOp τ sig (Elt F))) W (no_index (Proc.devRef .tc r)) = W (Proc.devRef .tc r) :=
  StableHlo.after_of_writes_sub _ W writes4 hr

/-- The buffers stretch 5 writes. -/
def wr5 : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v64]

theorem writes5 : (H5 : List (HloOp τ sig (Elt F))).Forall fun op => op.writes ⊆ ((wr5).map (Proc.devRef (τ := τ) .tc)).toFinset := by
  simp only [H5, hostOps0_5, wr5, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 5 does not write holds after it what it held before. -/
theorem keep5 (W : Valuation τ sig (Elt F)) {r : Ref sig .tc} (hr : r ∉ wr5) :
    StableHlo.after (H5 : List (HloOp τ sig (Elt F))) W (no_index (Proc.devRef .tc r)) = W (Proc.devRef .tc r) :=
  StableHlo.after_of_writes_sub _ W writes5 hr

/-- The buffers stretch 6 writes. -/
def wr6 : List (Ref sig .tc) := [main_v65, main_v66, main_v67, main_v68, main_cst_11, main_v69, main_v70, main_v71, main_v72, main_v73, main_v74, main_v75, main_v76, main_v77]

theorem writes6 : (H6 : List (HloOp τ sig (Elt F))).Forall fun op => op.writes ⊆ ((wr6).map (Proc.devRef (τ := τ) .tc)).toFinset := by
  simp only [H6, hostOps0_6, wr6, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 6 does not write holds after it what it held before. -/
theorem keep6 (W : Valuation τ sig (Elt F)) {r : Ref sig .tc} (hr : r ∉ wr6) :
    StableHlo.after (H6 : List (HloOp τ sig (Elt F))) W (no_index (Proc.devRef .tc r)) = W (Proc.devRef .tc r) :=
  StableHlo.after_of_writes_sub _ W writes6 hr

/-- The buffers stretch 7 writes. -/
def wr7 : List (Ref sig .tc) := [main_call3_cst, main_call3_v0, main_v78]

theorem writes7 : (H7 : List (HloOp τ sig (Elt F))).Forall fun op => op.writes ⊆ ((wr7).map (Proc.devRef (τ := τ) .tc)).toFinset := by
  simp only [H7, hostOps0_7, wr7, List.Forall, StableHlo.nullary_writes, StableHlo.unary_writes, StableHlo.binary_writes, StableHlo.ternary_writes,
    StableHlo.reshape_writes, Finset.singleton_subset_iff, List.mem_toFinset, List.mem_map]
  repeat' apply And.intro
  all_goals exact ⟨_, by decide, rfl⟩

/-- A buffer stretch 7 does not write holds after it what it held before. -/
theorem keep7 (W : Valuation τ sig (Elt F)) {r : Ref sig .tc} (hr : r ∉ wr7) :
    StableHlo.after (H7 : List (HloOp τ sig (Elt F))) W (no_index (Proc.devRef .tc r)) = W (Proc.devRef .tc r) :=
  StableHlo.after_of_writes_sub _ W writes7 hr

/-! ## Each stretch read at the buffers later stretches consume -/

/-- Stretch 0 leaves in main_v1 the mean of main_arg0 over all its entries, -/
theorem s0a (W : Valuation τ sig (Elt F)) :
    StableHlo.after (H0 : List (HloOp τ sig (Elt F))) W (no_index (Proc.devRef .tc (main_v1 : Ref sig .tc))) = meanAll (W (main_arg0 : Ref sig .tc)) := by
  show StableHlo.after (hostOps0 : List (HloOp τ sig (Elt F))) W (main_v1 : Ref sig .tc) = _
  dsimp only [hostOps0]
  after_results
  rfl

/-- and in main_c the i32 zero. -/
theorem s0b (W : Valuation τ sig (Elt F)) :
    StableHlo.after (H0 : List (HloOp τ sig (Elt F))) W (no_index (Proc.devRef .tc (main_c : Ref sig .tc))) = zeroI := by
  show StableHlo.after (hostOps0 : List (HloOp τ sig (Elt F))) W (main_c : Ref sig .tc) = _
  dsimp only [hostOps0]
  after_results
  rfl

/-- Stretch 1 leaves in main_v2 the variance of main_arg0 over all its entries. -/
theorem s1 (W : Valuation τ sig (Elt F)) :
    StableHlo.after (H1 : List (HloOp τ sig (Elt F))) W (no_index (Proc.devRef .tc (main_v2 : Ref sig .tc))) = varAll (W (main_arg0 : Ref sig .tc)) (W (main_c : Ref sig .tc)) := by
  show StableHlo.after (hostOps0_1 : List (HloOp τ sig (Elt F))) W (main_v2 : Ref sig .tc) = _
  dsimp only [hostOps0_1]
  after_results_simp
  rfl

/-- Stretch 2 leaves in main_v14 the normalisation of main_arg0 by the mean in main_v1 and the variance in main_v2, -/
theorem s2a (W : Valuation τ sig (Elt F)) :
    StableHlo.after (H2 : List (HloOp τ sig (Elt F))) W (no_index (Proc.devRef .tc (main_v14 : Ref sig .tc))) = bn0K (W (main_arg0 : Ref sig .tc)) (W (main_v1 : Ref sig .tc)) (W (main_v2 : Ref sig .tc)) (W (main_arg8 : Ref sig .tc)) (W (main_arg9 : Ref sig .tc)) := by
  show StableHlo.after (hostOps0_2 : List (HloOp τ sig (Elt F))) W (main_v14 : Ref sig .tc) = _
  dsimp only [hostOps0_2]
  after_results_simp
  rfl

/-- in main_v35 the sliding-window contraction of that against the filters made from main_arg1 … main_arg3, -/
theorem s2b (W : Valuation τ sig (Elt F)) :
    StableHlo.after (H2 : List (HloOp τ sig (Elt F))) W (no_index (Proc.devRef .tc (main_v35 : Ref sig .tc))) = convK (bn0K (W (main_arg0 : Ref sig .tc)) (W (main_v1 : Ref sig .tc)) (W (main_v2 : Ref sig .tc)) (W (main_arg8 : Ref sig .tc)) (W (main_arg9 : Ref sig .tc))) (hyperK (W (main_arg1 : Ref sig .tc)) (W (main_arg2 : Ref sig .tc)) (W (main_arg3 : Ref sig .tc))) := by
  show StableHlo.after (hostOps0_2 : List (HloOp τ sig (Elt F))) W (main_v35 : Ref sig .tc) = _
  dsimp only [hostOps0_2]
  after_results_simp
  rfl

/-- in main_v39 its per-channel mean, -/
theorem s2c (W : Valuation τ sig (Elt F)) :
    StableHlo.after (H2 : List (HloOp τ sig (Elt F))) W (no_index (Proc.devRef .tc (main_v39 : Ref sig .tc))) = mean1K (convK (bn0K (W (main_arg0 : Ref sig .tc)) (W (main_v1 : Ref sig .tc)) (W (main_v2 : Ref sig .tc)) (W (main_arg8 : Ref sig .tc)) (W (main_arg9 : Ref sig .tc))) (hyperK (W (main_arg1 : Ref sig .tc)) (W (main_arg2 : Ref sig .tc)) (W (main_arg3 : Ref sig .tc)))) := by
  show StableHlo.after (hostOps0_2 : List (HloOp τ sig (Elt F))) W (main_v39 : Ref sig .tc) = _
  dsimp only [hostOps0_2]
  after_results_simp
  rfl

/-- and in main_c_6 the i32 zero. -/
theorem s2d (W : Valuation τ sig (Elt F)) :
    StableHlo.after (H2 : List (HloOp τ sig (Elt F))) W (no_index (Proc.devRef .tc (main_c_6 : Ref sig .tc))) = zeroI := by
  show StableHlo.after (hostOps0_2 : List (HloOp τ sig (Elt F))) W (main_c_6 : Ref sig .tc) = _
  dsimp only [hostOps0_2]
  after_results_simp
  rfl

/-- Stretch 3 leaves in main_v40 the per-channel variance of main_v35. -/
theorem s3 (W : Valuation τ sig (Elt F)) :
    StableHlo.after (H3 : List (HloOp τ sig (Elt F))) W (no_index (Proc.devRef .tc (main_v40 : Ref sig .tc))) = var1K (W (main_v35 : Ref sig .tc)) (W (main_c_6 : Ref sig .tc)) := by
  show StableHlo.after (hostOps0_3 : List (HloOp τ sig (Elt F))) W (main_v40 : Ref sig .tc) = _
  dsimp only [hostOps0_3]
  after_results_simp
  rfl

/-- Stretch 4 leaves in main_v59 the channel normalisation of main_v35, flattened and passed through the dense layer, -/
theorem s4a (W : Valuation τ sig (Elt F)) :
    StableHlo.after (H4 : List (HloOp τ sig (Elt F))) W (no_index (Proc.devRef .tc (main_v59 : Ref sig .tc))) = fcK (W (main_v35 : Ref sig .tc)) (W (main_v39 : Ref sig .tc)) (W (main_v40 : Ref sig .tc)) (W (main_arg10 : Ref sig .tc)) (W (main_arg11 : Ref sig .tc)) (W (main_arg4 : Ref sig .tc)) (W (main_arg5 : Ref sig .tc)) := by
  show StableHlo.after (hostOps0_4 : List (HloOp τ sig (Elt F))) W (main_v59 : Ref sig .tc) = _
  dsimp only [hostOps0_4]
  after_results_simp
  rfl

/-- in main_v63 its per-feature mean, -/
theorem s4b (W : Valuation τ sig (Elt F)) :
    StableHlo.after (H4 : List (HloOp τ sig (Elt F))) W (no_index (Proc.devRef .tc (main_v63 : Ref sig .tc))) = mean2K (fcK (W (main_v35 : Ref sig .tc)) (W (main_v39 : Ref sig .tc)) (W (main_v40 : Ref sig .tc)) (W (main_arg10 : Ref sig .tc)) (W (main_arg11 : Ref sig .tc)) (W (main_arg4 : Ref sig .tc)) (W (main_arg5 : Ref sig .tc))) := by
  show StableHlo.after (hostOps0_4 : List (HloOp τ sig (Elt F))) W (main_v63 : Ref sig .tc) = _
  dsimp only [hostOps0_4]
  after_results_simp
  rfl

/-- and in main_c_10 the i32 zero. -/
theorem s4c (W : Valuation τ sig (Elt F)) :
    StableHlo.after (H4 : List (HloOp τ sig (Elt F))) W (no_index (Proc.devRef .tc (main_c_10 : Ref sig .tc))) = zeroI := by
  show StableHlo.after (hostOps0_4 : List (HloOp τ sig (Elt F))) W (main_c_10 : Ref sig .tc) = _
  dsimp only [hostOps0_4]
  after_results_simp
  rfl

/-- Stretch 5 leaves in main_v64 the per-feature variance of main_v59. -/
theorem s5 (W : Valuation τ sig (Elt F)) :
    StableHlo.after (H5 : List (HloOp τ sig (Elt F))) W (no_index (Proc.devRef .tc (main_v64 : Ref sig .tc))) = var2K (W (main_v59 : Ref sig .tc)) (W (main_c_10 : Ref sig .tc)) := by
  show StableHlo.after (hostOps0_5 : List (HloOp τ sig (Elt F))) W (main_v64 : Ref sig .tc) = _
  dsimp only [hostOps0_5]
  after_results_simp
  rfl

/-- Stretch 6 leaves in main_v77 the feature normalisation of main_v59. -/
theorem s6 (W : Valuation τ sig (Elt F)) :
    StableHlo.after (H6 : List (HloOp τ sig (Elt F))) W (no_index (Proc.devRef .tc (main_v77 : Ref sig .tc))) = bn2K (W (main_v59 : Ref sig .tc)) (W (main_v63 : Ref sig .tc)) (W (main_v64 : Ref sig .tc)) (W (main_arg12 : Ref sig .tc)) (W (main_arg13 : Ref sig .tc)) := by
  show StableHlo.after (hostOps0_6 : List (HloOp τ sig (Elt F))) W (main_v77 : Ref sig .tc) = _
  dsimp only [hostOps0_6]
  after_results_simp
  rfl

/-- Stretch 7 leaves in main_v78 the rectified main_v77. -/
theorem s7 (W : Valuation τ sig (Elt F)) :
    StableHlo.after (H7 : List (HloOp τ sig (Elt F))) W (no_index (Proc.devRef .tc (main_v78 : Ref sig .tc))) = reluK (W (main_v77 : Ref sig .tc)) := by
  show StableHlo.after (hostOps0_7 : List (HloOp τ sig (Elt F))) W (main_v78 : Ref sig .tc) = _
  dsimp only [hostOps0_7]
  after_results
  rfl

/-! ## The fold over the launch memory -/

/-- The contents the region finds are the eight stretches applied in order to the launch memory. -/
theorem V_eq_stretches (m : (ℓ : Loc nD τ sig) → Buf (Elt F) ℓ) (c : Dev nD) (b : Ref sig .tc) :
    Gen.V m c b = StableHlo.after H7 (StableHlo.after H6 (StableHlo.after H5 (StableHlo.after H4 (StableHlo.after H3
      (StableHlo.after H2 (StableHlo.after H1 (StableHlo.after H0 (fun b => m (c, b))))))))) b := by
  dsimp only [Gen.V]
  simp only [List.flatten_cons, List.flatten_nil, List.append_nil, StableHlo.after_append]
  rfl

/-- main_v14, as the region finds it, is xK of the launched main_arg0, main_arg8, main_arg9. -/
theorem V_main_v14 (m : (ℓ : Loc nD τ sig) → Buf (Elt F) ℓ) (c : Dev nD) :
    Gen.V m c main_v14 = xK (m ((c : Thread nD τ).loc main_arg0)) (m ((c : Thread nD τ).loc main_arg8)) (m ((c : Thread nD τ).loc main_arg9)) := by
  rw [V_eq_stretches]
  simp (disch := decide) only [keep7, keep6, keep5, keep4, keep3, s2a, keep1, s1, keep0, s0a, s0b]
  rfl

/-- main_v78, as the region finds it, is tailK of that main_v14 and the launched main_arg1 … main_arg5,
    main_arg10 … main_arg13. -/
theorem V_main_v78 (m : (ℓ : Loc nD τ sig) → Buf (Elt F) ℓ) (c : Dev nD) :
    Gen.V m c main_v78 = tailK (xK (m ((c : Thread nD τ).loc main_arg0)) (m ((c : Thread nD τ).loc main_arg8)) (m ((c : Thread nD τ).loc main_arg9)))
      (m ((c : Thread nD τ).loc main_arg1)) (m ((c : Thread nD τ).loc main_arg2)) (m ((c : Thread nD τ).loc main_arg3)) (m ((c : Thread nD τ).loc main_arg4)) (m ((c : Thread nD τ).loc main_arg5))
      (m ((c : Thread nD τ).loc main_arg10)) (m ((c : Thread nD τ).loc main_arg11)) (m ((c : Thread nD τ).loc main_arg12)) (m ((c : Thread nD τ).loc main_arg13)) := by
  rw [V_eq_stretches]
  simp (disch := decide) only [s7, s6, s5, keep5, s4a, s4b, s4c, keep4, s3, keep3, s2b, s2c, s2d, keep2, s1, keep1, s0a, s0b, keep0]
  rfl

end Cert.KernelIdeal.HostVal

end
-- ==== Proof.RefSpec.lean ====
/-
  The reference program's value, stage by stage: each definition is the composition of the printed host
  operations of its stretch of @main (the outlined functions' operations at the call's buffers), written over
  the stretch's inputs. A value read more than once is bound once.
    xR     — the first batch normalisation: the operand viewed as [1024,1,200], mean and variance over axes [0,2]
             (shapes [1] / [1,1,1]), normalised, scaled, shifted, viewed back as [1024,200];
    tailR  — the first linear layer, the per-sample 1-D circular convolution as a gather and a batched product,
             the second batch normalisation, the second linear layer, the third batch normalisation, relu;
    finR   — the last layer: y · Eᵀ + b, then 1 / (1 + exp (−s)).
-/
import proofs.«161430_j19885698580525_1_alg».proof.Proof.Gen.ReferenceIdeal

noncomputable section

namespace Cert.ReferenceIdeal.RefRun

open Cert.ReferenceIdeal Cert.ReferenceIdeal.Gen Idealize.ShloMosaic Idealize.SL.Sem

variable {F : FTy → Type} [FloatOps F]

/-- The first batch normalisation's output as a function of the embedding rows and the scale and shift. -/
def xR (e1 : FVec F S1024x200 .f32) (g0 b0 : FVec F S1 .f32) : FVec F S1024x200 .f32 :=
  let v0 : (⟨S1024x1x200, .f32⟩ : BufTy).Contents (Elt F) := (broadcastInDim S1024x1x200 ![0, 2] bcast_S1024x200_S1024x1x200_0_2 : (⟨S1024x200, .f32⟩ : BufTy).Contents (Elt F) → (⟨S1024x1x200, .f32⟩ : BufTy).Contents (Elt F)) e1
  let call0_v5 : (⟨S1024x1x200, .f32⟩ : BufTy).Contents (Elt F) := (subf : (⟨S1024x1x200, .f32⟩ : BufTy).Contents (Elt F) → (⟨S1024x1x200, .f32⟩ : BufTy).Contents (Elt F) → (⟨S1024x1x200, .f32⟩ : BufTy).Contents (Elt F)) v0 (((broadcastInDim S1024x1x200 ![0, 1, 2] bcast_S1x1x1_S1024x1x200_0_1_2) : (⟨S1x1x1, .f32⟩ : BufTy).Contents (Elt F) → (⟨S1024x1x200, .f32⟩ : BufTy).Contents (Elt F)) ((Host.divf : (⟨S1x1x1, .f32⟩ : BufTy).Contents (Elt F) → (⟨S1x1x1, .f32⟩ : BufTy).Contents (Elt F) → (⟨S1x1x1, .f32⟩ : BufTy).Contents (Elt F)) (((broadcastInDim S1x1x1 ![1] bcast_S1_S1x1x1_1) : (⟨S1, .f32⟩ : BufTy).Contents (Elt F) → (⟨S1x1x1, .f32⟩ : BufTy).Contents (Elt F)) (((fun x v => Host.reduceAdd x v reducesTo_S1024x1x200_S1_d0_2 h_S_) : (⟨S1024x1x200, .f32⟩ : BufTy).Contents (Elt F) → (⟨S_, .f32⟩ : BufTy).Contents (Elt F) → (⟨S1, .f32⟩ : BufTy).Contents (Elt F)) v0 (constant S_ .f32 0x00000000#32))) (((broadcastInDim S1x1x1 ![] bcast_S_S1x1x1) : (⟨S_, .f32⟩ : BufTy).Contents (Elt F) → (⟨S1x1x1, .f32⟩ : BufTy).Contents (Elt F)) (constant S_ .f32 0x48480000#32))))
  let call0_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) (constant S_ .f32 0x48480000#32) (((sitofp .f32) : (⟨S_, .i32⟩ : BufTy).Contents (Elt F) → (⟨S_, .f32⟩ : BufTy).Contents (Elt F)) (constantI S_ 32 0#32))
  shapeCast S1024x200 ((addf : (⟨S1024x1x200, .f32⟩ : BufTy).Contents (Elt F) → (⟨S1024x1x200, .f32⟩ : BufTy).Contents (Elt F) → (⟨S1024x1x200, .f32⟩ : BufTy).Contents (Elt F)) ((mulf : (⟨S1024x1x200, .f32⟩ : BufTy).Contents (Elt F) → (⟨S1024x1x200, .f32⟩ : BufTy).Contents (Elt F) → (⟨S1024x1x200, .f32⟩ : BufTy).Contents (Elt F)) ((mulf : (⟨S1024x1x200, .f32⟩ : BufTy).Contents (Elt F) → (⟨S1024x1x200, .f32⟩ : BufTy).Contents (Elt F) → (⟨S1024x1x200, .f32⟩ : BufTy).Contents (Elt F)) ((subf : (⟨S1024x1x200, .f32⟩ : BufTy).Contents (Elt F) → (⟨S1024x1x200, .f32⟩ : BufTy).Contents (Elt F) → (⟨S1024x1x200, .f32⟩ : BufTy).Contents (Elt F)) v0 ((broadcastInDim S1024x1x200 ![0, 1, 2] bcast_S1x1x1_S1024x1x200_0_1_2 : (⟨S1x1x1, .f32⟩ : BufTy).Contents (Elt F) → (⟨S1024x1x200, .f32⟩ : BufTy).Contents (Elt F)) ((Host.divf : (⟨S1x1x1, .f32⟩ : BufTy).Contents (Elt F) → (⟨S1x1x1, .f32⟩ : BufTy).Contents (Elt F) → (⟨S1x1x1, .f32⟩ : BufTy).Contents (Elt F)) ((broadcastInDim S1x1x1 ![1] bcast_S1_S1x1x1_1 : (⟨S1, .f32⟩ : BufTy).Contents (Elt F) → (⟨S1x1x1, .f32⟩ : BufTy).Contents (Elt F)) (((fun x v => Host.reduceAdd x v reducesTo_S1024x1x200_S1_d0_2 h_S_) : (⟨S1024x1x200, .f32⟩ : BufTy).Contents (Elt F) → (⟨S_, .f32⟩ : BufTy).Contents (Elt F) → (⟨S1, .f32⟩ : BufTy).Contents (Elt F)) v0 (constant S_ .f32 0x00000000#32))) ((broadcastInDim S1x1x1 ![] bcast_S_S1x1x1 : (⟨S_, .f32⟩ : BufTy).Contents (Elt F) → (⟨S1x1x1, .f32⟩ : BufTy).Contents (Elt F)) (constant S_ .f32 0x48480000#32))))) ((broadcastInDim S1024x1x200 ![0, 1, 2] bcast_S1x1x1_S1024x1x200_0_1_2 : (⟨S1x1x1, .f32⟩ : BufTy).Contents (Elt F) → (⟨S1024x1x200, .f32⟩ : BufTy).Contents (Elt F)) ((Host.rsqrt : (⟨S1x1x1, .f32⟩ : BufTy).Contents (Elt F) → (⟨S1x1x1, .f32⟩ : BufTy).Contents (Elt F)) ((addf : (⟨S1x1x1, .f32⟩ : BufTy).Contents (Elt F) → (⟨S1x1x1, .f32⟩ : BufTy).Contents (Elt F) → (⟨S1x1x1, .f32⟩ : BufTy).Contents (Elt F)) (((fun p a b => select (broadcastInDim S1x1x1 ![] bcast_S_S1x1x1 p) a b) : (⟨S_, .i1⟩ : BufTy).Contents (Elt F) → (⟨S1x1x1, .f32⟩ : BufTy).Contents (Elt F) → (⟨S1x1x1, .f32⟩ : BufTy).Contents (Elt F) → (⟨S1x1x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) call0_v8 (constant S_ .f32 0x00000000#32)) ((Host.divf : (⟨S1x1x1, .f32⟩ : BufTy).Contents (Elt F) → (⟨S1x1x1, .f32⟩ : BufTy).Contents (Elt F) → (⟨S1x1x1, .f32⟩ : BufTy).Contents (Elt F)) (((broadcastInDim S1x1x1 ![1] bcast_S1_S1x1x1_1) : (⟨S1, .f32⟩ : BufTy).Contents (Elt F) → (⟨S1x1x1, .f32⟩ : BufTy).Contents (Elt F)) (((fun x v => Host.reduceAdd x v reducesTo_S1024x1x200_S1_d0_2 h_S_) : (⟨S1024x1x200, .f32⟩ : BufTy).Contents (Elt F) → (⟨S_, .f32⟩ : BufTy).Contents (Elt F) → (⟨S1, .f32⟩ : BufTy).Contents (Elt F)) ((mulf : (⟨S1024x1x200, .f32⟩ : BufTy).Contents (Elt F) → (⟨S1024x1x200, .f32⟩ : BufTy).Contents (Elt F) → (⟨S1024x1x200, .f32⟩ : BufTy).Contents (Elt F)) call0_v5 call0_v5) (constant S_ .f32 0x00000000#32))) (((broadcastInDim S1x1x1 ![] bcast_S_S1x1x1) : (⟨S_, .f32⟩ : BufTy).Contents (Elt F) → (⟨S1x1x1, .f32⟩ : BufTy).Contents (Elt F)) call0_v8)) (((broadcastInDim S1x1x1 ![] bcast_S_S1x1x1) : (⟨S_, .f32⟩ : BufTy).Contents (Elt F) → (⟨S1x1x1, .f32⟩ : BufTy).Contents (Elt F)) ((id : (⟨S_, .f32⟩ : BufTy).Contents (Elt F) → (⟨S_, .f32⟩ : BufTy).Contents (Elt F)) (constant S_ .f32 0x7FC00000#32)))) ((broadcastInDim S1x1x1 ![] bcast_S_S1x1x1 : (⟨S_, .f32⟩ : BufTy).Contents (Elt F) → (⟨S1x1x1, .f32⟩ : BufTy).Contents (Elt F)) (constant S_ .f32 0x3727C5AC#32)))))) ((broadcastInDim S1024x1x200 ![0, 1, 2] bcast_S1x1x1_S1024x1x200_0_1_2 : (⟨S1x1x1, .f32⟩ : BufTy).Contents (Elt F) → (⟨S1024x1x200, .f32⟩ : BufTy).Contents (Elt F)) ((broadcastInDim S1x1x1 ![1] bcast_S1_S1x1x1_1 : (⟨S1, .f32⟩ : BufTy).Contents (Elt F) → (⟨S1x1x1, .f32⟩ : BufTy).Contents (Elt F)) g0))) ((broadcastInDim S1024x1x200 ![0, 1, 2] bcast_S1x1x1_S1024x1x200_0_1_2 : (⟨S1x1x1, .f32⟩ : BufTy).Contents (Elt F) → (⟨S1024x1x200, .f32⟩ : BufTy).Contents (Elt F)) ((broadcastInDim S1x1x1 ![1] bcast_S1_S1x1x1_1 : (⟨S1, .f32⟩ : BufTy).Contents (Elt F) → (⟨S1x1x1, .f32⟩ : BufTy).Contents (Elt F)) b0))) shapeCasts_S1024x1x200_S1024x200

/-- The relu output as a function of the first batch normalisation's output, the second operand and the
    parameters of the two linear layers and the two later batch normalisations. -/
def tailR (x r : FVec F S1024x200 .f32) (fc1_w : FVec F S288x200 .f32) (fc1_b : FVec F S288 .f32)
    (fc_w : FVec F S200x6144 .f32) (fc_b : FVec F S200 .f32) (g1 b1 : FVec F S32 .f32) (g2 b2 : FVec F S200 .f32) :
    FVec F S1024x200 .f32 :=
  let v32 : (⟨S192x9, .i32⟩ : BufTy).Contents (Elt F) := (addi : (⟨S192x9, .i32⟩ : BufTy).Contents (Elt F) → (⟨S192x9, .i32⟩ : BufTy).Contents (Elt F) → (⟨S192x9, .i32⟩ : BufTy).Contents (Elt F)) ((broadcastInDim S192x9 ![0, 1] bcast_S192x1_S192x9_0_1 : (⟨S192x1, .i32⟩ : BufTy).Contents (Elt F) → (⟨S192x9, .i32⟩ : BufTy).Contents (Elt F)) ((broadcastInDim S192x1 ![0] bcast_S192_S192x1_0 : (⟨S192, .i32⟩ : BufTy).Contents (Elt F) → (⟨S192x1, .i32⟩ : BufTy).Contents (Elt F)) (iotaInDim S192 32 0))) ((broadcastInDim S192x9 ![0, 1] bcast_S1x9_S192x9_0_1 : (⟨S1x9, .i32⟩ : BufTy).Contents (Elt F) → (⟨S192x9, .i32⟩ : BufTy).Contents (Elt F)) ((broadcastInDim S1x9 ![1] bcast_S9_S1x9_1 : (⟨S9, .i32⟩ : BufTy).Contents (Elt F) → (⟨S1x9, .i32⟩ : BufTy).Contents (Elt F)) (iotaInDim S9 32 0)))
  let v40 : (⟨S1024x32x192, .f32⟩ : BufTy).Contents (Elt F) := ((fun l r => Host.dotGeneral dot_S1024x32x9_S1024x192x9_S1024x32x192_2_2_1_1_0_0 none l r) : (⟨S1024x32x9, .f32⟩ : BufTy).Contents (Elt F) → (⟨S1024x192x9, .f32⟩ : BufTy).Contents (Elt F) → (⟨S1024x32x192, .f32⟩ : BufTy).Contents (Elt F)) (shapeCast S1024x32x9 ((addf : (⟨S1024x288, .f32⟩ : BufTy).Contents (Elt F) → (⟨S1024x288, .f32⟩ : BufTy).Contents (Elt F) → (⟨S1024x288, .f32⟩ : BufTy).Contents (Elt F)) (((fun l r => Host.dotGeneral dot_S1024x200_S200x288_S1024x288_1_0_0_1_n_n none l r) : (⟨S1024x200, .f32⟩ : BufTy).Contents (Elt F) → (⟨S200x288, .f32⟩ : BufTy).Contents (Elt F) → (⟨S1024x288, .f32⟩ : BufTy).Contents (Elt F)) r (((transpose S200x288 [1, 0] · transposes_S288x200_S200x288_1_0) : (⟨S288x200, .f32⟩ : BufTy).Contents (Elt F) → (⟨S200x288, .f32⟩ : BufTy).Contents (Elt F)) fc1_w)) ((broadcastInDim S1024x288 ![0, 1] bcast_S1x288_S1024x288_0_1 : (⟨S1x288, .f32⟩ : BufTy).Contents (Elt F) → (⟨S1024x288, .f32⟩ : BufTy).Contents (Elt F)) ((broadcastInDim S1x288 ![1] bcast_S288_S1x288_1 : (⟨S288, .f32⟩ : BufTy).Contents (Elt F) → (⟨S1x288, .f32⟩ : BufTy).Contents (Elt F)) fc1_b))) shapeCasts_S1024x288_S1024x32x9) (((fun x i => Host.gather gather_S1024x200_S192x9x1_S1024x192x9_0_1_n_n_1_2_10241 x i) : (⟨S1024x200, .f32⟩ : BufTy).Contents (Elt F) → (⟨S192x9x1, .i32⟩ : BufTy).Contents (Elt F) → (⟨S1024x192x9, .f32⟩ : BufTy).Contents (Elt F)) x ((broadcastInDim S192x9x1 ![0, 1] bcast_S192x9_S192x9x1_0_1 : (⟨S192x9, .i32⟩ : BufTy).Contents (Elt F) → (⟨S192x9x1, .i32⟩ : BufTy).Contents (Elt F)) ((select : (⟨S192x9, .i1⟩ : BufTy).Contents (Elt F) → (⟨S192x9, .i32⟩ : BufTy).Contents (Elt F) → (⟨S192x9, .i32⟩ : BufTy).Contents (Elt F) → (⟨S192x9, .i32⟩ : BufTy).Contents (Elt F)) ((cmpi .slt : (⟨S192x9, .i32⟩ : BufTy).Contents (Elt F) → (⟨S192x9, .i32⟩ : BufTy).Contents (Elt F) → (⟨S192x9, .i1⟩ : BufTy).Contents (Elt F)) v32 ((broadcastInDim S192x9 ![] bcast_S_S192x9 : (⟨S_, .i32⟩ : BufTy).Contents (Elt F) → (⟨S192x9, .i32⟩ : BufTy).Contents (Elt F)) (constantI S_ 32 0#32))) ((addi : (⟨S192x9, .i32⟩ : BufTy).Contents (Elt F) → (⟨S192x9, .i32⟩ : BufTy).Contents (Elt F) → (⟨S192x9, .i32⟩ : BufTy).Contents (Elt F)) v32 ((broadcastInDim S192x9 ![] bcast_S_S192x9 : (⟨S_, .i32⟩ : BufTy).Contents (Elt F) → (⟨S192x9, .i32⟩ : BufTy).Contents (Elt F)) (constantI S_ 32 200#32))) v32)))
  let call1_v5 : (⟨S1024x32x192, .f32⟩ : BufTy).Contents (Elt F) := (subf : (⟨S1024x32x192, .f32⟩ : BufTy).Contents (Elt F) → (⟨S1024x32x192, .f32⟩ : BufTy).Contents (Elt F) → (⟨S1024x32x192, .f32⟩ : BufTy).Contents (Elt F)) v40 (((broadcastInDim S1024x32x192 ![0, 1, 2] bcast_S1x32x1_S1024x32x192_0_1_2) : (⟨S1x32x1, .f32⟩ : BufTy).Contents (Elt F) → (⟨S1024x32x192, .f32⟩ : BufTy).Contents (Elt F)) ((Host.divf : (⟨S1x32x1, .f32⟩ : BufTy).Contents (Elt F) → (⟨S1x32x1, .f32⟩ : BufTy).Contents (Elt F) → (⟨S1x32x1, .f32⟩ : BufTy).Contents (Elt F)) (((broadcastInDim S1x32x1 ![1] bcast_S32_S1x32x1_1) : (⟨S32, .f32⟩ : BufTy).Contents (Elt F) → (⟨S1x32x1, .f32⟩ : BufTy).Contents (Elt F)) (((fun x v => Host.reduceAdd x v reducesTo_S1024x32x192_S32_d0_2 h_S_) : (⟨S1024x32x192, .f32⟩ : BufTy).Contents (Elt F) → (⟨S_, .f32⟩ : BufTy).Contents (Elt F) → (⟨S32, .f32⟩ : BufTy).Contents (Elt F)) v40 (constant S_ .f32 0x00000000#32))) (((broadcastInDim S1x32x1 ![] bcast_S_S1x32x1) : (⟨S_, .f32⟩ : BufTy).Contents (Elt F) → (⟨S1x32x1, .f32⟩ : BufTy).Contents (Elt F)) (constant S_ .f32 0x48400000#32))))
  let call1_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) (constant S_ .f32 0x48400000#32) (((sitofp .f32) : (⟨S_, .i32⟩ : BufTy).Contents (Elt F) → (⟨S_, .f32⟩ : BufTy).Contents (Elt F)) (constantI S_ 32 0#32))
  let v64 : (⟨S1024x200, .f32⟩ : BufTy).Contents (Elt F) := (addf : (⟨S1024x200, .f32⟩ : BufTy).Contents (Elt F) → (⟨S1024x200, .f32⟩ : BufTy).Contents (Elt F) → (⟨S1024x200, .f32⟩ : BufTy).Contents (Elt F)) (((fun l r => Host.dotGeneral dot_S1024x6144_S6144x200_S1024x200_1_0_0_1_n_n none l r) : (⟨S1024x6144, .f32⟩ : BufTy).Contents (Elt F) → (⟨S6144x200, .f32⟩ : BufTy).Contents (Elt F) → (⟨S1024x200, .f32⟩ : BufTy).Contents (Elt F)) (shapeCast S1024x6144 ((addf : (⟨S1024x32x192, .f32⟩ : BufTy).Contents (Elt F) → (⟨S1024x32x192, .f32⟩ : BufTy).Contents (Elt F) → (⟨S1024x32x192, .f32⟩ : BufTy).Contents (Elt F)) ((mulf : (⟨S1024x32x192, .f32⟩ : BufTy).Contents (Elt F) → (⟨S1024x32x192, .f32⟩ : BufTy).Contents (Elt F) → (⟨S1024x32x192, .f32⟩ : BufTy).Contents (Elt F)) ((mulf : (⟨S1024x32x192, .f32⟩ : BufTy).Contents (Elt F) → (⟨S1024x32x192, .f32⟩ : BufTy).Contents (Elt F) → (⟨S1024x32x192, .f32⟩ : BufTy).Contents (Elt F)) ((subf : (⟨S1024x32x192, .f32⟩ : BufTy).Contents (Elt F) → (⟨S1024x32x192, .f32⟩ : BufTy).Contents (Elt F) → (⟨S1024x32x192, .f32⟩ : BufTy).Contents (Elt F)) v40 ((broadcastInDim S1024x32x192 ![0, 1, 2] bcast_S1x32x1_S1024x32x192_0_1_2 : (⟨S1x32x1, .f32⟩ : BufTy).Contents (Elt F) → (⟨S1024x32x192, .f32⟩ : BufTy).Contents (Elt F)) ((Host.divf : (⟨S1x32x1, .f32⟩ : BufTy).Contents (Elt F) → (⟨S1x32x1, .f32⟩ : BufTy).Contents (Elt F) → (⟨S1x32x1, .f32⟩ : BufTy).Contents (Elt F)) ((broadcastInDim S1x32x1 ![1] bcast_S32_S1x32x1_1 : (⟨S32, .f32⟩ : BufTy).Contents (Elt F) → (⟨S1x32x1, .f32⟩ : BufTy).Contents (Elt F)) (((fun x v => Host.reduceAdd x v reducesTo_S1024x32x192_S32_d0_2 h_S_) : (⟨S1024x32x192, .f32⟩ : BufTy).Contents (Elt F) → (⟨S_, .f32⟩ : BufTy).Contents (Elt F) → (⟨S32, .f32⟩ : BufTy).Contents (Elt F)) v40 (constant S_ .f32 0x00000000#32))) ((broadcastInDim S1x32x1 ![] bcast_S_S1x32x1 : (⟨S_, .f32⟩ : BufTy).Contents (Elt F) → (⟨S1x32x1, .f32⟩ : BufTy).Contents (Elt F)) (constant S_ .f32 0x48400000#32))))) ((broadcastInDim S1024x32x192 ![0, 1, 2] bcast_S1x32x1_S1024x32x192_0_1_2 : (⟨S1x32x1, .f32⟩ : BufTy).Contents (Elt F) → (⟨S1024x32x192, .f32⟩ : BufTy).Contents (Elt F)) ((Host.rsqrt : (⟨S1x32x1, .f32⟩ : BufTy).Contents (Elt F) → (⟨S1x32x1, .f32⟩ : BufTy).Contents (Elt F)) ((addf : (⟨S1x32x1, .f32⟩ : BufTy).Contents (Elt F) → (⟨S1x32x1, .f32⟩ : BufTy).Contents (Elt F) → (⟨S1x32x1, .f32⟩ : BufTy).Contents (Elt F)) (((fun p a b => select (broadcastInDim S1x32x1 ![] bcast_S_S1x32x1 p) a b) : (⟨S_, .i1⟩ : BufTy).Contents (Elt F) → (⟨S1x32x1, .f32⟩ : BufTy).Contents (Elt F) → (⟨S1x32x1, .f32⟩ : BufTy).Contents (Elt F) → (⟨S1x32x1, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) call1_v8 (constant S_ .f32 0x00000000#32)) ((Host.divf : (⟨S1x32x1, .f32⟩ : BufTy).Contents (Elt F) → (⟨S1x32x1, .f32⟩ : BufTy).Contents (Elt F) → (⟨S1x32x1, .f32⟩ : BufTy).Contents (Elt F)) (((broadcastInDim S1x32x1 ![1] bcast_S32_S1x32x1_1) : (⟨S32, .f32⟩ : BufTy).Contents (Elt F) → (⟨S1x32x1, .f32⟩ : BufTy).Contents (Elt F)) (((fun x v => Host.reduceAdd x v reducesTo_S1024x32x192_S32_d0_2 h_S_) : (⟨S1024x32x192, .f32⟩ : BufTy).Contents (Elt F) → (⟨S_, .f32⟩ : BufTy).Contents (Elt F) → (⟨S32, .f32⟩ : BufTy).Contents (Elt F)) ((mulf : (⟨S1024x32x192, .f32⟩ : BufTy).Contents (Elt F) → (⟨S1024x32x192, .f32⟩ : BufTy).Contents (Elt F) → (⟨S1024x32x192, .f32⟩ : BufTy).Contents (Elt F)) call1_v5 call1_v5) (constant S_ .f32 0x00000000#32))) (((broadcastInDim S1x32x1 ![] bcast_S_S1x32x1) : (⟨S_, .f32⟩ : BufTy).Contents (Elt F) → (⟨S1x32x1, .f32⟩ : BufTy).Contents (Elt F)) call1_v8)) (((broadcastInDim S1x32x1 ![] bcast_S_S1x32x1) : (⟨S_, .f32⟩ : BufTy).Contents (Elt F) → (⟨S1x32x1, .f32⟩ : BufTy).Contents (Elt F)) ((id : (⟨S_, .f32⟩ : BufTy).Contents (Elt F) → (⟨S_, .f32⟩ : BufTy).Contents (Elt F)) (constant S_ .f32 0x7FC00000#32)))) ((broadcastInDim S1x32x1 ![] bcast_S_S1x32x1 : (⟨S_, .f32⟩ : BufTy).Contents (Elt F) → (⟨S1x32x1, .f32⟩ : BufTy).Contents (Elt F)) (constant S_ .f32 0x3727C5AC#32)))))) ((broadcastInDim S1024x32x192 ![0, 1, 2] bcast_S1x32x1_S1024x32x192_0_1_2 : (⟨S1x32x1, .f32⟩ : BufTy).Contents (Elt F) → (⟨S1024x32x192, .f32⟩ : BufTy).Contents (Elt F)) ((broadcastInDim S1x32x1 ![1] bcast_S32_S1x32x1_1 : (⟨S32, .f32⟩ : BufTy).Contents (Elt F) → (⟨S1x32x1, .f32⟩ : BufTy).Contents (Elt F)) g1))) ((broadcastInDim S1024x32x192 ![0, 1, 2] bcast_S1x32x1_S1024x32x192_0_1_2 : (⟨S1x32x1, .f32⟩ : BufTy).Contents (Elt F) → (⟨S1024x32x192, .f32⟩ : BufTy).Contents (Elt F)) ((broadcastInDim S1x32x1 ![1] bcast_S32_S1x32x1_1 : (⟨S32, .f32⟩ : BufTy).Contents (Elt F) → (⟨S1x32x1, .f32⟩ : BufTy).Contents (Elt F)) b1))) shapeCasts_S1024x32x192_S1024x6144) (((transpose S6144x200 [1, 0] · transposes_S200x6144_S6144x200_1_0) : (⟨S200x6144, .f32⟩ : BufTy).Contents (Elt F) → (⟨S6144x200, .f32⟩ : BufTy).Contents (Elt F)) fc_w)) ((broadcastInDim S1024x200 ![0, 1] bcast_S1x200_S1024x200_0_1 : (⟨S1x200, .f32⟩ : BufTy).Contents (Elt F) → (⟨S1024x200, .f32⟩ : BufTy).Contents (Elt F)) ((broadcastInDim S1x200 ![1] bcast_S200_S1x200_1 : (⟨S200, .f32⟩ : BufTy).Contents (Elt F) → (⟨S1x200, .f32⟩ : BufTy).Contents (Elt F)) fc_b))
  let call2_v5 : (⟨S1024x200, .f32⟩ : BufTy).Contents (Elt F) := (subf : (⟨S1024x200, .f32⟩ : BufTy).Contents (Elt F) → (⟨S1024x200, .f32⟩ : BufTy).Contents (Elt F) → (⟨S1024x200, .f32⟩ : BufTy).Contents (Elt F)) v64 (((broadcastInDim S1024x200 ![0, 1] bcast_S1x200_S1024x200_0_1) : (⟨S1x200, .f32⟩ : BufTy).Contents (Elt F) → (⟨S1024x200, .f32⟩ : BufTy).Contents (Elt F)) ((Host.divf : (⟨S1x200, .f32⟩ : BufTy).Contents (Elt F) → (⟨S1x200, .f32⟩ : BufTy).Contents (Elt F) → (⟨S1x200, .f32⟩ : BufTy).Contents (Elt F)) (((broadcastInDim S1x200 ![1] bcast_S200_S1x200_1) : (⟨S200, .f32⟩ : BufTy).Contents (Elt F) → (⟨S1x200, .f32⟩ : BufTy).Contents (Elt F)) (((fun x v => Host.reduceAdd x v reducesTo_S1024x200_S200_d0 h_S_) : (⟨S1024x200, .f32⟩ : BufTy).Contents (Elt F) → (⟨S_, .f32⟩ : BufTy).Contents (Elt F) → (⟨S200, .f32⟩ : BufTy).Contents (Elt F)) v64 (constant S_ .f32 0x00000000#32))) (((broadcastInDim S1x200 ![] bcast_S_S1x200) : (⟨S_, .f32⟩ : BufTy).Contents (Elt F) → (⟨S1x200, .f32⟩ : BufTy).Contents (Elt F)) (constant S_ .f32 0x44800000#32))))
  let call2_v8 : (⟨S_, .f32⟩ : BufTy).Contents (Elt F) := (subf : (⟨S_, .f32⟩ : BufTy).Contents (Elt F) → (⟨S_, .f32⟩ : BufTy).Contents (Elt F) → (⟨S_, .f32⟩ : BufTy).Contents (Elt F)) (constant S_ .f32 0x44800000#32) (((sitofp .f32) : (⟨S_, .i32⟩ : BufTy).Contents (Elt F) → (⟨S_, .f32⟩ : BufTy).Contents (Elt F)) (constantI S_ 32 0#32))
  (maximumf : (⟨S1024x200, .f32⟩ : BufTy).Contents (Elt F) → (⟨S1024x200, .f32⟩ : BufTy).Contents (Elt F) → (⟨S1024x200, .f32⟩ : BufTy).Contents (Elt F)) ((addf : (⟨S1024x200, .f32⟩ : BufTy).Contents (Elt F) → (⟨S1024x200, .f32⟩ : BufTy).Contents (Elt F) → (⟨S1024x200, .f32⟩ : BufTy).Contents (Elt F)) ((mulf : (⟨S1024x200, .f32⟩ : BufTy).Contents (Elt F) → (⟨S1024x200, .f32⟩ : BufTy).Contents (Elt F) → (⟨S1024x200, .f32⟩ : BufTy).Contents (Elt F)) ((mulf : (⟨S1024x200, .f32⟩ : BufTy).Contents (Elt F) → (⟨S1024x200, .f32⟩ : BufTy).Contents (Elt F) → (⟨S1024x200, .f32⟩ : BufTy).Contents (Elt F)) ((subf : (⟨S1024x200, .f32⟩ : BufTy).Contents (Elt F) → (⟨S1024x200, .f32⟩ : BufTy).Contents (Elt F) → (⟨S1024x200, .f32⟩ : BufTy).Contents (Elt F)) v64 ((broadcastInDim S1024x200 ![0, 1] bcast_S1x200_S1024x200_0_1 : (⟨S1x200, .f32⟩ : BufTy).Contents (Elt F) → (⟨S1024x200, .f32⟩ : BufTy).Contents (Elt F)) ((Host.divf : (⟨S1x200, .f32⟩ : BufTy).Contents (Elt F) → (⟨S1x200, .f32⟩ : BufTy).Contents (Elt F) → (⟨S1x200, .f32⟩ : BufTy).Contents (Elt F)) ((broadcastInDim S1x200 ![1] bcast_S200_S1x200_1 : (⟨S200, .f32⟩ : BufTy).Contents (Elt F) → (⟨S1x200, .f32⟩ : BufTy).Contents (Elt F)) (((fun x v => Host.reduceAdd x v reducesTo_S1024x200_S200_d0 h_S_) : (⟨S1024x200, .f32⟩ : BufTy).Contents (Elt F) → (⟨S_, .f32⟩ : BufTy).Contents (Elt F) → (⟨S200, .f32⟩ : BufTy).Contents (Elt F)) v64 (constant S_ .f32 0x00000000#32))) ((broadcastInDim S1x200 ![] bcast_S_S1x200 : (⟨S_, .f32⟩ : BufTy).Contents (Elt F) → (⟨S1x200, .f32⟩ : BufTy).Contents (Elt F)) (constant S_ .f32 0x44800000#32))))) ((broadcastInDim S1024x200 ![0, 1] bcast_S1x200_S1024x200_0_1 : (⟨S1x200, .f32⟩ : BufTy).Contents (Elt F) → (⟨S1024x200, .f32⟩ : BufTy).Contents (Elt F)) ((Host.rsqrt : (⟨S1x200, .f32⟩ : BufTy).Contents (Elt F) → (⟨S1x200, .f32⟩ : BufTy).Contents (Elt F)) ((addf : (⟨S1x200, .f32⟩ : BufTy).Contents (Elt F) → (⟨S1x200, .f32⟩ : BufTy).Contents (Elt F) → (⟨S1x200, .f32⟩ : BufTy).Contents (Elt F)) (((fun p a b => select (broadcastInDim S1x200 ![] bcast_S_S1x200 p) a b) : (⟨S_, .i1⟩ : BufTy).Contents (Elt F) → (⟨S1x200, .f32⟩ : BufTy).Contents (Elt F) → (⟨S1x200, .f32⟩ : BufTy).Contents (Elt F) → (⟨S1x200, .f32⟩ : BufTy).Contents (Elt F)) (((cmpf .ogt) : (⟨S_, .f32⟩ : BufTy).Contents (Elt F) → (⟨S_, .f32⟩ : BufTy).Contents (Elt F) → (⟨S_, .i1⟩ : BufTy).Contents (Elt F)) call2_v8 (constant S_ .f32 0x00000000#32)) ((Host.divf : (⟨S1x200, .f32⟩ : BufTy).Contents (Elt F) → (⟨S1x200, .f32⟩ : BufTy).Contents (Elt F) → (⟨S1x200, .f32⟩ : BufTy).Contents (Elt F)) (((broadcastInDim S1x200 ![1] bcast_S200_S1x200_1) : (⟨S200, .f32⟩ : BufTy).Contents (Elt F) → (⟨S1x200, .f32⟩ : BufTy).Contents (Elt F)) (((fun x v => Host.reduceAdd x v reducesTo_S1024x200_S200_d0 h_S_) : (⟨S1024x200, .f32⟩ : BufTy).Contents (Elt F) → (⟨S_, .f32⟩ : BufTy).Contents (Elt F) → (⟨S200, .f32⟩ : BufTy).Contents (Elt F)) ((mulf : (⟨S1024x200, .f32⟩ : BufTy).Contents (Elt F) → (⟨S1024x200, .f32⟩ : BufTy).Contents (Elt F) → (⟨S1024x200, .f32⟩ : BufTy).Contents (Elt F)) call2_v5 call2_v5) (constant S_ .f32 0x00000000#32))) (((broadcastInDim S1x200 ![] bcast_S_S1x200) : (⟨S_, .f32⟩ : BufTy).Contents (Elt F) → (⟨S1x200, .f32⟩ : BufTy).Contents (Elt F)) call2_v8)) (((broadcastInDim S1x200 ![] bcast_S_S1x200) : (⟨S_, .f32⟩ : BufTy).Contents (Elt F) → (⟨S1x200, .f32⟩ : BufTy).Contents (Elt F)) ((id : (⟨S_, .f32⟩ : BufTy).Contents (Elt F) → (⟨S_, .f32⟩ : BufTy).Contents (Elt F)) (constant S_ .f32 0x7FC00000#32)))) ((broadcastInDim S1x200 ![] bcast_S_S1x200 : (⟨S_, .f32⟩ : BufTy).Contents (Elt F) → (⟨S1x200, .f32⟩ : BufTy).Contents (Elt F)) (constant S_ .f32 0x3727C5AC#32)))))) ((broadcastInDim S1024x200 ![0, 1] bcast_S1x200_S1024x200_0_1 : (⟨S1x200, .f32⟩ : BufTy).Contents (Elt F) → (⟨S1024x200, .f32⟩ : BufTy).Contents (Elt F)) ((broadcastInDim S1x200 ![1] bcast_S200_S1x200_1 : (⟨S200, .f32⟩ : BufTy).Contents (Elt F) → (⟨S1x200, .f32⟩ : BufTy).Contents (Elt F)) g2))) ((broadcastInDim S1024x200 ![0, 1] bcast_S1x200_S1024x200_0_1 : (⟨S1x200, .f32⟩ : BufTy).Contents (Elt F) → (⟨S1024x200, .f32⟩ : BufTy).Contents (Elt F)) ((broadcastInDim S1x200 ![1] bcast_S200_S1x200_1 : (⟨S200, .f32⟩ : BufTy).Contents (Elt F) → (⟨S1x200, .f32⟩ : BufTy).Contents (Elt F)) b2))) (((broadcastInDim S1024x200 ![] bcast_S_S1024x200) : (⟨S_, .f32⟩ : BufTy).Contents (Elt F) → (⟨S1024x200, .f32⟩ : BufTy).Contents (Elt F)) (constant S_ .f32 0x00000000#32))

/-- The result as a function of the relu output, the entity table and the bias. -/
def finR (y : FVec F S1024x200 .f32) (E : FVec F S100000x200 .f32) (b : FVec F S100000 .f32) :
    FVec F S1024x100000 .f32 :=
  (Host.divf : (⟨S1024x100000, .f32⟩ : BufTy).Contents (Elt F) → (⟨S1024x100000, .f32⟩ : BufTy).Contents (Elt F) → (⟨S1024x100000, .f32⟩ : BufTy).Contents (Elt F)) ((broadcastInDim S1024x100000 ![] bcast_S_S1024x100000 : (⟨S_, .f32⟩ : BufTy).Contents (Elt F) → (⟨S1024x100000, .f32⟩ : BufTy).Contents (Elt F)) (constant S_ .f32 0x3F800000#32)) ((addf : (⟨S1024x100000, .f32⟩ : BufTy).Contents (Elt F) → (⟨S1024x100000, .f32⟩ : BufTy).Contents (Elt F) → (⟨S1024x100000, .f32⟩ : BufTy).Contents (Elt F)) ((broadcastInDim S1024x100000 ![] bcast_S_S1024x100000 : (⟨S_, .f32⟩ : BufTy).Contents (Elt F) → (⟨S1024x100000, .f32⟩ : BufTy).Contents (Elt F)) (constant S_ .f32 0x3F800000#32)) ((Host.exp : (⟨S1024x100000, .f32⟩ : BufTy).Contents (Elt F) → (⟨S1024x100000, .f32⟩ : BufTy).Contents (Elt F)) ((Host.negf : (⟨S1024x100000, .f32⟩ : BufTy).Contents (Elt F) → (⟨S1024x100000, .f32⟩ : BufTy).Contents (Elt F)) ((addf : (⟨S1024x100000, .f32⟩ : BufTy).Contents (Elt F) → (⟨S1024x100000, .f32⟩ : BufTy).Contents (Elt F) → (⟨S1024x100000, .f32⟩ : BufTy).Contents (Elt F)) (((fun l r => Host.dotGeneral dot_S1024x200_S200x100000_S1024x100000_1_0_0_1_n_n none l r) : (⟨S1024x200, .f32⟩ : BufTy).Contents (Elt F) → (⟨S200x100000, .f32⟩ : BufTy).Contents (Elt F) → (⟨S1024x100000, .f32⟩ : BufTy).Contents (Elt F)) y (((transpose S200x100000 [1, 0] · transposes_S100000x200_S200x100000_1_0) : (⟨S100000x200, .f32⟩ : BufTy).Contents (Elt F) → (⟨S200x100000, .f32⟩ : BufTy).Contents (Elt F)) E)) ((broadcastInDim S1024x100000 ![0, 1] bcast_S1x100000_S1024x100000_0_1 : (⟨S1x100000, .f32⟩ : BufTy).Contents (Elt F) → (⟨S1024x100000, .f32⟩ : BufTy).Contents (Elt F)) ((broadcastInDim S1x100000 ![1] bcast_S100000_S1x100000_1 : (⟨S100000, .f32⟩ : BufTy).Contents (Elt F) → (⟨S1x100000, .f32⟩ : BufTy).Contents (Elt F)) b))))))

end Cert.ReferenceIdeal.RefRun

end
-- ==== Proof.RefOpsA.lean ====
/-
  The reference program's first stretch as a list of operations: the operand viewed as [1024,1,200], the first batch
  normalisation (its variance an outlined function), the view back as [1024,200].
-/
import proofs.«161430_j19885698580525_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 10 of the straight line (@main's own operations). -/
abbrev opsA0 : List (HloOp τ sig (Elt F)) :=
  [ StableHlo.unary main_arg0 main_v0 (broadcastInDim S1024x1x200 ![0, 2] bcast_S1024x200_S1024x1x200_0_2 : (⟨S1024x200, .f32⟩ : BufTy).Contents (Elt F) → (⟨S1024x1x200, .f32⟩ : BufTy).Contents (Elt F)),
    StableHlo.unary main_arg8 main_v1 (broadcastInDim S1x1x1 ![1] bcast_S1_S1x1x1_1 : (⟨S1, .f32⟩ : BufTy).Contents (Elt F) → (⟨S1x1x1, .f32⟩ : BufTy).Contents (Elt F)),
    StableHlo.unary main_arg9 main_v2 (broadcastInDim S1x1x1 ![1] bcast_S1_S1x1x1_1 : (⟨S1, .f32⟩ : BufTy).Contents (Elt F) → (⟨S1x1x1, .f32⟩ : BufTy).Contents (Elt F)),
    StableHlo.nullary main_cst (constant S_ .f32 0x00000000#32),
    StableHlo.binary main_v0 main_cst main_v3 ((fun x v => Host.reduceAdd x v reducesTo_S1024x1x200_S1_d0_2 h_S_) : (⟨S1024x1x200, .f32⟩ : BufTy).Contents (Elt F) → (⟨S_, .f32⟩ : BufTy).Contents (Elt F) → (⟨S1, .f32⟩ : BufTy).Contents (Elt F)),
    StableHlo.unary main_v3 main_v4 (broadcastInDim S1x1x1 ![1] bcast_S1_S1x1x1_1 : (⟨S1, .f32⟩ : BufTy).Contents (Elt F) → (⟨S1x1x1, .f32⟩ : BufTy).Contents (Elt F)),
    StableHlo.nullary main_cst_0 (constant S_ .f32 0x48480000#32),
    StableHlo.unary main_cst_0 main_v5 (broadcastInDim S1x1x1 ![] bcast_S_S1x1x1 : (⟨S_, .f32⟩ : BufTy).Contents (Elt F) → (⟨S1x1x1, .f32⟩ : BufTy).Contents (Elt F)),
    StableHlo.binary main_v4 main_v5 main_v6 (Host.divf : (⟨S1x1x1, .f32⟩ : BufTy).Contents (Elt F) → (⟨S1x1x1, .f32⟩ : BufTy).Contents (Elt F) → (⟨S1x1x1, .f32⟩ : BufTy).Contents (Elt F)),
    StableHlo.nullary main_c (constantI S_ 32 0#32) ]
theorem opsA0_sub : (opsA0 : List (HloOp τ sig (Elt F))).Forall fun op => op.bufs ⊆ tcRefs τ sig :=
  ⟨unary_bufs_sub .., unary_bufs_sub .., unary_bufs_sub .., nullary_bufs_sub .., binary_bufs_sub .., unary_bufs_sub .., nullary_bufs_sub .., unary_bufs_sub .., binary_bufs_sub .., nullary_bufs_sub ..⟩
theorem opsA0_fresh : (opsA0 : List (HloOp τ sig (Elt F))).Forall fun op => op.fresh = ∅ := by
  simp only [List.Forall]; repeat' constructor
/-- The buffers those operations write. -/
abbrev opsA0_W : List (Ref sig .tc) := [main_v0, main_v1, main_v2, main_cst, main_v3, main_v4, main_cst_0, main_v5, main_v6, main_c]
theorem opsA0_writes : (opsA0 : List (HloOp τ sig (Elt F))).Forall fun op => op.writes ⊆ (opsA0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 11 … 33 of the straight line (an outlined function's operations, at the call's buffers). -/
abbrev opsA1 : List (HloOp τ sig (Elt F)) :=
  [ StableHlo.TRef.nullary (.of main_call0_cst : StableHlo.TRef sig ⟨S_, .f32⟩) (constant S_ .f32 0x00000000#32),
    StableHlo.TRef.binary (.of main_v0 : StableHlo.TRef sig ⟨S1024x1x200, .f32⟩) (.of main_call0_cst : StableHlo.TRef sig ⟨S_, .f32⟩) (.of main_call0_v0 : StableHlo.TRef sig ⟨S1, .f32⟩) (fun x v => Host.reduceAdd x v reducesTo_S1024x1x200_S1_d0_2 h_S_),
    StableHlo.TRef.unary (.of main_call0_v0 : StableHlo.TRef sig ⟨S1, .f32⟩) (.of main_call0_v1 : StableHlo.TRef sig ⟨S1x1x1, .f32⟩) (broadcastInDim S1x1x1 ![1] bcast_S1_S1x1x1_1),
    StableHlo.TRef.nullary (.of main_call0_cst_0 : StableHlo.TRef sig ⟨S_, .f32⟩) (constant S_ .f32 0x48480000#32),
    StableHlo.TRef.unary (.of main_call0_cst_0 : StableHlo.TRef sig ⟨S_, .f32⟩) (.of main_call0_v2 : StableHlo.TRef sig ⟨S1x1x1, .f32⟩) (broadcastInDim S1x1x1 ![] bcast_S_S1x1x1),
    StableHlo.TRef.binary (.of main_call0_v1 : StableHlo.TRef sig ⟨S1x1x1, .f32⟩) (.of main_call0_v2 : StableHlo.TRef sig ⟨S1x1x1, .f32⟩) (.of main_call0_v3 : StableHlo.TRef sig ⟨S1x1x1, .f32⟩) Host.divf,
    StableHlo.TRef.unary (.of main_call0_v3 : StableHlo.TRef sig ⟨S1x1x1, .f32⟩) (.of main_call0_v4 : StableHlo.TRef sig ⟨S1024x1x200, .f32⟩) (broadcastInDim S1024x1x200 ![0, 1, 2] bcast_S1x1x1_S1024x1x200_0_1_2),
    StableHlo.TRef.binary (.of main_v0 : StableHlo.TRef sig ⟨S1024x1x200, .f32⟩) (.of main_call0_v4 : StableHlo.TRef sig ⟨S1024x1x200, .f32⟩) (.of main_call0_v5 : StableHlo.TRef sig ⟨S1024x1x200, .f32⟩) subf,
    StableHlo.TRef.binary (.of main_call0_v5 : StableHlo.TRef sig ⟨S1024x1x200, .f32⟩) (.of main_call0_v5 : StableHlo.TRef sig ⟨S1024x1x200, .f32⟩) (.of main_call0_v6 : StableHlo.TRef sig ⟨S1024x1x200, .f32⟩) mulf,
    StableHlo.TRef.unary (.of main_c : StableHlo.TRef sig ⟨S_, .i32⟩) (.of main_call0_v7 : StableHlo.TRef sig ⟨S_, .f32⟩) (sitofp .f32),
    StableHlo.TRef.nullary (.of main_call0_cst_1 : StableHlo.TRef sig ⟨S_, .f32⟩) (constant S_ .f32 0x48480000#32),
    StableHlo.TRef.binary (.of main_call0_cst_1 : StableHlo.TRef sig ⟨S_, .f32⟩) (.of main_call0_v7 : StableHlo.TRef sig ⟨S_, .f32⟩) (.of main_call0_v8 : StableHlo.TRef sig ⟨S_, .f32⟩) subf,
    StableHlo.TRef.nullary (.of main_call0_cst_2 : StableHlo.TRef sig ⟨S_, .f32⟩) (constant S_ .f32 0x00000000#32),
    StableHlo.TRef.binary (.of main_call0_v6 : StableHlo.TRef sig ⟨S1024x1x200, .f32⟩) (.of main_call0_cst_2 : StableHlo.TRef sig ⟨S_, .f32⟩) (.of main_call0_v9 : StableHlo.TRef sig ⟨S1, .f32⟩) (fun x v => Host.reduceAdd x v reducesTo_S1024x1x200_S1_d0_2 h_S_),
    StableHlo.TRef.unary (.of main_call0_v9 : StableHlo.TRef sig ⟨S1, .f32⟩) (.of main_call0_v10 : StableHlo.TRef sig ⟨S1x1x1, .f32⟩) (broadcastInDim S1x1x1 ![1] bcast_S1_S1x1x1_1),
    StableHlo.TRef.unary (.of main_call0_v8 : StableHlo.TRef sig ⟨S_, .f32⟩) (.of main_call0_v11 : StableHlo.TRef sig ⟨S1x1x1, .f32⟩) (broadcastInDim S1x1x1 ![] bcast_S_S1x1x1),
    StableHlo.TRef.binary (.of main_call0_v10 : StableHlo.TRef sig ⟨S1x1x1, .f32⟩) (.of main_call0_v11 : StableHlo.TRef sig ⟨S1x1x1, .f32⟩) (.of main_call0_v12 : StableHlo.TRef sig ⟨S1x1x1, .f32⟩) Host.divf,
    StableHlo.TRef.nullary (.of main_call0_cst_3 : StableHlo.TRef sig ⟨S_, .f32⟩) (constant S_ .f32 0x00000000#32),
    StableHlo.TRef.binary (.of main_call0_v8 : StableHlo.TRef sig ⟨S_, .f32⟩) (.of main_call0_cst_3 : StableHlo.TRef sig ⟨S_, .f32⟩) (.of main_call0_v13 : StableHlo.TRef sig ⟨S_, .i1⟩) (cmpf .ogt),
    StableHlo.TRef.nullary (.of main_call0_cst_4 : StableHlo.TRef sig ⟨S_, .f32⟩) (constant S_ .f32 0x7FC00000#32),
    StableHlo.TRef.unary (.of main_call0_cst_4 : StableHlo.TRef sig ⟨S_, .f32⟩) (.of main_call0_call0_v0 : StableHlo.TRef sig ⟨S_, .f32⟩) id,
    StableHlo.TRef.unary (.of main_call0_call0_v0 : StableHlo.TRef sig ⟨S_, .f32⟩) (.of main_call0_call0_v1 : StableHlo.TRef sig ⟨S1x1x1, .f32⟩) (broadcastInDim S1x1x1 ![] bcast_S_S1x1x1),
    StableHlo.TRef.ternary (.of main_call0_v13 : StableHlo.TRef sig ⟨S_, .i1⟩) (.of main_call0_v12 : StableHlo.TRef sig ⟨S1x1x1, .f32⟩) (.of main_call0_call0_v1 : StableHlo.TRef sig ⟨S1x1x1, .f32⟩) (.of main_v7 : StableHlo.TRef sig ⟨S1x1x1, .f32⟩) (fun p a b => select (broadcastInDim S1x1x1 ![] bcast_S_S1x1x1 p) a b) ]
theorem opsA1_sub : (opsA1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsA1_fresh : (opsA1 : List (HloOp τ sig (Elt F))).Forall fun op => op.fresh = ∅ := by
  simp only [List.Forall]; repeat' constructor
/-- The buffers those operations write. -/
abbrev opsA1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v7]
theorem opsA1_writes : (opsA1 : List (HloOp τ sig (Elt F))).Forall fun op => op.writes ⊆ (opsA1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 34 … 46 of the straight line (@main's own operations). -/
abbrev opsA2 : List (HloOp τ sig (Elt F)) :=
  [ StableHlo.unary main_v6 main_v8 (broadcastInDim S1024x1x200 ![0, 1, 2] bcast_S1x1x1_S1024x1x200_0_1_2 : (⟨S1x1x1, .f32⟩ : BufTy).Contents (Elt F) → (⟨S1024x1x200, .f32⟩ : BufTy).Contents (Elt F)),
    StableHlo.binary main_v0 main_v8 main_v9 (subf : (⟨S1024x1x200, .f32⟩ : BufTy).Contents (Elt F) → (⟨S1024x1x200, .f32⟩ : BufTy).Contents (Elt F) → (⟨S1024x1x200, .f32⟩ : BufTy).Contents (Elt F)),
    StableHlo.nullary main_cst_1 (constant S_ .f32 0x3727C5AC#32),
    StableHlo.unary main_cst_1 main_v10 (broadcastInDim S1x1x1 ![] bcast_S_S1x1x1 : (⟨S_, .f32⟩ : BufTy).Contents (Elt F) → (⟨S1x1x1, .f32⟩ : BufTy).Contents (Elt F)),
    StableHlo.binary main_v7 main_v10 main_v11 (addf : (⟨S1x1x1, .f32⟩ : BufTy).Contents (Elt F) → (⟨S1x1x1, .f32⟩ : BufTy).Contents (Elt F) → (⟨S1x1x1, .f32⟩ : BufTy).Contents (Elt F)),
    StableHlo.unary main_v11 main_v12 (Host.rsqrt : (⟨S1x1x1, .f32⟩ : BufTy).Contents (Elt F) → (⟨S1x1x1, .f32⟩ : BufTy).Contents (Elt F)),
    StableHlo.unary main_v12 main_v13 (broadcastInDim S1024x1x200 ![0, 1, 2] bcast_S1x1x1_S1024x1x200_0_1_2 : (⟨S1x1x1, .f32⟩ : BufTy).Contents (Elt F) → (⟨S1024x1x200, .f32⟩ : BufTy).Contents (Elt F)),
    StableHlo.binary main_v9 main_v13 main_v14 (mulf : (⟨S1024x1x200, .f32⟩ : BufTy).Contents (Elt F) → (⟨S1024x1x200, .f32⟩ : BufTy).Contents (Elt F) → (⟨S1024x1x200, .f32⟩ : BufTy).Contents (Elt F)),
    StableHlo.unary main_v1 main_v15 (broadcastInDim S1024x1x200 ![0, 1, 2] bcast_S1x1x1_S1024x1x200_0_1_2 : (⟨S1x1x1, .f32⟩ : BufTy).Contents (Elt F) → (⟨S1024x1x200, .f32⟩ : BufTy).Contents (Elt F)),
    StableHlo.binary main_v14 main_v15 main_v16 (mulf : (⟨S1024x1x200, .f32⟩ : BufTy).Contents (Elt F) → (⟨S1024x1x200, .f32⟩ : BufTy).Contents (Elt F) → (⟨S1024x1x200, .f32⟩ : BufTy).Contents (Elt F)),
    StableHlo.unary main_v2 main_v17 (broadcastInDim S1024x1x200 ![0, 1, 2] bcast_S1x1x1_S1024x1x200_0_1_2 : (⟨S1x1x1, .f32⟩ : BufTy).Contents (Elt F) → (⟨S1024x1x200, .f32⟩ : BufTy).Contents (Elt F)),
    StableHlo.binary main_v16 main_v17 main_v18 (addf : (⟨S1024x1x200, .f32⟩ : BufTy).Contents (Elt F) → (⟨S1024x1x200, .f32⟩ : BufTy).Contents (Elt F) → (⟨S1024x1x200, .f32⟩ : BufTy).Contents (Elt F)),
    StableHlo.reshape main_v18 main_v19 rfl shapeCasts_S1024x1x200_S1024x200 ]
theorem opsA2_sub : (opsA2 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub .., reshape_bufs_sub ..⟩
theorem opsA2_fresh : (opsA2 : List (HloOp τ sig (Elt F))).Forall fun op => op.fresh = ∅ := by
  simp only [List.Forall]; repeat' constructor
/-- The buffers those operations write. -/
abbrev opsA2_W : List (Ref sig .tc) := [main_v8, main_v9, main_cst_1, main_v10, main_v11, main_v12, main_v13, main_v14, main_v15, main_v16, main_v17, main_v18, main_v19]
theorem opsA2_writes : (opsA2 : List (HloOp τ sig (Elt F))).Forall fun op => op.writes ⊆ (opsA2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The stage's operations, in order. -/
abbrev opsA : List (HloOp τ sig (Elt F)) := opsA0 ++ opsA1 ++ opsA2

set_option maxRecDepth 16384 in
set_option maxHeartbeats 4000000 in
/-- The stage's result buffer after its operations, from any contents V of the buffers: the fold unrolled, each
    operation's result read at its own buffer and passed over at every other, what is left is the composed term. -/
theorem stageA (V : Valuation τ sig (Elt F)) :
    after opsA V (Proc.devRef .tc main_v19) = xR (V (Proc.devRef .tc main_arg0)) (V (Proc.devRef .tc main_arg8)) (V (Proc.devRef .tc main_arg9)) := by
  simp only [opsA, opsA0, opsA1, opsA2, List.cons_append, List.nil_append]
  after_results_simp
  unfold xR
  rfl

end Cert.ReferenceIdeal.RefRun

end
-- ==== Proof.RefOpsB.lean ====
/-
  The reference program's middle stretch as lists of operations: first linear layer, gather and batched product,
  second batch normalisation, second linear layer, third batch normalisation, relu.
-/
import proofs.«161430_j19885698580525_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 47 … 78 of the straight line (@main's own operations). -/
abbrev opsB0 : List (HloOp τ sig (Elt F)) :=
  [ StableHlo.unary main_arg2 main_v20 ((transpose S200x288 [1, 0] · transposes_S288x200_S200x288_1_0) : (⟨S288x200, .f32⟩ : BufTy).Contents (Elt F) → (⟨S200x288, .f32⟩ : BufTy).Contents (Elt F)),
    StableHlo.binary main_arg1 main_v20 main_v21 ((fun l r => Host.dotGeneral dot_S1024x200_S200x288_S1024x288_1_0_0_1_n_n none l r) : (⟨S1024x200, .f32⟩ : BufTy).Contents (Elt F) → (⟨S200x288, .f32⟩ : BufTy).Contents (Elt F) → (⟨S1024x288, .f32⟩ : BufTy).Contents (Elt F)),
    StableHlo.unary main_arg3 main_v22 (broadcastInDim S1x288 ![1] bcast_S288_S1x288_1 : (⟨S288, .f32⟩ : BufTy).Contents (Elt F) → (⟨S1x288, .f32⟩ : BufTy).Contents (Elt F)),
    StableHlo.unary main_v22 main_v23 (broadcastInDim S1024x288 ![0, 1] bcast_S1x288_S1024x288_0_1 : (⟨S1x288, .f32⟩ : BufTy).Contents (Elt F) → (⟨S1024x288, .f32⟩ : BufTy).Contents (Elt F)),
    StableHlo.binary main_v21 main_v23 main_v24 (addf : (⟨S1024x288, .f32⟩ : BufTy).Contents (Elt F) → (⟨S1024x288, .f32⟩ : BufTy).Contents (Elt F) → (⟨S1024x288, .f32⟩ : BufTy).Contents (Elt F)),
    StableHlo.reshape main_v24 main_v25 rfl shapeCasts_S1024x288_S1024x32x9,
    StableHlo.nullary main_v26 (iotaInDim S192 32 0),
    StableHlo.unary main_v26 main_v27 (broadcastInDim S192x1 ![0] bcast_S192_S192x1_0 : (⟨S192, .i32⟩ : BufTy).Contents (Elt F) → (⟨S192x1, .i32⟩ : BufTy).Contents (Elt F)),
    StableHlo.nullary main_v28 (iotaInDim S9 32 0),
    StableHlo.unary main_v28 main_v29 (broadcastInDim S1x9 ![1] bcast_S9_S1x9_1 : (⟨S9, .i32⟩ : BufTy).Contents (Elt F) → (⟨S1x9, .i32⟩ : BufTy).Contents (Elt F)),
    StableHlo.unary main_v27 main_v30 (broadcastInDim S192x9 ![0, 1] bcast_S192x1_S192x9_0_1 : (⟨S192x1, .i32⟩ : BufTy).Contents (Elt F) → (⟨S192x9, .i32⟩ : BufTy).Contents (Elt F)),
    StableHlo.unary main_v29 main_v31 (broadcastInDim S192x9 ![0, 1] bcast_S1x9_S192x9_0_1 : (⟨S1x9, .i32⟩ : BufTy).Contents (Elt F) → (⟨S192x9, .i32⟩ : BufTy).Contents (Elt F)),
    StableHlo.binary main_v30 main_v31 main_v32 (addi : (⟨S192x9, .i32⟩ : BufTy).Contents (Elt F) → (⟨S192x9, .i32⟩ : BufTy).Contents (Elt F) → (⟨S192x9, .i32⟩ : BufTy).Contents (Elt F)),
    StableHlo.nullary main_c_2 (constantI S_ 32 0#32),
    StableHlo.unary main_c_2 main_v33 (broadcastInDim S192x9 ![] bcast_S_S192x9 : (⟨S_, .i32⟩ : BufTy).Contents (Elt F) → (⟨S192x9, .i32⟩ : BufTy).Contents (Elt F)),
    StableHlo.binary main_v32 main_v33 main_v34 (cmpi .slt : (⟨S192x9, .i32⟩ : BufTy).Contents (Elt F) → (⟨S192x9, .i32⟩ : BufTy).Contents (Elt F) → (⟨S192x9, .i1⟩ : BufTy).Contents (Elt F)),
    StableHlo.nullary main_c_3 (constantI S_ 32 200#32),
    StableHlo.unary main_c_3 main_v35 (broadcastInDim S192x9 ![] bcast_S_S192x9 : (⟨S_, .i32⟩ : BufTy).Contents (Elt F) → (⟨S192x9, .i32⟩ : BufTy).Contents (Elt F)),
    StableHlo.binary main_v32 main_v35 main_v36 (addi : (⟨S192x9, .i32⟩ : BufTy).Contents (Elt F) → (⟨S192x9, .i32⟩ : BufTy).Contents (Elt F) → (⟨S192x9, .i32⟩ : BufTy).Contents (Elt F)),
    StableHlo.ternary main_v34 main_v36 main_v32 main_v37 (select : (⟨S192x9, .i1⟩ : BufTy).Contents (Elt F) → (⟨S192x9, .i32⟩ : BufTy).Contents (Elt F) → (⟨S192x9, .i32⟩ : BufTy).Contents (Elt F) → (⟨S192x9, .i32⟩ : BufTy).Contents (Elt F)),
    StableHlo.unary main_v37 main_v38 (broadcastInDim S192x9x1 ![0, 1] bcast_S192x9_S192x9x1_0_1 : (⟨S192x9, .i32⟩ : BufTy).Contents (Elt F) → (⟨S192x9x1, .i32⟩ : BufTy).Contents (Elt F)),
    StableHlo.binary main_v19 main_v38 main_v39 ((fun x i => Host.gather gather_S1024x200_S192x9x1_S1024x192x9_0_1_n_n_1_2_10241 x i) : (⟨S1024x200, .f32⟩ : BufTy).Contents (Elt F) → (⟨S192x9x1, .i32⟩ : BufTy).Contents (Elt F) → (⟨S1024x192x9, .f32⟩ : BufTy).Contents (Elt F)),
    StableHlo.binary main_v25 main_v39 main_v40 ((fun l r => Host.dotGeneral dot_S1024x32x9_S1024x192x9_S1024x32x192_2_2_1_1_0_0 none l r) : (⟨S1024x32x9, .f32⟩ : BufTy).Contents (Elt F) → (⟨S1024x192x9, .f32⟩ : BufTy).Contents (Elt F) → (⟨S1024x32x192, .f32⟩ : BufTy).Contents (Elt F)),
    StableHlo.unary main_arg10 main_v41 (broadcastInDim S1x32x1 ![1] bcast_S32_S1x32x1_1 : (⟨S32, .f32⟩ : BufTy).Contents (Elt F) → (⟨S1x32x1, .f32⟩ : BufTy).Contents (Elt F)),
    StableHlo.unary main_arg11 main_v42 (broadcastInDim S1x32x1 ![1] bcast_S32_S1x32x1_1 : (⟨S32, .f32⟩ : BufTy).Contents (Elt F) → (⟨S1x32x1, .f32⟩ : BufTy).Contents (Elt F)),
    StableHlo.nullary main_cst_4 (constant S_ .f32 0x00000000#32),
    StableHlo.binary main_v40 main_cst_4 main_v43 ((fun x v => Host.reduceAdd x v reducesTo_S1024x32x192_S32_d0_2 h_S_) : (⟨S1024x32x192, .f32⟩ : BufTy).Contents (Elt F) → (⟨S_, .f32⟩ : BufTy).Contents (Elt F) → (⟨S32, .f32⟩ : BufTy).Contents (Elt F)),
    StableHlo.unary main_v43 main_v44 (broadcastInDim S1x32x1 ![1] bcast_S32_S1x32x1_1 : (⟨S32, .f32⟩ : BufTy).Contents (Elt F) → (⟨S1x32x1, .f32⟩ : BufTy).Contents (Elt F)),
    StableHlo.nullary main_cst_5 (constant S_ .f32 0x48400000#32),
    StableHlo.unary main_cst_5 main_v45 (broadcastInDim S1x32x1 ![] bcast_S_S1x32x1 : (⟨S_, .f32⟩ : BufTy).Contents (Elt F) → (⟨S1x32x1, .f32⟩ : BufTy).Contents (Elt F)),
    StableHlo.binary main_v44 main_v45 main_v46 (Host.divf : (⟨S1x32x1, .f32⟩ : BufTy).Contents (Elt F) → (⟨S1x32x1, .f32⟩ : BufTy).Contents (Elt F) → (⟨S1x32x1, .f32⟩ : BufTy).Contents (Elt F)),
    StableHlo.nullary main_c_6 (constantI S_ 32 0#32) ]
theorem opsB0_sub : (opsB0 : List (HloOp τ sig (Elt F))).Forall fun op => op.bufs ⊆ tcRefs τ sig :=
  ⟨unary_bufs_sub .., binary_bufs_sub .., unary_bufs_sub .., unary_bufs_sub .., binary_bufs_sub .., reshape_bufs_sub .., nullary_bufs_sub .., unary_bufs_sub .., nullary_bufs_sub .., unary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., unary_bufs_sub .., nullary_bufs_sub .., binary_bufs_sub .., unary_bufs_sub .., nullary_bufs_sub .., unary_bufs_sub .., binary_bufs_sub .., nullary_bufs_sub ..⟩
theorem opsB0_fresh : (opsB0 : List (HloOp τ sig (Elt F))).Forall fun op => op.fresh = ∅ := by
  simp only [List.Forall]; repeat' constructor
/-- The buffers those operations write. -/
abbrev opsB0_W : List (Ref sig .tc) := [main_v20, main_v21, main_v22, main_v23, main_v24, main_v25, main_v26, main_v27, main_v28, main_v29, main_v30, main_v31, main_v32, main_c_2, main_v33, main_v34, main_c_3, main_v35, main_v36, main_v37, main_v38, main_v39, main_v40, main_v41, main_v42, main_cst_4, main_v43, main_v44, main_cst_5, main_v45, main_v46, main_c_6]
theorem opsB0_writes : (opsB0 : List (HloOp τ sig (Elt F))).Forall fun op => op.writes ⊆ (opsB0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 79 … 101 of the straight line (an outlined function's operations, at the call's buffers). -/
abbrev opsB1 : List (HloOp τ sig (Elt F)) :=
  [ StableHlo.TRef.nullary (.of main_call1_cst : StableHlo.TRef sig ⟨S_, .f32⟩) (constant S_ .f32 0x00000000#32),
    StableHlo.TRef.binary (.of main_v40 : StableHlo.TRef sig ⟨S1024x32x192, .f32⟩) (.of main_call1_cst : StableHlo.TRef sig ⟨S_, .f32⟩) (.of main_call1_v0 : StableHlo.TRef sig ⟨S32, .f32⟩) (fun x v => Host.reduceAdd x v reducesTo_S1024x32x192_S32_d0_2 h_S_),
    StableHlo.TRef.unary (.of main_call1_v0 : StableHlo.TRef sig ⟨S32, .f32⟩) (.of main_call1_v1 : StableHlo.TRef sig ⟨S1x32x1, .f32⟩) (broadcastInDim S1x32x1 ![1] bcast_S32_S1x32x1_1),
    StableHlo.TRef.nullary (.of main_call1_cst_0 : StableHlo.TRef sig ⟨S_, .f32⟩) (constant S_ .f32 0x48400000#32),
    StableHlo.TRef.unary (.of main_call1_cst_0 : StableHlo.TRef sig ⟨S_, .f32⟩) (.of main_call1_v2 : StableHlo.TRef sig ⟨S1x32x1, .f32⟩) (broadcastInDim S1x32x1 ![] bcast_S_S1x32x1),
    StableHlo.TRef.binary (.of main_call1_v1 : StableHlo.TRef sig ⟨S1x32x1, .f32⟩) (.of main_call1_v2 : StableHlo.TRef sig ⟨S1x32x1, .f32⟩) (.of main_call1_v3 : StableHlo.TRef sig ⟨S1x32x1, .f32⟩) Host.divf,
    StableHlo.TRef.unary (.of main_call1_v3 : StableHlo.TRef sig ⟨S1x32x1, .f32⟩) (.of main_call1_v4 : StableHlo.TRef sig ⟨S1024x32x192, .f32⟩) (broadcastInDim S1024x32x192 ![0, 1, 2] bcast_S1x32x1_S1024x32x192_0_1_2),
    StableHlo.TRef.binary (.of main_v40 : StableHlo.TRef sig ⟨S1024x32x192, .f32⟩) (.of main_call1_v4 : StableHlo.TRef sig ⟨S1024x32x192, .f32⟩) (.of main_call1_v5 : StableHlo.TRef sig ⟨S1024x32x192, .f32⟩) subf,
    StableHlo.TRef.binary (.of main_call1_v5 : StableHlo.TRef sig ⟨S1024x32x192, .f32⟩) (.of main_call1_v5 : StableHlo.TRef sig ⟨S1024x32x192, .f32⟩) (.of main_call1_v6 : StableHlo.TRef sig ⟨S1024x32x192, .f32⟩) mulf,
    StableHlo.TRef.unary (.of main_c_6 : StableHlo.TRef sig ⟨S_, .i32⟩) (.of main_call1_v7 : StableHlo.TRef sig ⟨S_, .f32⟩) (sitofp .f32),
    StableHlo.TRef.nullary (.of main_call1_cst_1 : StableHlo.TRef sig ⟨S_, .f32⟩) (constant S_ .f32 0x48400000#32),
    StableHlo.TRef.binary (.of main_call1_cst_1 : StableHlo.TRef sig ⟨S_, .f32⟩) (.of main_call1_v7 : StableHlo.TRef sig ⟨S_, .f32⟩) (.of main_call1_v8 : StableHlo.TRef sig ⟨S_, .f32⟩) subf,
    StableHlo.TRef.nullary (.of main_call1_cst_2 : StableHlo.TRef sig ⟨S_, .f32⟩) (constant S_ .f32 0x00000000#32),
    StableHlo.TRef.binary (.of main_call1_v6 : StableHlo.TRef sig ⟨S1024x32x192, .f32⟩) (.of main_call1_cst_2 : StableHlo.TRef sig ⟨S_, .f32⟩) (.of main_call1_v9 : StableHlo.TRef sig ⟨S32, .f32⟩) (fun x v => Host.reduceAdd x v reducesTo_S1024x32x192_S32_d0_2 h_S_),
    StableHlo.TRef.unary (.of main_call1_v9 : StableHlo.TRef sig ⟨S32, .f32⟩) (.of main_call1_v10 : StableHlo.TRef sig ⟨S1x32x1, .f32⟩) (broadcastInDim S1x32x1 ![1] bcast_S32_S1x32x1_1),
    StableHlo.TRef.unary (.of main_call1_v8 : StableHlo.TRef sig ⟨S_, .f32⟩) (.of main_call1_v11 : StableHlo.TRef sig ⟨S1x32x1, .f32⟩) (broadcastInDim S1x32x1 ![] bcast_S_S1x32x1),
    StableHlo.TRef.binary (.of main_call1_v10 : StableHlo.TRef sig ⟨S1x32x1, .f32⟩) (.of main_call1_v11 : StableHlo.TRef sig ⟨S1x32x1, .f32⟩) (.of main_call1_v12 : StableHlo.TRef sig ⟨S1x32x1, .f32⟩) Host.divf,
    StableHlo.TRef.nullary (.of main_call1_cst_3 : StableHlo.TRef sig ⟨S_, .f32⟩) (constant S_ .f32 0x00000000#32),
    StableHlo.TRef.binary (.of main_call1_v8 : StableHlo.TRef sig ⟨S_, .f32⟩) (.of main_call1_cst_3 : StableHlo.TRef sig ⟨S_, .f32⟩) (.of main_call1_v13 : StableHlo.TRef sig ⟨S_, .i1⟩) (cmpf .ogt),
    StableHlo.TRef.nullary (.of main_call1_cst_4 : StableHlo.TRef sig ⟨S_, .f32⟩) (constant S_ .f32 0x7FC00000#32),
    StableHlo.TRef.unary (.of main_call1_cst_4 : StableHlo.TRef sig ⟨S_, .f32⟩) (.of main_call1_call0_v0 : StableHlo.TRef sig ⟨S_, .f32⟩) id,
    StableHlo.TRef.unary (.of main_call1_call0_v0 : StableHlo.TRef sig ⟨S_, .f32⟩) (.of main_call1_call0_v1 : StableHlo.TRef sig ⟨S1x32x1, .f32⟩) (broadcastInDim S1x32x1 ![] bcast_S_S1x32x1),
    StableHlo.TRef.ternary (.of main_call1_v13 : StableHlo.TRef sig ⟨S_, .i1⟩) (.of main_call1_v12 : StableHlo.TRef sig ⟨S1x32x1, .f32⟩) (.of main_call1_call0_v1 : StableHlo.TRef sig ⟨S1x32x1, .f32⟩) (.of main_v47 : StableHlo.TRef sig ⟨S1x32x1, .f32⟩) (fun p a b => select (broadcastInDim S1x32x1 ![] bcast_S_S1x32x1 p) a b) ]
theorem opsB1_sub : (opsB1 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsB1_fresh : (opsB1 : List (HloOp τ sig (Elt F))).Forall fun op => op.fresh = ∅ := by
  simp only [List.Forall]; repeat' constructor
/-- The buffers those operations write. -/
abbrev opsB1_W : List (Ref sig .tc) := [main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v47]
theorem opsB1_writes : (opsB1 : List (HloOp τ sig (Elt F))).Forall fun op => op.writes ⊆ (opsB1_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 102 … 104 of the straight line (@main's own operations). -/
abbrev opsB2 : List (HloOp τ sig (Elt F)) :=
  [ StableHlo.unary main_v46 main_v48 (broadcastInDim S1024x32x192 ![0, 1, 2] bcast_S1x32x1_S1024x32x192_0_1_2 : (⟨S1x32x1, .f32⟩ : BufTy).Contents (Elt F) → (⟨S1024x32x192, .f32⟩ : BufTy).Contents (Elt F)),
    StableHlo.binary main_v40 main_v48 main_v49 (subf : (⟨S1024x32x192, .f32⟩ : BufTy).Contents (Elt F) → (⟨S1024x32x192, .f32⟩ : BufTy).Contents (Elt F) → (⟨S1024x32x192, .f32⟩ : BufTy).Contents (Elt F)),
    StableHlo.nullary main_cst_7 (constant S_ .f32 0x3727C5AC#32) ]
theorem opsB2_sub : (opsB2 : List (HloOp τ sig (Elt F))).Forall fun op => op.bufs ⊆ tcRefs τ sig :=
  ⟨unary_bufs_sub .., binary_bufs_sub .., nullary_bufs_sub ..⟩
theorem opsB2_fresh : (opsB2 : List (HloOp τ sig (Elt F))).Forall fun op => op.fresh = ∅ := by
  simp only [List.Forall]; repeat' constructor
/-- The buffers those operations write. -/
abbrev opsB2_W : List (Ref sig .tc) := [main_v48, main_v49, main_cst_7]
theorem opsB2_writes : (opsB2 : List (HloOp τ sig (Elt F))).Forall fun op => op.writes ⊆ (opsB2_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 105 … 128 of the straight line (@main's own operations). -/
abbrev opsB3 : List (HloOp τ sig (Elt F)) :=
  [ StableHlo.unary main_cst_7 main_v50 (broadcastInDim S1x32x1 ![] bcast_S_S1x32x1 : (⟨S_, .f32⟩ : BufTy).Contents (Elt F) → (⟨S1x32x1, .f32⟩ : BufTy).Contents (Elt F)),
    StableHlo.binary main_v47 main_v50 main_v51 (addf : (⟨S1x32x1, .f32⟩ : BufTy).Contents (Elt F) → (⟨S1x32x1, .f32⟩ : BufTy).Contents (Elt F) → (⟨S1x32x1, .f32⟩ : BufTy).Contents (Elt F)),
    StableHlo.unary main_v51 main_v52 (Host.rsqrt : (⟨S1x32x1, .f32⟩ : BufTy).Contents (Elt F) → (⟨S1x32x1, .f32⟩ : BufTy).Contents (Elt F)),
    StableHlo.unary main_v52 main_v53 (broadcastInDim S1024x32x192 ![0, 1, 2] bcast_S1x32x1_S1024x32x192_0_1_2 : (⟨S1x32x1, .f32⟩ : BufTy).Contents (Elt F) → (⟨S1024x32x192, .f32⟩ : BufTy).Contents (Elt F)),
    StableHlo.binary main_v49 main_v53 main_v54 (mulf : (⟨S1024x32x192, .f32⟩ : BufTy).Contents (Elt F) → (⟨S1024x32x192, .f32⟩ : BufTy).Contents (Elt F) → (⟨S1024x32x192, .f32⟩ : BufTy).Contents (Elt F)),
    StableHlo.unary main_v41 main_v55 (broadcastInDim S1024x32x192 ![0, 1, 2] bcast_S1x32x1_S1024x32x192_0_1_2 : (⟨S1x32x1, .f32⟩ : BufTy).Contents (Elt F) → (⟨S1024x32x192, .f32⟩ : BufTy).Contents (Elt F)),
    StableHlo.binary main_v54 main_v55 main_v56 (mulf : (⟨S1024x32x192, .f32⟩ : BufTy).Contents (Elt F) → (⟨S1024x32x192, .f32⟩ : BufTy).Contents (Elt F) → (⟨S1024x32x192, .f32⟩ : BufTy).Contents (Elt F)),
    StableHlo.unary main_v42 main_v57 (broadcastInDim S1024x32x192 ![0, 1, 2] bcast_S1x32x1_S1024x32x192_0_1_2 : (⟨S1x32x1, .f32⟩ : BufTy).Contents (Elt F) → (⟨S1024x32x192, .f32⟩ : BufTy).Contents (Elt F)),
    StableHlo.binary main_v56 main_v57 main_v58 (addf : (⟨S1024x32x192, .f32⟩ : BufTy).Contents (Elt F) → (⟨S1024x32x192, .f32⟩ : BufTy).Contents (Elt F) → (⟨S1024x32x192, .f32⟩ : BufTy).Contents (Elt F)),
    StableHlo.reshape main_v58 main_v59 rfl shapeCasts_S1024x32x192_S1024x6144,
    StableHlo.unary main_arg4 main_v60 ((transpose S6144x200 [1, 0] · transposes_S200x6144_S6144x200_1_0) : (⟨S200x6144, .f32⟩ : BufTy).Contents (Elt F) → (⟨S6144x200, .f32⟩ : BufTy).Contents (Elt F)),
    StableHlo.binary main_v59 main_v60 main_v61 ((fun l r => Host.dotGeneral dot_S1024x6144_S6144x200_S1024x200_1_0_0_1_n_n none l r) : (⟨S1024x6144, .f32⟩ : BufTy).Contents (Elt F) → (⟨S6144x200, .f32⟩ : BufTy).Contents (Elt F) → (⟨S1024x200, .f32⟩ : BufTy).Contents (Elt F)),
    StableHlo.unary main_arg5 main_v62 (broadcastInDim S1x200 ![1] bcast_S200_S1x200_1 : (⟨S200, .f32⟩ : BufTy).Contents (Elt F) → (⟨S1x200, .f32⟩ : BufTy).Contents (Elt F)),
    StableHlo.unary main_v62 main_v63 (broadcastInDim S1024x200 ![0, 1] bcast_S1x200_S1024x200_0_1 : (⟨S1x200, .f32⟩ : BufTy).Contents (Elt F) → (⟨S1024x200, .f32⟩ : BufTy).Contents (Elt F)),
    StableHlo.binary main_v61 main_v63 main_v64 (addf : (⟨S1024x200, .f32⟩ : BufTy).Contents (Elt F) → (⟨S1024x200, .f32⟩ : BufTy).Contents (Elt F) → (⟨S1024x200, .f32⟩ : BufTy).Contents (Elt F)),
    StableHlo.unary main_arg12 main_v65 (broadcastInDim S1x200 ![1] bcast_S200_S1x200_1 : (⟨S200, .f32⟩ : BufTy).Contents (Elt F) → (⟨S1x200, .f32⟩ : BufTy).Contents (Elt F)),
    StableHlo.unary main_arg13 main_v66 (broadcastInDim S1x200 ![1] bcast_S200_S1x200_1 : (⟨S200, .f32⟩ : BufTy).Contents (Elt F) → (⟨S1x200, .f32⟩ : BufTy).Contents (Elt F)),
    StableHlo.nullary main_cst_8 (constant S_ .f32 0x00000000#32),
    StableHlo.binary main_v64 main_cst_8 main_v67 ((fun x v => Host.reduceAdd x v reducesTo_S1024x200_S200_d0 h_S_) : (⟨S1024x200, .f32⟩ : BufTy).Contents (Elt F) → (⟨S_, .f32⟩ : BufTy).Contents (Elt F) → (⟨S200, .f32⟩ : BufTy).Contents (Elt F)),
    StableHlo.unary main_v67 main_v68 (broadcastInDim S1x200 ![1] bcast_S200_S1x200_1 : (⟨S200, .f32⟩ : BufTy).Contents (Elt F) → (⟨S1x200, .f32⟩ : BufTy).Contents (Elt F)),
    StableHlo.nullary main_cst_9 (constant S_ .f32 0x44800000#32),
    StableHlo.unary main_cst_9 main_v69 (broadcastInDim S1x200 ![] bcast_S_S1x200 : (⟨S_, .f32⟩ : BufTy).Contents (Elt F) → (⟨S1x200, .f32⟩ : BufTy).Contents (Elt F)),
    StableHlo.binary main_v68 main_v69 main_v70 (Host.divf : (⟨S1x200, .f32⟩ : BufTy).Contents (Elt F) → (⟨S1x200, .f32⟩ : BufTy).Contents (Elt F) → (⟨S1x200, .f32⟩ : BufTy).Contents (Elt F)),
    StableHlo.nullary main_c_10 (constantI S_ 32 0#32) ]
theorem opsB3_sub : (opsB3 : List (HloOp τ sig (Elt F))).Forall fun op => op.bufs ⊆ tcRefs τ sig :=
  ⟨unary_bufs_sub .., binary_bufs_sub .., unary_bufs_sub .., unary_bufs_sub .., binary_bufs_sub .., unary_bufs_sub .., binary_bufs_sub .., unary_bufs_sub .., binary_bufs_sub .., reshape_bufs_sub .., unary_bufs_sub .., binary_bufs_sub .., unary_bufs_sub .., unary_bufs_sub .., binary_bufs_sub .., unary_bufs_sub .., unary_bufs_sub .., nullary_bufs_sub .., binary_bufs_sub .., unary_bufs_sub .., nullary_bufs_sub .., unary_bufs_sub .., binary_bufs_sub .., nullary_bufs_sub ..⟩
theorem opsB3_fresh : (opsB3 : List (HloOp τ sig (Elt F))).Forall fun op => op.fresh = ∅ := by
  simp only [List.Forall]; repeat' constructor
/-- The buffers those operations write. -/
abbrev opsB3_W : List (Ref sig .tc) := [main_v50, main_v51, main_v52, main_v53, main_v54, main_v55, main_v56, main_v57, main_v58, main_v59, main_v60, main_v61, main_v62, main_v63, main_v64, main_v65, main_v66, main_cst_8, main_v67, main_v68, main_cst_9, main_v69, main_v70, main_c_10]
theorem opsB3_writes : (opsB3 : List (HloOp τ sig (Elt F))).Forall fun op => op.writes ⊆ (opsB3_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 129 … 151 of the straight line (an outlined function's operations, at the call's buffers). -/
abbrev opsB4 : List (HloOp τ sig (Elt F)) :=
  [ StableHlo.TRef.nullary (.of main_call2_cst : StableHlo.TRef sig ⟨S_, .f32⟩) (constant S_ .f32 0x00000000#32),
    StableHlo.TRef.binary (.of main_v64 : StableHlo.TRef sig ⟨S1024x200, .f32⟩) (.of main_call2_cst : StableHlo.TRef sig ⟨S_, .f32⟩) (.of main_call2_v0 : StableHlo.TRef sig ⟨S200, .f32⟩) (fun x v => Host.reduceAdd x v reducesTo_S1024x200_S200_d0 h_S_),
    StableHlo.TRef.unary (.of main_call2_v0 : StableHlo.TRef sig ⟨S200, .f32⟩) (.of main_call2_v1 : StableHlo.TRef sig ⟨S1x200, .f32⟩) (broadcastInDim S1x200 ![1] bcast_S200_S1x200_1),
    StableHlo.TRef.nullary (.of main_call2_cst_0 : StableHlo.TRef sig ⟨S_, .f32⟩) (constant S_ .f32 0x44800000#32),
    StableHlo.TRef.unary (.of main_call2_cst_0 : StableHlo.TRef sig ⟨S_, .f32⟩) (.of main_call2_v2 : StableHlo.TRef sig ⟨S1x200, .f32⟩) (broadcastInDim S1x200 ![] bcast_S_S1x200),
    StableHlo.TRef.binary (.of main_call2_v1 : StableHlo.TRef sig ⟨S1x200, .f32⟩) (.of main_call2_v2 : StableHlo.TRef sig ⟨S1x200, .f32⟩) (.of main_call2_v3 : StableHlo.TRef sig ⟨S1x200, .f32⟩) Host.divf,
    StableHlo.TRef.unary (.of main_call2_v3 : StableHlo.TRef sig ⟨S1x200, .f32⟩) (.of main_call2_v4 : StableHlo.TRef sig ⟨S1024x200, .f32⟩) (broadcastInDim S1024x200 ![0, 1] bcast_S1x200_S1024x200_0_1),
    StableHlo.TRef.binary (.of main_v64 : StableHlo.TRef sig ⟨S1024x200, .f32⟩) (.of main_call2_v4 : StableHlo.TRef sig ⟨S1024x200, .f32⟩) (.of main_call2_v5 : StableHlo.TRef sig ⟨S1024x200, .f32⟩) subf,
    StableHlo.TRef.binary (.of main_call2_v5 : StableHlo.TRef sig ⟨S1024x200, .f32⟩) (.of main_call2_v5 : StableHlo.TRef sig ⟨S1024x200, .f32⟩) (.of main_call2_v6 : StableHlo.TRef sig ⟨S1024x200, .f32⟩) mulf,
    StableHlo.TRef.unary (.of main_c_10 : StableHlo.TRef sig ⟨S_, .i32⟩) (.of main_call2_v7 : StableHlo.TRef sig ⟨S_, .f32⟩) (sitofp .f32),
    StableHlo.TRef.nullary (.of main_call2_cst_1 : StableHlo.TRef sig ⟨S_, .f32⟩) (constant S_ .f32 0x44800000#32),
    StableHlo.TRef.binary (.of main_call2_cst_1 : StableHlo.TRef sig ⟨S_, .f32⟩) (.of main_call2_v7 : StableHlo.TRef sig ⟨S_, .f32⟩) (.of main_call2_v8 : StableHlo.TRef sig ⟨S_, .f32⟩) subf,
    StableHlo.TRef.nullary (.of main_call2_cst_2 : StableHlo.TRef sig ⟨S_, .f32⟩) (constant S_ .f32 0x00000000#32),
    StableHlo.TRef.binary (.of main_call2_v6 : StableHlo.TRef sig ⟨S1024x200, .f32⟩) (.of main_call2_cst_2 : StableHlo.TRef sig ⟨S_, .f32⟩) (.of main_call2_v9 : StableHlo.TRef sig ⟨S200, .f32⟩) (fun x v => Host.reduceAdd x v reducesTo_S1024x200_S200_d0 h_S_),
    StableHlo.TRef.unary (.of main_call2_v9 : StableHlo.TRef sig ⟨S200, .f32⟩) (.of main_call2_v10 : StableHlo.TRef sig ⟨S1x200, .f32⟩) (broadcastInDim S1x200 ![1] bcast_S200_S1x200_1),
    StableHlo.TRef.unary (.of main_call2_v8 : StableHlo.TRef sig ⟨S_, .f32⟩) (.of main_call2_v11 : StableHlo.TRef sig ⟨S1x200, .f32⟩) (broadcastInDim S1x200 ![] bcast_S_S1x200),
    StableHlo.TRef.binary (.of main_call2_v10 : StableHlo.TRef sig ⟨S1x200, .f32⟩) (.of main_call2_v11 : StableHlo.TRef sig ⟨S1x200, .f32⟩) (.of main_call2_v12 : StableHlo.TRef sig ⟨S1x200, .f32⟩) Host.divf,
    StableHlo.TRef.nullary (.of main_call2_cst_3 : StableHlo.TRef sig ⟨S_, .f32⟩) (constant S_ .f32 0x00000000#32),
    StableHlo.TRef.binary (.of main_call2_v8 : StableHlo.TRef sig ⟨S_, .f32⟩) (.of main_call2_cst_3 : StableHlo.TRef sig ⟨S_, .f32⟩) (.of main_call2_v13 : StableHlo.TRef sig ⟨S_, .i1⟩) (cmpf .ogt),
    StableHlo.TRef.nullary (.of main_call2_cst_4 : StableHlo.TRef sig ⟨S_, .f32⟩) (constant S_ .f32 0x7FC00000#32),
    StableHlo.TRef.unary (.of main_call2_cst_4 : StableHlo.TRef sig ⟨S_, .f32⟩) (.of main_call2_call0_v0 : StableHlo.TRef sig ⟨S_, .f32⟩) id,
    StableHlo.TRef.unary (.of main_call2_call0_v0 : StableHlo.TRef sig ⟨S_, .f32⟩) (.of main_call2_call0_v1 : StableHlo.TRef sig ⟨S1x200, .f32⟩) (broadcastInDim S1x200 ![] bcast_S_S1x200),
    StableHlo.TRef.ternary (.of main_call2_v13 : StableHlo.TRef sig ⟨S_, .i1⟩) (.of main_call2_v12 : StableHlo.TRef sig ⟨S1x200, .f32⟩) (.of main_call2_call0_v1 : StableHlo.TRef sig ⟨S1x200, .f32⟩) (.of main_v71 : StableHlo.TRef sig ⟨S1x200, .f32⟩) (fun p a b => select (broadcastInDim S1x200 ![] bcast_S_S1x200 p) a b) ]
theorem opsB4_sub : (opsB4 : List (HloOp τ sig (Elt F))).Forall fun op => op.bufs ⊆ tcRefs τ sig :=
  ⟨nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub ..⟩
theorem opsB4_fresh : (opsB4 : List (HloOp τ sig (Elt F))).Forall fun op => op.fresh = ∅ := by
  simp only [List.Forall]; repeat' constructor
/-- The buffers those operations write. -/
abbrev opsB4_W : List (Ref sig .tc) := [main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v71]
theorem opsB4_writes : (opsB4 : List (HloOp τ sig (Elt F))).Forall fun op => op.writes ⊆ (opsB4_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 152 … 163 of the straight line (@main's own operations). -/
abbrev opsB5 : List (HloOp τ sig (Elt F)) :=
  [ StableHlo.unary main_v70 main_v72 (broadcastInDim S1024x200 ![0, 1] bcast_S1x200_S1024x200_0_1 : (⟨S1x200, .f32⟩ : BufTy).Contents (Elt F) → (⟨S1024x200, .f32⟩ : BufTy).Contents (Elt F)),
    StableHlo.binary main_v64 main_v72 main_v73 (subf : (⟨S1024x200, .f32⟩ : BufTy).Contents (Elt F) → (⟨S1024x200, .f32⟩ : BufTy).Contents (Elt F) → (⟨S1024x200, .f32⟩ : BufTy).Contents (Elt F)),
    StableHlo.nullary main_cst_11 (constant S_ .f32 0x3727C5AC#32),
    StableHlo.unary main_cst_11 main_v74 (broadcastInDim S1x200 ![] bcast_S_S1x200 : (⟨S_, .f32⟩ : BufTy).Contents (Elt F) → (⟨S1x200, .f32⟩ : BufTy).Contents (Elt F)),
    StableHlo.binary main_v71 main_v74 main_v75 (addf : (⟨S1x200, .f32⟩ : BufTy).Contents (Elt F) → (⟨S1x200, .f32⟩ : BufTy).Contents (Elt F) → (⟨S1x200, .f32⟩ : BufTy).Contents (Elt F)),
    StableHlo.unary main_v75 main_v76 (Host.rsqrt : (⟨S1x200, .f32⟩ : BufTy).Contents (Elt F) → (⟨S1x200, .f32⟩ : BufTy).Contents (Elt F)),
    StableHlo.unary main_v76 main_v77 (broadcastInDim S1024x200 ![0, 1] bcast_S1x200_S1024x200_0_1 : (⟨S1x200, .f32⟩ : BufTy).Contents (Elt F) → (⟨S1024x200, .f32⟩ : BufTy).Contents (Elt F)),
    StableHlo.binary main_v73 main_v77 main_v78 (mulf : (⟨S1024x200, .f32⟩ : BufTy).Contents (Elt F) → (⟨S1024x200, .f32⟩ : BufTy).Contents (Elt F) → (⟨S1024x200, .f32⟩ : BufTy).Contents (Elt F)),
    StableHlo.unary main_v65 main_v79 (broadcastInDim S1024x200 ![0, 1] bcast_S1x200_S1024x200_0_1 : (⟨S1x200, .f32⟩ : BufTy).Contents (Elt F) → (⟨S1024x200, .f32⟩ : BufTy).Contents (Elt F)),
    StableHlo.binary main_v78 main_v79 main_v80 (mulf : (⟨S1024x200, .f32⟩ : BufTy).Contents (Elt F) → (⟨S1024x200, .f32⟩ : BufTy).Contents (Elt F) → (⟨S1024x200, .f32⟩ : BufTy).Contents (Elt F)),
    StableHlo.unary main_v66 main_v81 (broadcastInDim S1024x200 ![0, 1] bcast_S1x200_S1024x200_0_1 : (⟨S1x200, .f32⟩ : BufTy).Contents (Elt F) → (⟨S1024x200, .f32⟩ : BufTy).Contents (Elt F)),
    StableHlo.binary main_v80 main_v81 main_v82 (addf : (⟨S1024x200, .f32⟩ : BufTy).Contents (Elt F) → (⟨S1024x200, .f32⟩ : BufTy).Contents (Elt F) → (⟨S1024x200, .f32⟩ : BufTy).Contents (Elt F)) ]
theorem opsB5_sub : (opsB5 : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., binary_bufs_sub .., unary_bufs_sub .., binary_bufs_sub .., unary_bufs_sub .., binary_bufs_sub ..⟩
theorem opsB5_fresh : (opsB5 : List (HloOp τ sig (Elt F))).Forall fun op => op.fresh = ∅ := by
  simp only [List.Forall]; repeat' constructor
/-- The buffers those operations write. -/
abbrev opsB5_W : List (Ref sig .tc) := [main_v72, main_v73, main_cst_11, main_v74, main_v75, main_v76, main_v77, main_v78, main_v79, main_v80, main_v81, main_v82]
theorem opsB5_writes : (opsB5 : List (HloOp τ sig (Elt F))).Forall fun op => op.writes ⊆ (opsB5_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- Operations 164 … 166 of the straight line (an outlined function's operations, at the call's buffers). -/
abbrev opsB6 : List (HloOp τ sig (Elt F)) :=
  [ StableHlo.TRef.nullary (.of main_call3_cst : StableHlo.TRef sig ⟨S_, .f32⟩) (constant S_ .f32 0x00000000#32),
    StableHlo.TRef.unary (.of main_call3_cst : StableHlo.TRef sig ⟨S_, .f32⟩) (.of main_call3_v0 : StableHlo.TRef sig ⟨S1024x200, .f32⟩) (broadcastInDim S1024x200 ![] bcast_S_S1024x200),
    StableHlo.TRef.binary (.of main_v82 : StableHlo.TRef sig ⟨S1024x200, .f32⟩) (.of main_call3_v0 : StableHlo.TRef sig ⟨S1024x200, .f32⟩) (.of main_v83 : StableHlo.TRef sig ⟨S1024x200, .f32⟩) maximumf ]
theorem opsB6_sub : (opsB6 : List (HloOp τ sig (Elt F))).Forall fun op => op.bufs ⊆ tcRefs τ sig :=
  ⟨nullary_bufs_sub .., unary_bufs_sub .., binary_bufs_sub ..⟩
theorem opsB6_fresh : (opsB6 : List (HloOp τ sig (Elt F))).Forall fun op => op.fresh = ∅ := by
  simp only [List.Forall]; repeat' constructor
/-- The buffers those operations write. -/
abbrev opsB6_W : List (Ref sig .tc) := [main_call3_cst, main_call3_v0, main_v83]
theorem opsB6_writes : (opsB6 : List (HloOp τ sig (Elt F))).Forall fun op => op.writes ⊆ (opsB6_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The stage's operations, in order. -/
abbrev opsB : List (HloOp τ sig (Elt F)) := opsB0 ++ opsB1 ++ opsB2 ++ opsB3 ++ opsB4 ++ opsB5 ++ opsB6

set_option maxRecDepth 16384 in
set_option maxHeartbeats 4000000 in
/-- The stage's result buffer after its operations, from any contents V of the buffers: the fold unrolled, each
    operation's result read at its own buffer and passed over at every other, what is left is the composed term. -/
theorem stageB (V : Valuation τ sig (Elt F)) :
    after opsB V (Proc.devRef .tc main_v83) = tailR (V (Proc.devRef .tc main_v19)) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (V (Proc.devRef .tc main_arg12)) (V (Proc.devRef .tc main_arg13)) := by
  simp only [opsB, opsB0, opsB1, opsB2, opsB3, opsB4, opsB5, opsB6, List.cons_append, List.nil_append]
  after_results_simp
  unfold tailR
  rfl

end Cert.ReferenceIdeal.RefRun

end
-- ==== Proof.RefOpsC.lean ====
/-
  The reference program's last stretch as a list of operations: y · Eᵀ + b, then 1 / (1 + exp (−s)).
-/
import proofs.«161430_j19885698580525_1_alg».proof.Proof.RefSpec
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Operations 167 … 179 of the straight line (@main's own operations). -/
abbrev opsC0 : List (HloOp τ sig (Elt F)) :=
  [ StableHlo.unary main_arg6 main_v84 ((transpose S200x100000 [1, 0] · transposes_S100000x200_S200x100000_1_0) : (⟨S100000x200, .f32⟩ : BufTy).Contents (Elt F) → (⟨S200x100000, .f32⟩ : BufTy).Contents (Elt F)),
    StableHlo.binary main_v83 main_v84 main_v85 ((fun l r => Host.dotGeneral dot_S1024x200_S200x100000_S1024x100000_1_0_0_1_n_n none l r) : (⟨S1024x200, .f32⟩ : BufTy).Contents (Elt F) → (⟨S200x100000, .f32⟩ : BufTy).Contents (Elt F) → (⟨S1024x100000, .f32⟩ : BufTy).Contents (Elt F)),
    StableHlo.unary main_arg7 main_v86 (broadcastInDim S1x100000 ![1] bcast_S100000_S1x100000_1 : (⟨S100000, .f32⟩ : BufTy).Contents (Elt F) → (⟨S1x100000, .f32⟩ : BufTy).Contents (Elt F)),
    StableHlo.unary main_v86 main_v87 (broadcastInDim S1024x100000 ![0, 1] bcast_S1x100000_S1024x100000_0_1 : (⟨S1x100000, .f32⟩ : BufTy).Contents (Elt F) → (⟨S1024x100000, .f32⟩ : BufTy).Contents (Elt F)),
    StableHlo.binary main_v85 main_v87 main_v88 (addf : (⟨S1024x100000, .f32⟩ : BufTy).Contents (Elt F) → (⟨S1024x100000, .f32⟩ : BufTy).Contents (Elt F) → (⟨S1024x100000, .f32⟩ : BufTy).Contents (Elt F)),
    StableHlo.unary main_v88 main_v89 (Host.negf : (⟨S1024x100000, .f32⟩ : BufTy).Contents (Elt F) → (⟨S1024x100000, .f32⟩ : BufTy).Contents (Elt F)),
    StableHlo.unary main_v89 main_v90 (Host.exp : (⟨S1024x100000, .f32⟩ : BufTy).Contents (Elt F) → (⟨S1024x100000, .f32⟩ : BufTy).Contents (Elt F)),
    StableHlo.nullary main_cst_12 (constant S_ .f32 0x3F800000#32),
    StableHlo.unary main_cst_12 main_v91 (broadcastInDim S1024x100000 ![] bcast_S_S1024x100000 : (⟨S_, .f32⟩ : BufTy).Contents (Elt F) → (⟨S1024x100000, .f32⟩ : BufTy).Contents (Elt F)),
    StableHlo.binary main_v91 main_v90 main_v92 (addf : (⟨S1024x100000, .f32⟩ : BufTy).Contents (Elt F) → (⟨S1024x100000, .f32⟩ : BufTy).Contents (Elt F) → (⟨S1024x100000, .f32⟩ : BufTy).Contents (Elt F)),
    StableHlo.nullary main_cst_13 (constant S_ .f32 0x3F800000#32),
    StableHlo.unary main_cst_13 main_v93 (broadcastInDim S1024x100000 ![] bcast_S_S1024x100000 : (⟨S_, .f32⟩ : BufTy).Contents (Elt F) → (⟨S1024x100000, .f32⟩ : BufTy).Contents (Elt F)),
    StableHlo.binary main_v93 main_v92 main_v94 (Host.divf : (⟨S1024x100000, .f32⟩ : BufTy).Contents (Elt F) → (⟨S1024x100000, .f32⟩ : BufTy).Contents (Elt F) → (⟨S1024x100000, .f32⟩ : BufTy).Contents (Elt F)) ]
theorem opsC0_sub : (opsC0 : List (HloOp τ sig (Elt F))).Forall fun op => op.bufs ⊆ tcRefs τ sig :=
  ⟨unary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
theorem opsC0_fresh : (opsC0 : List (HloOp τ sig (Elt F))).Forall fun op => op.fresh = ∅ := by
  simp only [List.Forall]; repeat' constructor
/-- The buffers those operations write. -/
abbrev opsC0_W : List (Ref sig .tc) := [main_v84, main_v85, main_v86, main_v87, main_v88, main_v89, main_v90, main_cst_12, main_v91, main_v92, main_cst_13, main_v93, main_v94]
theorem opsC0_writes : (opsC0 : List (HloOp τ sig (Elt F))).Forall fun op => op.writes ⊆ (opsC0_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩

/-- The stage's operations, in order. -/
abbrev opsC : List (HloOp τ sig (Elt F)) := opsC0

set_option maxRecDepth 16384 in
set_option maxHeartbeats 4000000 in
/-- The stage's result buffer after its operations, from any contents V of the buffers: the fold unrolled, each
    operation's result read at its own buffer and passed over at every other, what is left is the composed term. -/
theorem stageC (V : Valuation τ sig (Elt F)) :
    after opsC V (Proc.devRef .tc main_v94) = finR (V (Proc.devRef .tc main_v83)) (V (Proc.devRef .tc main_arg6)) (V (Proc.devRef .tc main_arg7)) := by
  simp only [opsC, opsC0, List.cons_append, List.nil_append]
  after_results_simp
  unfold finR
  rfl

end Cert.ReferenceIdeal.RefRun

end
-- ==== Proof.RefRun.lean ====
/-
  The reference program's run. @main, printed in two windows with its outlined functions called in place, is the
  straight line of the operation lists of RefOpsA/B/C (each window the chain of its pieces, the two chains joined);
  a straight line of host operations terminates with every buffer at the fold of the operations' results; the fold
  at the result buffer is the three stage values composed, and no operation writes an argument.
-/
import proofs.«161430_j19885698580525_1_alg».proof.Proof.RefOpsA
import proofs.«161430_j19885698580525_1_alg».proof.Proof.RefOpsB
import proofs.«161430_j19885698580525_1_alg».proof.Proof.RefOpsC
import Idealize.ShloMosaic.Lib.Pipeline.Regions

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## Folding over a concatenation -/

/-- The fold over two lines run one after the other. -/
theorem after_append (l₁ l₂ : List (HloOp τ sig (Elt F))) (V : Valuation τ sig (Elt F)) : after (l₁ ++ l₂) V = after l₂ (after l₁ V) := by
  induction l₁ generalizing V with
  | nil => rfl
  | cons op l ih => simp only [List.cons_append, after_cons, ih]

/-- A property of every operation of two lines holds of every operation of their concatenation. -/
theorem forall_append {p : HloOp τ sig (Elt F) → Prop} {l₁ l₂ : List (HloOp τ sig (Elt F))} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

/-- The line leaves the buffer as it finds it, whatever the contents. -/
def Keeps (l : List (HloOp τ sig (Elt F))) (r : Ref sig .tc) : Prop := ∀ V : Valuation τ sig (Elt F), after l V (Proc.devRef .tc r) = V (Proc.devRef .tc r)

theorem Keeps.append {l₁ l₂ : List (HloOp τ sig (Elt F))} {r : Ref sig .tc} (h₁ : Keeps l₁ r) (h₂ : Keeps l₂ r) : Keeps (l₁ ++ l₂) r :=
  fun V => by rw [after_append, h₂, h₁]

/-! ## @main as one straight line -/

/-- The whole program's operations, in order. -/
abbrev ops : List (HloOp τ sig (Elt F)) := opsA ++ opsB ++ opsC

/-- The first window is the chain of its pieces, the last in tail position. -/
theorem main_part0_chain (c : Dev nD) : main_part0 (F := F) c = (Pipeline.chainK
  [ seq opsA0, seq opsA1, seq opsA2, seq opsB0, seq opsB1 ] (seq opsB2) : Prog (TpuEff nD τ sig (Elt F) (Pipeline.Sig Λ₀ (Fin 0) fun p => (pcfgs (F := F) p).Adm) .tc) PUnit) := by
  chain_rfl

/-- The last window is the chain of its pieces. -/
theorem main_part1_chain (c : Dev nD) : main_part1 (F := F) c = (Pipeline.chain
  [ seq opsB3, seq opsB4, seq opsB5, seq opsB6, seq opsC0 ] : Prog (TpuEff nD τ sig (Elt F) (Pipeline.Sig Λ₀ (Fin 0) fun p => (pcfgs (F := F) p).Adm) .tc) PUnit) := by
  chain_rfl

/-- @main is the chain of all the pieces. -/
theorem main_chain (c : Dev nD) : main (F := F) c = (Pipeline.chain
  [ seq opsA0, seq opsA1, seq opsA2, seq opsB0, seq opsB1, seq opsB2, seq opsB3, seq opsB4, seq opsB5, seq opsB6, seq opsC0 ] : Prog (TpuEff nD τ sig (Elt F) (Pipeline.Sig Λ₀ (Fin 0) fun p => (pcfgs (F := F) p).Adm) .tc) PUnit) := by
  show (main_part0 (F := F) c >>= fun _ => main_part1 (F := F) c) = _
  rewrite [main_part1_chain, main_part0_chain, Pipeline.chainK_bind_chain]
  chain_rfl

/-- @main is the straight line of the operations: a chain of lines is the line of their concatenation. -/
theorem main_eq (c : Dev nD) : main (F := F) c = seq ops := by
  rw [main_chain c]
  simp only [ops, opsA, opsB, opsC, Pipeline.chain_cons, Pipeline.chain_nil, seq_append, bind_assoc, bind_pure_unit]

theorem scopedRefs_eq : (Finset.univ.filter fun b : Ref sig .tc => b.isScoped) = ∅ := by decide
theorem scopedSems_eq : (Finset.univ.filter fun sm : SemLoc sig => sm.isScoped .tc) = ∅ := by decide

theorem opsA_sub : (opsA : List (HloOp τ sig (Elt F))).Forall fun op => op.bufs ⊆ tcRefs τ sig :=
  forall_append (forall_append (opsA0_sub) opsA1_sub) opsA2_sub
theorem opsB_sub : (opsB : List (HloOp τ sig (Elt F))).Forall fun op => op.bufs ⊆ tcRefs τ sig :=
  forall_append (forall_append (forall_append (forall_append (forall_append (forall_append (opsB0_sub) opsB1_sub) opsB2_sub) opsB3_sub) opsB4_sub) opsB5_sub) opsB6_sub
theorem opsC_sub : (opsC : List (HloOp τ sig (Elt F))).Forall fun op => op.bufs ⊆ tcRefs τ sig :=
  opsC0_sub
/-- Every operation of the program touches TensorCore references only. -/
theorem ops_sub : (ops : List (HloOp τ sig (Elt F))).Forall fun op => op.bufs ⊆ tcRefs τ sig :=
  forall_append (forall_append opsA_sub opsB_sub) opsC_sub

theorem opsA_fresh : (opsA : List (HloOp τ sig (Elt F))).Forall fun op => op.fresh = ∅ :=
  forall_append (forall_append (opsA0_fresh) opsA1_fresh) opsA2_fresh
theorem opsB_fresh : (opsB : List (HloOp τ sig (Elt F))).Forall fun op => op.fresh = ∅ :=
  forall_append (forall_append (forall_append (forall_append (forall_append (forall_append (opsB0_fresh) opsB1_fresh) opsB2_fresh) opsB3_fresh) opsB4_fresh) opsB5_fresh) opsB6_fresh
theorem opsC_fresh : (opsC : List (HloOp τ sig (Elt F))).Forall fun op => op.fresh = ∅ :=
  opsC0_fresh
/-- Every operation of the program determines its results. -/
theorem ops_fresh : (ops : List (HloOp τ sig (Elt F))).Forall fun op => op.fresh = ∅ :=
  forall_append (forall_append opsA_fresh opsB_fresh) opsC_fresh

/-! ## What each stage writes, and what it therefore keeps -/

/-- The buffers stage A writes. -/
abbrev WA : List (Ref sig .tc) := opsA0_W ++ opsA1_W ++ opsA2_W
/-- A buffer stage A does not write keeps its contents through it. -/
theorem keepsA {r : Ref sig .tc} (h : r ∉ WA) : Keeps (opsA : List (HloOp τ sig (Elt F))) r :=
  Keeps.append (Keeps.append ((fun V => after_of_writes_sub opsA0 V opsA0_writes (fun hm => h (List.mem_append_left _ (List.mem_append_left _ hm))))) (fun V => after_of_writes_sub opsA1 V opsA1_writes (fun hm => h (List.mem_append_left _ (List.mem_append_right _ hm))))) (fun V => after_of_writes_sub opsA2 V opsA2_writes (fun hm => h (List.mem_append_right _ hm)))

/-- The buffers stage B writes. -/
abbrev WB : List (Ref sig .tc) := opsB0_W ++ opsB1_W ++ opsB2_W ++ opsB3_W ++ opsB4_W ++ opsB5_W ++ opsB6_W
/-- A buffer stage B does not write keeps its contents through it. -/
theorem keepsB {r : Ref sig .tc} (h : r ∉ WB) : Keeps (opsB : List (HloOp τ sig (Elt F))) r :=
  Keeps.append (Keeps.append (Keeps.append (Keeps.append (Keeps.append (Keeps.append ((fun V => after_of_writes_sub opsB0 V opsB0_writes (fun hm => h (List.mem_append_left _ (List.mem_append_left _ (List.mem_append_left _ (List.mem_append_left _ (List.mem_append_left _ (List.mem_append_left _ hm))))))))) (fun V => after_of_writes_sub opsB1 V opsB1_writes (fun hm => h (List.mem_append_left _ (List.mem_append_left _ (List.mem_append_left _ (List.mem_append_left _ (List.mem_append_left _ (List.mem_append_right _ hm))))))))) (fun V => after_of_writes_sub opsB2 V opsB2_writes (fun hm => h (List.mem_append_left _ (List.mem_append_left _ (List.mem_append_left _ (List.mem_append_left _ (List.mem_append_right _ hm)))))))) (fun V => after_of_writes_sub opsB3 V opsB3_writes (fun hm => h (List.mem_append_left _ (List.mem_append_left _ (List.mem_append_left _ (List.mem_append_right _ hm))))))) (fun V => after_of_writes_sub opsB4 V opsB4_writes (fun hm => h (List.mem_append_left _ (List.mem_append_left _ (List.mem_append_right _ hm)))))) (fun V => after_of_writes_sub opsB5 V opsB5_writes (fun hm => h (List.mem_append_left _ (List.mem_append_right _ hm))))) (fun V => after_of_writes_sub opsB6 V opsB6_writes (fun hm => h (List.mem_append_right _ hm)))

/-- The buffers stage C writes. -/
abbrev WC : List (Ref sig .tc) := opsC0_W
/-- A buffer stage C does not write keeps its contents through it. -/
theorem keepsC {r : Ref sig .tc} (h : r ∉ WC) : Keeps (opsC : List (HloOp τ sig (Elt F))) r :=
  (fun V => after_of_writes_sub opsC0 V opsC0_writes (fun hm => h (hm)))

/-- No operation of the program writes an argument. -/
theorem keeps_arg {r : Ref sig .tc} (hA : r ∉ WA) (hB : r ∉ WB) (hC : r ∉ WC) : Keeps (ops : List (HloOp τ sig (Elt F))) r :=
  Keeps.append (Keeps.append (keepsA hA) (keepsB hB)) (keepsC hC)

/-! ## The value -/

/-- The result buffer after the whole program, from any contents of the buffers: the three stage values composed
    (each stage reads the arguments as launched: the stages before it keep them). -/
theorem value (V : Valuation τ sig (Elt F)) :
    after ops V (Proc.devRef .tc main_v94) = finR (tailR (xR (V (Proc.devRef .tc main_arg0)) (V (Proc.devRef .tc main_arg8)) (V (Proc.devRef .tc main_arg9))) (V (Proc.devRef .tc main_arg1)) (V (Proc.devRef .tc main_arg2)) (V (Proc.devRef .tc main_arg3)) (V (Proc.devRef .tc main_arg4)) (V (Proc.devRef .tc main_arg5)) (V (Proc.devRef .tc main_arg10)) (V (Proc.devRef .tc main_arg11)) (V (Proc.devRef .tc main_arg12)) (V (Proc.devRef .tc main_arg13))) (V (Proc.devRef .tc main_arg6)) (V (Proc.devRef .tc main_arg7)) := by
  have e : after ops V = after opsC (after opsB (after opsA V)) := by
    show after ((opsA ++ opsB) ++ opsC) V = _
    rw [after_append (opsA ++ opsB) opsC V, after_append opsA opsB V]
  rw [e, stageC, stageB, stageA,
    keepsB (r := main_arg6) (by decide) (after opsA V), keepsB (r := main_arg7) (by decide) (after opsA V),
    keepsA (r := main_arg1) (by decide) V, keepsA (r := main_arg2) (by decide) V, keepsA (r := main_arg3) (by decide) V, keepsA (r := main_arg4) (by decide) V, keepsA (r := main_arg5) (by decide) V, keepsA (r := main_arg6) (by decide) V, keepsA (r := main_arg7) (by decide) V, keepsA (r := main_arg10) (by decide) V, keepsA (r := main_arg11) (by decide) V, keepsA (r := main_arg12) (by decide) V, keepsA (r := main_arg13) (by decide) V]

/-! ## The run -/

/-- On every device, for any float values, from any memory with zero counters: every weakly fair execution of @main
    terminates with the result buffer at the composed value of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = finR (tailR (xR (m ((c.tc : Thread nD τ).loc main_arg0)) (m ((c.tc : Thread nD τ).loc main_arg8)) (m ((c.tc : Thread nD τ).loc main_arg9))) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg10)) (m ((c.tc : Thread nD τ).loc main_arg11)) (m ((c.tc : Thread nD τ).loc main_arg12)) (m ((c.tc : Thread nD τ).loc main_arg13))) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v94).trans (value (launchContents m c)),
      (h c main_arg0).trans (keeps_arg (by decide) (by decide) (by decide) (launchContents m c)),
      (h c main_arg1).trans (keeps_arg (by decide) (by decide) (by decide) (launchContents m c)),
      (h c main_arg2).trans (keeps_arg (by decide) (by decide) (by decide) (launchContents m c)),
      (h c main_arg3).trans (keeps_arg (by decide) (by decide) (by decide) (launchContents m c)),
      (h c main_arg4).trans (keeps_arg (by decide) (by decide) (by decide) (launchContents m c)),
      (h c main_arg5).trans (keeps_arg (by decide) (by decide) (by decide) (launchContents m c)),
      (h c main_arg6).trans (keeps_arg (by decide) (by decide) (by decide) (launchContents m c)),
      (h c main_arg7).trans (keeps_arg (by decide) (by decide) (by decide) (launchContents m c)),
      (h c main_arg8).trans (keeps_arg (by decide) (by decide) (by decide) (launchContents m c)),
      (h c main_arg9).trans (keeps_arg (by decide) (by decide) (by decide) (launchContents m c)),
      (h c main_arg10).trans (keeps_arg (by decide) (by decide) (by decide) (launchContents m c)),
      (h c main_arg11).trans (keeps_arg (by decide) (by decide) (by decide) (launchContents m c)),
      (h c main_arg12).trans (keeps_arg (by decide) (by decide) (by decide) (launchContents m c)),
      (h c main_arg13).trans (keeps_arg (by decide) (by decide) (by decide) (launchContents m c))⟩)
    (run_seq scopedRefs_eq scopedSems_eq defs main (fun _ => ops) main_eq (fun _ => ops_sub) m ρ
      (fun _ => List.forall_iff_forall_mem.mp ops_fresh))

end Cert.ReferenceIdeal.RefRun

end
-- ==== Proof.HostBridge.lean ====
/-
  The two host prefixes compute the same values at the ideal instance.

  The first batch normalisation is where the two programs differ: the kernel's program reduces e1 over both axes
  of [1024, 200] into a scalar, the reference views e1 as [1024, 1, 200] and reduces over axes 0 and 2 into [1],
  carrying the statistics as [1, 1, 1].  On the extended reals a finite sum may be re-indexed freely, so both
  means are (0 + Σ_{a, c} e1[a, c]) / N and both variances are the same guarded quotient of
  0 + Σ_{a, c} (e1[a, c] - mean)²; every broadcast of a one-entry array reads that entry, and the final view
  back to [1024, 200] reads (a, 0, c) at (a, c).  Both outputs are therefore, entry by entry,
  (e1[a, c] - mean) * rsqrt(var + eps) * g0[0] + b0[0]  (x_eq).

  After that cut the two programs apply the same operations at the same shapes, dimension records and shape
  facts, so the two compositions are the same term up to the names of the two programs' copies (tail_eq).
-/
import proofs.«161430_j19885698580525_1_alg».proof.Proof.KernelSpec
import proofs.«161430_j19885698580525_1_alg».proof.Proof.RefSpec
import Idealize.ShloMosaic.PureOps.Ideal.Laws
import Idealize.ShloMosaic.Lib.IdealHost
import Idealize.ShloMosaic.Lib.ValueLayout

noncomputable section

namespace Cert.KernelIdeal.HostVal

open Idealize.ShloMosaic Idealize.ShloMosaic.ValueIdx
open scoped BigOperators

/-! ## Layout operations of the two normalisations, read at an index -/

section Reads
variable {α : Type}

/-- The [1024, 1, 200] view of a [1024, 200] array reads (a, c) at (a, 0, c). -/
theorem view_apply (h : (⟨2, ![1024, 200]⟩ : Shape).BroadcastsInDim ⟨3, ![1024, 1, 200]⟩ ![0, 2])
    (x : (⟨2, ![1024, 200]⟩ : Shape).Idx → α) (a : Fin 1024) (c : Fin 200) :
    broadcastInDim ⟨3, ![1024, 1, 200]⟩ (no_index ![0, 2]) h x (ix3 a (0 : Fin 1) c) = x (ix2 a c) :=
  broadcastInDim_apply _ h x _ _ fun d => match d with | ⟨0, _⟩ => rfl | ⟨1, _⟩ => rfl

/-- A [1, 1, 1] array broadcast over [1024, 1, 200] reads its one entry. -/
theorem bc111_apply (h : (⟨3, ![1, 1, 1]⟩ : Shape).BroadcastsInDim ⟨3, ![1024, 1, 200]⟩ ![0, 1, 2])
    (w : (⟨3, ![1, 1, 1]⟩ : Shape).Idx → α) (j : (⟨3, ![1024, 1, 200]⟩ : Shape).Idx) :
    broadcastInDim ⟨3, ![1024, 1, 200]⟩ (no_index ![0, 1, 2]) h w j = w (ix3 (0 : Fin 1) (0 : Fin 1) (0 : Fin 1)) :=
  broadcastInDim_apply _ h w _ _ fun d => match d with | ⟨0, _⟩ => rfl | ⟨1, _⟩ => rfl | ⟨2, _⟩ => rfl

/-- A [1] array viewed as [1, 1, 1] reads its one entry. -/
theorem bc1_apply (h : (⟨1, ![1]⟩ : Shape).BroadcastsInDim ⟨3, ![1, 1, 1]⟩ ![1])
    (g : (⟨1, ![1]⟩ : Shape).Idx → α) (j : (⟨3, ![1, 1, 1]⟩ : Shape).Idx) :
    broadcastInDim ⟨3, ![1, 1, 1]⟩ (no_index ![1]) h g j = g (ix1 (0 : Fin 1)) :=
  broadcastInDim_apply _ h g _ _ fun d => match d with | ⟨0, _⟩ => rfl

/-- A [1, 1] array broadcast over [1024, 200] reads its one entry. -/
theorem bc11_apply (h : (⟨2, ![1, 1]⟩ : Shape).BroadcastsInDim ⟨2, ![1024, 200]⟩ ![0, 1])
    (w : (⟨2, ![1, 1]⟩ : Shape).Idx → α) (j : (⟨2, ![1024, 200]⟩ : Shape).Idx) :
    broadcastInDim ⟨2, ![1024, 200]⟩ (no_index ![0, 1]) h w j = w (ix2 (0 : Fin 1) (0 : Fin 1)) :=
  broadcastInDim_apply _ h w _ _ fun d => match d with | ⟨0, _⟩ => rfl | ⟨1, _⟩ => rfl

/-- A scalar broadcast to any shape reads the scalar. -/
theorem bc0_apply {T : Shape} (h : (⟨0, ![]⟩ : Shape).BroadcastsInDim T ![]) (x : (⟨0, ![]⟩ : Shape).Idx → α) (j : T.Idx) :
    broadcastInDim T (no_index ![]) h x j = x ix0 :=
  broadcastInDim_scalar_apply h x j

/-- A [1] array viewed as a scalar reads its one entry. -/
theorem sc1_apply (h : (⟨1, ![1]⟩ : Shape).ShapeCasts ⟨0, ![]⟩) (g : (⟨1, ![1]⟩ : Shape).Idx → α) (j : (⟨0, ![]⟩ : Shape).Idx) :
    shapeCast ⟨0, ![]⟩ g h j = g (ix1 (0 : Fin 1)) :=
  shapeCast_apply g h _ _ (by
    rw [Shape.rowMajor_val_one]
    exact (Shape.rowMajorPi_zero _ _).symm)

/-- The [1024, 1, 200] array viewed back as [1024, 200] reads (a, 0, c) at (a, c). -/
theorem unview_apply (h : (⟨3, ![1024, 1, 200]⟩ : Shape).ShapeCasts ⟨2, ![1024, 200]⟩)
    (z : (⟨3, ![1024, 1, 200]⟩ : Shape).Idx → α) (a : Fin 1024) (c : Fin 200) :
    shapeCast ⟨2, ![1024, 200]⟩ z h (ix2 a c) = z (ix3 a (0 : Fin 1) c) :=
  shapeCast_apply z h _ _ (by
    rw [Shape.rowMajor_val_three, Shape.rowMajor_val_two]
    show (a.val * 1 + 0) * 200 + c.val = a.val * 200 + c.val
    omega)

end Reads

/-! ## Sums over the two index sets -/

/-- [1024, 200] indices and [1024, 1, 200] indices correspond: insert or drop the unit middle coordinate. -/
def viewEquiv : (⟨2, ![1024, 200]⟩ : Shape).Idx ≃ (⟨3, ![1024, 1, 200]⟩ : Shape).Idx where
  toFun k := ix3 (k 0) (0 : Fin 1) (k 1)
  invFun j := ix2 (j 0) (j 2)
  left_inv k := (eq_ix2 k).symm
  right_inv j := by
    funext d
    match d with
    | ⟨0, _⟩ => rfl
    | ⟨1, _⟩ => exact Fin.ext (by have h : (j 1).val < 1 := (j 1).isLt; show 0 = (j 1).val; omega)
    | ⟨2, _⟩ => rfl

/-- A sum over the [1024, 1, 200] indices is the double sum over rows and columns. -/
theorem sum_idx3_unit {M : Type*} [AddCommMonoid M] (f : (⟨3, ![1024, 1, 200]⟩ : Shape).Idx → M) :
    ∑ j, f j = ∑ a : Fin 1024, ∑ c : Fin 200, f (ix3 a (0 : Fin 1) c) := by
  rw [← Equiv.sum_comp viewEquiv f, sum_idx2]
  rfl

/-- The host's sum of a [1024, 200] array over both axes: the initial value plus the double sum. -/
theorem sumAll2 (u : FVec Ideal ⟨2, ![1024, 200]⟩ .f32) (init : (⟨0, ![]⟩ : Shape).Idx → EReal)
    (h : (⟨2, ![1024, 200]⟩ : Shape).ReducesTo [0, 1] ⟨0, ![]⟩) (hu : 0 < (⟨0, ![]⟩ : Shape).numel) (j : (⟨0, ![]⟩ : Shape).Idx) :
    Host.reduceAdd (F := Ideal) u init h hu j = init (Shape.Idx.first hu) + ∑ a : Fin 1024, ∑ c : Fin 200, u (ix2 a c) := by
  rw [hostReduceAdd_apply, Ideal.hostReduceAdd_total h (fun b => b.elim0), sum_idx2]

/-- The host's sum of a [1024, 1, 200] array over axes 0 and 2: the initial value plus the double sum. -/
theorem sumAll3 (u : FVec Ideal ⟨3, ![1024, 1, 200]⟩ .f32) (init : (⟨0, ![]⟩ : Shape).Idx → EReal)
    (h : (⟨3, ![1024, 1, 200]⟩ : Shape).ReducesTo [0, 2] ⟨1, ![1]⟩) (hu : 0 < (⟨0, ![]⟩ : Shape).numel) (j : (⟨1, ![1]⟩ : Shape).Idx) :
    Host.reduceAdd (F := Ideal) u init h hu j
      = init (Shape.Idx.first hu) + ∑ a : Fin 1024, ∑ c : Fin 200, u (ix3 a (0 : Fin 1) c) := by
  rw [hostReduceAdd_apply, Ideal.hostReduceAdd_total h (fun b => match b with | ⟨0, _⟩ => rfl), sum_idx3_unit]

/-! ## Elementwise host operations at an index -/

theorem hostRsqrt_apply {s : Shape} (x : FVec Ideal s .f32) (i : s.Idx) : Host.rsqrt x i = Ideal.rsqrt (x i) := rfl
theorem constantI_apply {s : Shape} {w : Nat} (b : BitVec w) (i : s.Idx) : constantI s w b i = b := rfl

/-! ## The first batch normalisation -/

/-- The kernel program's normalised e1 is the reference's: read at an entry (a, c), both are
    (e1[a, c] - mean) * rsqrt(var + eps) * g0[0] + b0[0] with the mean and the guarded variance written as
    double sums over rows and columns. -/
theorem x_eq (e1 : FVec Ideal S1024x200 .f32) (g0 b0 : FVec Ideal S1 .f32) :
    xK (F := Ideal) e1 g0 b0 = Cert.ReferenceIdeal.RefRun.xR (F := Ideal) e1 g0 b0 := by
  funext i
  obtain ⟨a, c, rfl⟩ : ∃ (a : Fin 1024) (c : Fin 200), i = ix2 a c := ⟨i 0, i 1, eq_ix2 i⟩
  simp only [xK, bn0K, meanAll, varAll, zeroI, Cert.ReferenceIdeal.RefRun.xR,
    unview_apply, addf_apply, mulf_apply, subf_apply, bc111_apply, bc1_apply, bc11_apply, view_apply, sc1_apply,
    bc0_apply, hostDivf_apply, hostRsqrt_apply, select_apply, cmpf_apply, sitofp_apply, constant_apply,
    constantI_apply, sumAll2, sumAll3, id_eq]

/-! ## Everything after it -/

/-- From the normalised e1 on, the two programs compose the same operations: the two compositions are one term
    up to unfolding the stage functions and the two programs' copies of the shapes and dimension records. -/
theorem tail_eq (x r : FVec Ideal S1024x200 .f32) (fc1_w : FVec Ideal S288x200 .f32) (fc1_b : FVec Ideal S288 .f32)
    (fc_w : FVec Ideal S200x6144 .f32) (fc_b : FVec Ideal S200 .f32) (g1 b1 : FVec Ideal S32 .f32) (g2 b2 : FVec Ideal S200 .f32) :
    tailK (F := Ideal) x r fc1_w fc1_b fc_w fc_b g1 b1 g2 b2
      = Cert.ReferenceIdeal.RefRun.tailR (F := Ideal) x r fc1_w fc1_b fc_w fc_b g1 b1 g2 b2 :=
  rfl

/-- The two host prefixes agree on the region's operand: the kernel program's relu output is the reference's. -/
theorem host_eq (e1 r : FVec Ideal S1024x200 .f32) (fc1_w : FVec Ideal S288x200 .f32) (fc1_b : FVec Ideal S288 .f32)
    (fc_w : FVec Ideal S200x6144 .f32) (fc_b : FVec Ideal S200 .f32) (g0 b0 : FVec Ideal S1 .f32) (g1 b1 : FVec Ideal S32 .f32)
    (g2 b2 : FVec Ideal S200 .f32) :
    tailK (F := Ideal) (xK e1 g0 b0) r fc1_w fc1_b fc_w fc_b g1 b1 g2 b2
      = Cert.ReferenceIdeal.RefRun.tailR (F := Ideal) (Cert.ReferenceIdeal.RefRun.xR e1 g0 b0) r fc1_w fc1_b fc_w fc_b g1 b1 g2 b2 := by
  rw [tail_eq, x_eq]

end Cert.KernelIdeal.HostVal

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibLogisticForms.lean ====
/-
  The sigmoid on the extended reals, however it is spelt.

  Array code writes the sigmoid of s as 1 / (1 + exp (-s)) with the two ones as float literals; a kernel has it as one
  operation. On the extended reals the operation IS that quotient (with exp (-s) = +inf at s = -inf, where the quotient is 0, and
  exp (-s) = 0 at s = +inf, where it is 1), so the two spellings agree at every extended real once the literal word
  0x3F800000 is read as the real 1. Generic: nothing here mentions a program.
-/
import Idealize.ShloMosaic.PureOps.Ideal

noncomputable section

namespace Cert.LibLogisticForms

open Idealize.ShloMosaic

/-- The single-precision word of 1.0 is the real 1. -/
theorem ofBits_one : Ideal.ofBits .f32 0x3F800000#32 = 1 := by
  simp [Ideal.ofBits, Ideal.ieee, -EReal.coe_mul]; norm_num

/-- 1 / (1 + exp (-s)), the two ones given as anything equal to 1, is the sigmoid of s, at every extended real s. -/
theorem logistic_spelt (one1 one2 s : EReal) (h1 : one1 = 1) (h2 : one2 = 1) :
    Ideal.div one1 (one2 + Ideal.exp (-s)) = Ideal.logistic s := by
  subst h1 h2; rfl

end Cert.LibLogisticForms

end
-- ==== Proof.FinBridge.lean ====
/-
  The last layer on the two sides, on the extended reals: the reference computes y * E^T + b with one matrix product over the
  transposed embedding table and then 1 / (1 + exp (-s)); entry (i, j) of that is the sigmoid of
  sum_c y(i, c) * E(j, c) + b(j) — the kernel's closed form. The sigmoid is one function on the extended reals however it is
  spelt, the word 0x3F800000 is the real 1, and a transposed table read at (c, j) is the table at (j, c).
-/
import proofs.«161430_j19885698580525_1_alg».proof.Proof.KIValue
import proofs.«161430_j19885698580525_1_alg».proof.Proof.RefSpec
import proofs.«161430_j19885698580525_1_alg».proof.Proof.LibHostReads
import proofs.«161430_j19885698580525_1_alg».proof.Proof.LibLogisticForms
import Idealize.ShloMosaic.Lib.ValueLayout

noncomputable section

namespace Cert.FinBridge

open Idealize.ShloMosaic Idealize.ShloMosaic.ValueIdx

open Cert.ReferenceIdeal in
/-- The reference's last layer is the kernel's closed form, entry by entry. -/
theorem fin_eq (y : FVec Ideal S1024x200 .f32) (E : FVec Ideal S100000x200 .f32) (b : FVec Ideal S100000 .f32) :
    Cert.ReferenceIdeal.RefRun.finR (F := Ideal) y E b = Cert.KernelIdeal.Value.G y E b := by
  funext p
  obtain ⟨i, j, rfl⟩ : ∃ (i : Fin 1024) (j : Fin 100000), p = ix2 i j := ⟨p 0, p 1, eq_ix2 p⟩
  have hone : (broadcastInDim S1024x100000 ![] Cert.ReferenceIdeal.Gen.bcast_S_S1024x100000 (constant (F := Ideal) S_ .f32 0x3F800000#32)) (ix2 i j) = (1 : EReal) :=
    (Cert.LibHostReads.splat_apply _ _ _).trans Cert.LibLogisticForms.ofBits_one
  have hd : Host.dotGeneral (F := Ideal) dot_S1024x200_S200x100000_S1024x100000_1_0_0_1_n_n none y
        (transpose S200x100000 [1, 0] E Cert.ReferenceIdeal.Gen.transposes_S100000x200_S200x100000_1_0) (ix2 i j)
      = ∑ c : Fin 200, y (ix2 i c) * E (ix2 j c) :=
    (Cert.LibHostReads.dot_apply _ rfl y _ i j).trans
      (Finset.sum_congr rfl fun c _ => congrArg (y (ix2 i c) * ·) (transpose_ix2_apply E _ c j))
  have hb : (broadcastInDim S1024x100000 ![0, 1] Cert.ReferenceIdeal.Gen.bcast_S1x100000_S1024x100000_0_1
        (broadcastInDim S1x100000 ![1] Cert.ReferenceIdeal.Gen.bcast_S100000_S1x100000_1 b)) (ix2 i j) = b (ix1 j) :=
    Cert.LibHostReads.rowBias_apply (by decide) _ _ b i j
  unfold Cert.ReferenceIdeal.RefRun.finR
  refine (Cert.LibLogisticForms.logistic_spelt _ _ _ hone hone).trans ?_
  exact congrArg Ideal.logistic (congrArg₂ (· + ·) hd hb)

end Cert.FinBridge

end
-- ==== Proof.lean ====
/-
  The certificate of the ConvE-style scorer: a network of three batch normalisations, a per-sample 1-D convolution whose
  filters come from a linear layer, and two more linear layers, ending in  sigmoid (y * E^T + b)  over a table E of 100000
  embedding rows.  The kernel program runs everything up to y on the host and the last layer as a grid of 98 points, each
  producing 1024 columns of scores (the last one 672) from 1024 rows of E; the reference is the same network in plain array
  code.

  Frames.  Each program terminates without fault and leaves its fourteen argument arrays unchanged: for the two kernel
  programs because the embedding table and the biases are only read through their blocks and every other argument bypasses the
  grid; for the reference because it is a straight line of array operations that write fresh arrays.

  Equality on the extended reals.  Up to y the two programs apply the same array operations, except that the first batch
  normalisation takes its mean and variance over both axes of the [1024, 200] input in one program and over axes 0 and 2 of its
  [1024, 1, 200] view in the other: the same finite sums re-indexed, equal in any commutative monoid, so no finiteness of the
  inputs is used.  In the last layer entry (i, j) is, in both programs, the sigmoid of  sum_c y(i, c) * E(j, c) + b(j): the
  kernel reads row j of E from block j / 1024 at position j mod 1024, the reference reads column j of the transposed table; the
  roundings on the way into the kernel's product are the identity on the extended reals; and 1 / (1 + exp (-s)) is the sigmoid.
  The staged rows of the last block that lie past the table's end never reach a column that is written back.
-/
import proofs.«161430_j19885698580525_1_alg».proof.Defs
import proofs.«161430_j19885698580525_1_alg».proof.Proof.Gen.Kernel
import proofs.«161430_j19885698580525_1_alg».proof.Proof.Gen.KernelIdeal
import proofs.«161430_j19885698580525_1_alg».proof.Proof.Gen.ReferenceIdeal
import proofs.«161430_j19885698580525_1_alg».proof.Proof.Gen.Pre_finite_inputs
import proofs.«161430_j19885698580525_1_alg».proof.Proof.KBody
import proofs.«161430_j19885698580525_1_alg».proof.Proof.KIValue
import proofs.«161430_j19885698580525_1_alg».proof.Proof.KernelHost
import proofs.«161430_j19885698580525_1_alg».proof.Proof.RefRun
import proofs.«161430_j19885698580525_1_alg».proof.Proof.HostBridge
import proofs.«161430_j19885698580525_1_alg».proof.Proof.FinBridge
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Body.frame (F := Bits) m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end with the result array at the closed form of the last layer applied to the shared prefix's output. -/
theorem algebraic : Cert.algebraic_KernelIdeal_ReferenceIdeal := by
  intro m ρ m' ρ' _ hagree
  refine ⟨fun c => Cert.KernelIdeal.Value.G (Cert.KernelIdeal.Gen.V m c Cert.KernelIdeal.main_v78)
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)),
    Cert.KernelIdeal.Value.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11, h12, h13⟩ := hagree c
  rw [h0, h1, h2, h3, h4, h5, h6, h7, h8, h9, h10, h11, h12, h13]
  rw [Cert.FinBridge.fin_eq]
  dsimp only
  rw [Cert.KernelIdeal.HostVal.V_main_v78, Cert.KernelIdeal.HostVal.host_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
